-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8192x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S1024x8192 : Shape := ⟨2, ![1024, 8192]⟩
abbrev S512x1024 : Shape := ⟨2, ![512, 1024]⟩
abbrev S1024x512 : Shape := ⟨2, ![1024, 512]⟩
abbrev S1x1024 : Shape := ⟨2, ![1, 1024]⟩
abbrev S1024x1 : Shape := ⟨2, ![1024, 1]⟩
abbrev S8192x1024x1 : Shape := ⟨3, ![8192, 1024, 1]⟩

abbrev nBuf : Space → Nat
  | .hbm => 24
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S8192x1024, .bf16⟩
  | .hbm, ⟨20, _⟩ => ⟨S1024x8192, .bf16⟩
  | .hbm, ⟨21, _⟩ => ⟨S8192x1024, .bf16⟩
  | .hbm, ⟨22, _⟩ => ⟨S8192x1024, .f32⟩
  | .hbm, ⟨23, _⟩ => ⟨S8192x1024x1, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | .local _ .vmem, ⟨22, _⟩ => ⟨S1024x1, .f32⟩
  | .local _ .vmem, ⟨23, _⟩ => ⟨S1024x1, .f32⟩
  | .local _ .vmem, ⟨24, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_23 : BitVec 32 := 0#32
  let v42 : BitVec 1 := Scalar.cmpi .ne v41 c0_i32_23
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S1024x1024 : S_.BroadcastsInDim S1024x1024 (![] : Fin 0 → Fin S1024x1024.rank)
  transposes_S1024x1024_S1024x1024_1_0 : S1024x1024.Transposes [1, 0] S1024x1024
  bitsLt_bf16_f32 : FTy.bits .bf16 < FTy.bits .f32
  bcast_S_S1024 : S_.BroadcastsInDim S1024 (![] : Fin 0 → Fin S1024.rank)
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  transposes_S512x1024_p1_0_S1024x512 : S512x1024.Transposes [1, 0] S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024 : S1024x1024.Reduces [1] S1024
  shapeCasts_S1024_S1024x1 : S1024.ShapeCasts S1024x1
  broadcasts_S1024x1_S1024x1024 : S1024x1.Broadcasts S1024x1024
  shapeCasts_S8192x1024_S8192x1024x1 : S8192x1024.ShapeCasts S8192x1024x1
  dot_S512x1024_S1024x1024_S512x1024_1_0_0_1_n_n_wf : DotDims.WF S512x1024 S1024x1024 S512x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S1024x8192.size a
  hwx0_8 : ∀ i : grid0.Coords, EltTy.bits .bf16 = 32 ∨ (Rect.block (s := S1024x8192) S1024x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x8192.size a
  hwx1_1 : ∀ i : grid1.Coords, EltTy.bits .bf16 = 32 ∨ (Rect.block (s := S1024x8192) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .bf16 = 32 ∨ (Rect.block (s := S8192x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .f32 = 32 ∨ (Rect.block (s := S8192x1024) S1024x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S1024x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v10_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10_1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10_2) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S1024x8192 : Shape := ⟨2, ![1024, 8192]⟩
abbrev S8192x8192 : Shape := ⟨2, ![8192, 8192]⟩
abbrev S8192 : Shape := ⟨1, ![8192]⟩
abbrev S8192x1 : Shape := ⟨2, ![8192, 1]⟩
abbrev S8192x1024x1 : Shape := ⟨3, ![8192, 1024, 1]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S1024x1024, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S1024x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1024x8192, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S8192x1, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x8192, .f32⟩
  | .hbm, ⟨43, _⟩ => ⟨S8192x8192, .f32⟩
  | .hbm, ⟨44, _⟩ => ⟨S8192x1024, .f32⟩
  | .hbm, ⟨45, _⟩ => ⟨S8192x1024x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S8192x1024_S1024x8192_1_0 : S8192x1024.Transposes [1, 0] S1024x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  shapeCasts_S8192x1024_S8192x1024x1 : S8192x1024.ShapeCasts S8192x1024x1
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.KRegion0.lean ====
import proofs.«167690_j59450937312052_2_alg».proof.Proof.Gen.Kernel.Launch
import proofs.«167690_j59450937312052_2_alg».proof.Proof.Gen.Kernel.Skeleton
import proofs.«167690_j59450937312052_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The projection region: one launch computing the three projections of a 512-row block of the input

At a grid point the body multiplies the point's 512 rows of the input by each of the three (already transposed)
weight matrices, adds the bias along the rows, and stores the three results whole: two as they are, the middle one
transposed. Stated at a parameter `V`: what the core's buffers hold when the region is entered. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds the window's block at every point, whether the point fetched it or not:
    where it is not fetched the block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores through: each buffer whole -/
abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1024 := Rect.unit (s := S1024) ![0] S1024.size inb_S1024_S1024_0
abbrev rT : Rect S1024x512 := Rect.unit (s := S1024x512) ![0, 0] S1024x512.size inb_S1024x512_S1024x512_0_0

/-! ## What the body leaves in each output window's buffer: its one store, over the loaded blocks -/

/-- The first projection of the block: rows times the first weight matrix plus its bias. -/
def out0_7 (x0 : Vec F S512x1024 .f32) (x1 : Vec F S1024x1024 .bf16) (x2 : Vec F S1024 .f32) : Vec F S512x1024 .bf16 :=
  View.canon [⟨rX, k0_pay2 (View.ld x0 rX) (View.ld x1 rW) (View.ld x2 rB)⟩]
/-- The second projection of the block, stored transposed. -/
def out0_8 (x0 : Vec F S512x1024 .f32) (x3 : Vec F S1024x1024 .bf16) (x4 : Vec F S1024 .f32) : Vec F S1024x512 .bf16 :=
  View.canon [⟨rT, k0_pay4 (View.ld x0 rX) (View.ld x3 rW) (View.ld x4 rB)⟩]
/-- The third projection of the block. -/
def out0_9 (x0 : Vec F S512x1024 .f32) (x5 : Vec F S1024x1024 .bf16) (x6 : Vec F S1024 .f32) : Vec F S512x1024 .bf16 :=
  View.canon [⟨rX, k0_pay3 (View.ld x0 rX) (View.ld x5 rW) (View.ld x6 rB)⟩]

/-- A single whole-buffer store covers the buffer. -/
theorem cover0_X (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y
theorem cover0_T (p0 : Vec F S1024x512 .bf16) (y : S1024x512.Idx) :
    ∃ pc ∈ ([⟨rT, p0⟩] : List (View.Piece (Elt F) S1024x512 .bf16)), y ∈ pc.1.set :=
  View.cover_of_tiled [⟨rT, p0⟩] S1024x512.size (by rfl) y

/-! ## The body's triple -/

set_option maxHeartbeats 4000000 in
/-- On whole staging buffers, the seven inputs' at the contents read and the three outputs' at anything, the body runs
    to the continuation holding the inputs' as they were and each output's at its projection of them. -/
theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S512x1024 .bf16) (harg8 : arg8.IsWhole) (arg9 : Memref sig .tc .vmem S1024x512 .bf16) (harg9 : arg9.IsWhole) (arg10 : Memref sig .tc .vmem S512x1024 .bf16) (harg10 : arg10.IsWhole)
    (x0 : Vec F S512x1024 .f32) (x1 : Vec F S1024x1024 .bf16) (x2 : Vec F S1024 .f32) (x3 : Vec F S1024x1024 .bf16) (x4 : Vec F S1024 .f32) (x5 : Vec F S1024x1024 .bf16) (x6 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2) ∗ owns (c : Thread nD τ) arg9 fullShare (out0_8 x0 x3 x4) ∗ owns (c : Thread nD τ) arg10 fullShare (out0_9 x0 x5 x6)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_X _)
  isplitl [H8]
  · iexists _; isplitr
    swap; · iexact H8
    ipureintro
    exact View.read_writes_eq_canon _ _ _ (cover0_T _)
  iexists _; isplitr
  swap; · iexact H9
  ipureintro
  exact View.read_writes_eq_canon _ _ _ (cover0_X _)

end Region0

/-! ## The proof data of the projection region -/

section Data0
variable (V : (c : Dev nD) → (b : Ref sig .tc) → Buf (Elt F) ((c : Thread nD τ).loc b))

/-- On core `c`: the arrays as the region finds them; after the body at point `t` each input's buffer at its block and
    each output's at its projection of the point's input blocks; the invariant is the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Data0

end Cert.Kernel.Hand

end
-- ==== Proof.KRegion1.lean ====
import proofs.«167690_j59450937312052_2_alg».proof.Proof.Gen.Kernel.Launch
import proofs.«167690_j59450937312052_2_alg».proof.Proof.Gen.Kernel.Skeleton
import proofs.«167690_j59450937312052_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region: what its three control cases share

The grid is 8 row blocks by 8 column blocks, the column block the inner coordinate. At a point the body resets three
scratch buffers (the running row maximum, the running row sum, the running weighted sum) when the column block is the
first, updates them from the point's blocks, and when the column block is the last divides the weighted sum by the row
sum into the output block. So a point is in one of three cases: first column block, a middle one, the last. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions, decided over the grid -/

/-- "The column block is the first": the reset's condition, as the body computes it from the coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "The column block is the last": the final division's condition. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last column block the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- On the last column block it is live. -/
theorem liveAt1_3 : ∀ t : Fin cfg1.N, cond1_1 (grid1.coords t) → cfg1.idle 3 (grid1.coords t) = false := by decide +kernel

/-! ## The staging and scratch memrefs -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The running row maximum, -/
abbrev scM1_0 : Memref sig .tc .vmem S1024x1 .f32 := Memref.whole cc1_scratch0
/-- the running row sum, -/
abbrev scM1_1 : Memref sig .tc .vmem S1024x1 .f32 := Memref.whole cc1_scratch1
/-- and the running weighted sum. -/
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view
/-- One staging buffer of the output window, through which its contents are stated. -/
abbrev VO1_3 : View sig .tc .vmem S1024x1024 .f32 := (Memref.whole cc1_stg3_0 : Memref sig .tc .vmem S1024x1024 .f32).view

/-- The other region's staging buffers, which this region never touches: each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- The class invariant of the region with its scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.KRun1A.lean ====
import proofs.«167690_j59450937312052_2_alg».proof.Proof.Gen.Kernel.Launch
import proofs.«167690_j59450937312052_2_alg».proof.Proof.Gen.Kernel.Skeleton
import proofs.«167690_j59450937312052_2_alg».proof.Proof.Gen.Kernel.Points
import proofs.«167690_j59450937312052_2_alg».proof.Proof.KRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- FIRST COLUMN BLOCK. On whole buffers — the three inputs at their contents, the output block untouched, the three
    scratch buffers at anything — the body resets the scratch, updates it from the point's blocks, and returns with
    each scratch buffer at the pieces its stores wrote (last first); the pieces are what the run finds. -/
noncomputable def kernelRun1_A (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x1024 .bf16) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.KRun1B.lean ====
import proofs.«167690_j59450937312052_2_alg».proof.Proof.Gen.Kernel.Launch
import proofs.«167690_j59450937312052_2_alg».proof.Proof.Gen.Kernel.Skeleton
import proofs.«167690_j59450937312052_2_alg».proof.Proof.Gen.Kernel.Points
import proofs.«167690_j59450937312052_2_alg».proof.Proof.KRun1A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A MIDDLE COLUMN BLOCK. The scratch buffers arrive at the contents the point before left; the body updates them
    from the point's blocks and leaves the output block untouched. -/
noncomputable def kernelRun1_B (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x1024 .bf16)
    (xs0 : Vec F S1024x1 .f32) (xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.KRun1C.lean ====
import proofs.«167690_j59450937312052_2_alg».proof.Proof.Gen.Kernel.Launch
import proofs.«167690_j59450937312052_2_alg».proof.Proof.Gen.Kernel.Skeleton
import proofs.«167690_j59450937312052_2_alg».proof.Proof.Gen.Kernel.Points
import proofs.«167690_j59450937312052_2_alg».proof.Proof.KRun1B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- THE LAST COLUMN BLOCK. The scratch buffers arrive at the contents the point before left; the body updates them
    and stores the quotient of the weighted sum by the row sum into the output block, which arrives at anything. -/
noncomputable def kernelRun1_C (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x1024 .bf16)
    (xs0 : Vec F S1024x1 .f32) (xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.KData1.lean ====
import proofs.«167690_j59450937312052_2_alg».proof.Proof.Gen.Kernel.Launch
import proofs.«167690_j59450937312052_2_alg».proof.Proof.Gen.Kernel.Skeleton
import proofs.«167690_j59450937312052_2_alg».proof.Proof.Gen.Kernel.Points
import proofs.«167690_j59450937312052_2_alg».proof.Proof.KRun1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region: what its buffers hold point by point, its proof data and its body obligation -/

section Data1
variable (V : (c : Dev nD) → (b : Ref sig .tc) → Buf (Elt F) ((c : Thread nD τ).loc b))

/-! ## What a point of each case leaves: the output block, then the three scratch buffers -/

/-- A point on the first column block: the scratch buffers reset and updated once; the output block a placeholder
    (the window is idle there: nothing reads the placeholder). -/
def caseA (c : Dev nD) (t : Fin cfg1.N) (hc0 : cond1_0 (grid1.coords t)) (hc1 : ¬cond1_1 (grid1.coords t)) : Vec F S1024x1024 .f32 × Vec F S1024x1 .f32 × Vec F S1024x1 .f32 × Vec F S1024x1024 .f32 :=
  (VO1_3.read (Elt F) (VO1_3.writes (Elt F) VO1_3.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).1),
   VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.2.1),
   VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.2.2.1))
/-- A point on a middle column block, the scratch buffers arriving at `s`'s last three components. -/
def caseB (c : Dev nD) (t : Fin cfg1.N) (hc0 : ¬cond1_0 (grid1.coords t)) (hc1 : ¬cond1_1 (grid1.coords t)) (s : Vec F S1024x1024 .f32 × Vec F S1024x1 .f32 × Vec F S1024x1 .f32 × Vec F S1024x1024 .f32) : Vec F S1024x1024 .f32 × Vec F S1024x1 .f32 × Vec F S1024x1 .f32 × Vec F S1024x1024 .f32 :=
  (VO1_3.read (Elt F) (VO1_3.writes (Elt F) VO1_3.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).1),
   VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.1),
   VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.2.1),
   VS1_2.read (Elt F) (VS1_2.writes (Elt F) VS1_2.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.2.2.1))
/-- A point on the last column block: the output block stored. -/
def caseC (c : Dev nD) (t : Fin cfg1.N) (hc0 : ¬cond1_0 (grid1.coords t)) (hc1 : cond1_1 (grid1.coords t)) (s : Vec F S1024x1024 .f32 × Vec F S1024x1 .f32 × Vec F S1024x1 .f32 × Vec F S1024x1024 .f32) : Vec F S1024x1024 .f32 × Vec F S1024x1 .f32 × Vec F S1024x1 .f32 × Vec F S1024x1024 .f32 :=
  (VO1_3.read (Elt F) (VO1_3.writes (Elt F) VO1_3.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).1),
   VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.1),
   VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.2.1),
   VS1_2.read (Elt F) (VS1_2.writes (Elt F) VS1_2.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.2.2.1))

/-- THE RECURSION along the grid: what the output's staging buffer and the three scratch buffers hold after the body at
    position `n`: the case the position is in, run on the point's blocks, its scratch arriving at what position
    `n - 1` left. -/
def outsAt1 (c : Dev nD) : (n : ℕ) → n < cfg1.N → Vec F S1024x1024 .f32 × Vec F S1024x1 .f32 × Vec F S1024x1 .f32 × Vec F S1024x1024 .f32
  | 0, hn => caseA V c ⟨0, hn⟩ ((hcond1_0 ⟨0, hn⟩).mpr (Nat.zero_mod _)) (fun h => by have := (hcond1_1 ⟨0, hn⟩).mp h; (try dsimp only at this); omega)
  | n + 1, hn =>
    if h0 : (n + 1) % 8 = 0 then
      if h1 : (n + 1) % 8 = 7 then False.elim (by omega)
      else caseA V c ⟨n + 1, hn⟩ ((hcond1_0 ⟨n + 1, hn⟩).mpr h0) (fun h => h1 ((hcond1_1 ⟨n + 1, hn⟩).mp h))
    else
      if h1 : (n + 1) % 8 = 7 then
        caseC V c ⟨n + 1, hn⟩ (fun h => h0 ((hcond1_0 ⟨n + 1, hn⟩).mp h)) ((hcond1_1 ⟨n + 1, hn⟩).mpr h1) (outsAt1 c n (Nat.lt_of_succ_lt hn))
      else
        caseB V c ⟨n + 1, hn⟩ (fun h => h0 ((hcond1_0 ⟨n + 1, hn⟩).mp h)) (fun h => h1 ((hcond1_1 ⟨n + 1, hn⟩).mp h)) (outsAt1 c n (Nat.lt_of_succ_lt hn))

theorem outsAt1_A (c : Dev nD) (t : Fin cfg1.N) (h0 : t.val % 8 = 0) (h1 : ¬t.val % 8 = 7) :
    outsAt1 V c t.val t.isLt = caseA V c t ((hcond1_0 t).mpr h0) (fun h => h1 ((hcond1_1 t).mp h)) := by
  obtain ⟨n, hn⟩ := t
  cases n with
  | zero => exact rfl
  | succ n => exact (dif_pos h0).trans ((dif_neg h1).trans rfl)
theorem outsAt1_B (c : Dev nD) (t : Fin cfg1.N) (h0 : ¬t.val % 8 = 0) (h1 : ¬t.val % 8 = 7) :
    outsAt1 V c t.val t.isLt = caseB V c t (fun h => h0 ((hcond1_0 t).mp h)) (fun h => h1 ((hcond1_1 t).mp h))
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 8 = 0) (h1 : t.val % 8 = 7) :
    outsAt1 V c t.val t.isLt = caseC V c t (fun h => h0 ((hcond1_0 t).mp h)) ((hcond1_1 t).mpr h1)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## Each case's stores cover the buffers they are read back from -/
theorem scover1_A_0 (c : Dev nD) (t : Fin cfg1.N) (hc0 : cond1_0 (grid1.coords t)) (hc1 : ¬cond1_1 (grid1.coords t)) (y : S1024x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.1 S1024x1.size (by sl_kernel_rfl) y
theorem scover1_A_1 (c : Dev nD) (t : Fin cfg1.N) (hc0 : cond1_0 (grid1.coords t)) (hc1 : ¬cond1_1 (grid1.coords t)) (y : S1024x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.2.1 S1024x1.size (by sl_kernel_rfl) y
theorem scover1_A_2 (c : Dev nD) (t : Fin cfg1.N) (hc0 : cond1_0 (grid1.coords t)) (hc1 : ¬cond1_1 (grid1.coords t)) (y : S1024x1024.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.2.2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.2.2.1 S1024x1024.size (by sl_kernel_rfl) y
theorem scover1_B_0 (c : Dev nD) (t : Fin cfg1.N) (hc0 : ¬cond1_0 (grid1.coords t)) (hc1 : ¬cond1_1 (grid1.coords t)) (s : Vec F S1024x1024 .f32 × Vec F S1024x1 .f32 × Vec F S1024x1 .f32 × Vec F S1024x1024 .f32) (y : S1024x1.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.1 S1024x1.size (by sl_kernel_rfl) y
theorem scover1_B_1 (c : Dev nD) (t : Fin cfg1.N) (hc0 : ¬cond1_0 (grid1.coords t)) (hc1 : ¬cond1_1 (grid1.coords t)) (s : Vec F S1024x1024 .f32 × Vec F S1024x1 .f32 × Vec F S1024x1 .f32 × Vec F S1024x1024 .f32) (y : S1024x1.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.2.1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.2.1 S1024x1.size (by sl_kernel_rfl) y
theorem scover1_B_2 (c : Dev nD) (t : Fin cfg1.N) (hc0 : ¬cond1_0 (grid1.coords t)) (hc1 : ¬cond1_1 (grid1.coords t)) (s : Vec F S1024x1024 .f32 × Vec F S1024x1 .f32 × Vec F S1024x1 .f32 × Vec F S1024x1024 .f32) (y : S1024x1024.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.2.2.1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.2.2.1 S1024x1024.size (by sl_kernel_rfl) y
theorem scover1_C_0 (c : Dev nD) (t : Fin cfg1.N) (hc0 : ¬cond1_0 (grid1.coords t)) (hc1 : cond1_1 (grid1.coords t)) (s : Vec F S1024x1024 .f32 × Vec F S1024x1 .f32 × Vec F S1024x1 .f32 × Vec F S1024x1024 .f32) (y : S1024x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.1 S1024x1.size (by sl_kernel_rfl) y
theorem scover1_C_1 (c : Dev nD) (t : Fin cfg1.N) (hc0 : ¬cond1_0 (grid1.coords t)) (hc1 : cond1_1 (grid1.coords t)) (s : Vec F S1024x1024 .f32 × Vec F S1024x1 .f32 × Vec F S1024x1 .f32 × Vec F S1024x1024 .f32) (y : S1024x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.2.1 S1024x1.size (by sl_kernel_rfl) y
theorem scover1_C_2 (c : Dev nD) (t : Fin cfg1.N) (hc0 : ¬cond1_0 (grid1.coords t)) (hc1 : cond1_1 (grid1.coords t)) (s : Vec F S1024x1024 .f32 × Vec F S1024x1 .f32 × Vec F S1024x1 .f32 × Vec F S1024x1024 .f32) (y : S1024x1024.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.2.2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.2.2.1 S1024x1024.size (by sl_kernel_rfl) y
theorem cover1_C_3 (c : Dev nD) (t : Fin cfg1.N) (hc0 : ¬cond1_0 (grid1.coords t)) (hc1 : cond1_1 (grid1.coords t)) (s : Vec F S1024x1024 .f32 × Vec F S1024x1 .f32 × Vec F S1024x1 .f32 × Vec F S1024x1024 .f32) (y : S1024x1024.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).1 S1024x1024.size (by sl_kernel_rfl) y

/-! ## The invariant: the scratch buffers at what the point before left -/

/-- Before position `n`: at the start the class's invariant (every scratch buffer at anything); afterwards the three
    scratch buffers at what position `n - 1` left in them, the other region's staging buffers at anything, and the
    generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Data1

end Cert.Kernel.Hand

end
-- ==== Proof.KBody1.lean ====
import proofs.«167690_j59450937312052_2_alg».proof.Proof.Gen.Kernel.Launch
import proofs.«167690_j59450937312052_2_alg».proof.Proof.Gen.Kernel.Skeleton
import proofs.«167690_j59450937312052_2_alg».proof.Proof.Gen.Kernel.Points
import proofs.«167690_j59450937312052_2_alg».proof.Proof.KData1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region's body obligation -/

section Body1
variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 16000000 in
/-- The body at any point. The inputs' buffers hold their blocks; the closed forms say which of the three cases the
    point is in; the invariant hands the body the scratch buffers at what the point before left (at anything at the
    region's first point) and takes them back at this point's contents; off the last column block the output's buffer
    goes back as found, on it with the quotient stored; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · by_cases h1 : t.val % 8 = 7
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold caseA; (try dsimp only)
      by_cases hz : t.val = 0
      · rw [PhiS_castSucc V c t, PhiS_zero V c _ _ hz, PhiA1_eq]
        iintro ⟨⟨⟨G0, G1, G2, G3, G4, G5, G6, G7, G8, G9, G10, G11, G12, G13, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [G0 G1 G2 G3 G4 G5 G6 G7 G8 G9 G10 G11 G12 G13 HS0 HS1 HS2 Hg]
        · isplitl [G0 G1 G2 G3 G4 G5 G6 G7 G8 G9 G10 G11 G12 G13 HS0 HS1 HS2]
          ·
            isplitl [G0]; · iexact G0
            isplitl [G1]; · iexact G1
            isplitl [G2]; · iexact G2
            isplitl [G3]; · iexact G3
            isplitl [G4]; · iexact G4
            isplitl [G5]; · iexact G5
            isplitl [G6]; · iexact G6
            isplitl [G7]; · iexact G7
            isplitl [G8]; · iexact G8
            isplitl [G9]; · iexact G9
            isplitl [G10]; · iexact G10
            isplitl [G11]; · iexact G11
            isplitl [G12]; · iexact G12
            isplitl [G13]; · iexact G13
            isplitl [HS0]
            · unfold owns; iexists _; isplitr
              swap; · iexact HS0
              ipureintro; exact View.read_writes_of_cover _ _ _ _ _ (scover1_A_0 V c t _ _)
            isplitl [HS1]
            · unfold owns; iexists _; isplitr
              swap; · iexact HS1
              ipureintro; exact View.read_writes_of_cover _ _ _ _ _ (scover1_A_1 V c t _ _)
            unfold owns; iexists _; isplitr
            swap; · iexact HS2
            ipureintro; exact View.read_writes_of_cover _ _ _ _ _ (scover1_A_2 V c t _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨G0, G1, G2, G3, G4, G5, G6, G7, G8, G9, G10, G11, G12, G13, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [G0 G1 G2 G3 G4 G5 G6 G7 G8 G9 G10 G11 G12 G13 HS0 HS1 HS2 Hg]
        · isplitl [G0 G1 G2 G3 G4 G5 G6 G7 G8 G9 G10 G11 G12 G13 HS0 HS1 HS2]
          ·
            isplitl [G0]; · iexact G0
            isplitl [G1]; · iexact G1
            isplitl [G2]; · iexact G2
            isplitl [G3]; · iexact G3
            isplitl [G4]; · iexact G4
            isplitl [G5]; · iexact G5
            isplitl [G6]; · iexact G6
            isplitl [G7]; · iexact G7
            isplitl [G8]; · iexact G8
            isplitl [G9]; · iexact G9
            isplitl [G10]; · iexact G10
            isplitl [G11]; · iexact G11
            isplitl [G12]; · iexact G12
            isplitl [G13]; · iexact G13
            isplitl [HS0]
            · unfold owns; iexists _; isplitr
              swap; · iexact HS0
              ipureintro; exact View.read_writes_of_cover _ _ _ _ _ (scover1_A_0 V c t _ _)
            isplitl [HS1]
            · unfold owns; iexists _; isplitr
              swap; · iexact HS1
              ipureintro; exact View.read_writes_of_cover _ _ _ _ _ (scover1_A_1 V c t _ _)
            unfold owns; iexists _; isplitr
            swap; · iexact HS2
            ipureintro; exact View.read_writes_of_cover _ _ _ _ _ (scover1_A_2 V c t _ _)
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold caseC; (try dsimp only)
      · rw [PhiS_castSucc V c t, PhiS_pos V c _ _ hz]
        iintro ⟨⟨⟨G0, G1, G2, G3, G4, G5, G6, G7, G8, G9, G10, G11, G12, G13, HS0, HS1, HS2⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [G0 G1 G2 G3 G4 G5 G6 G7 G8 G9 G10 G11 G12 G13 HS0 HS1 HS2 Hg]
        · isplitl [G0 G1 G2 G3 G4 G5 G6 G7 G8 G9 G10 G11 G12 G13 HS0 HS1 HS2]
          ·
            isplitl [G0]; · iexact G0
            isplitl [G1]; · iexact G1
            isplitl [G2]; · iexact G2
            isplitl [G3]; · iexact G3
            isplitl [G4]; · iexact G4
            isplitl [G5]; · iexact G5
            isplitl [G6]; · iexact G6
            isplitl [G7]; · iexact G7
            isplitl [G8]; · iexact G8
            isplitl [G9]; · iexact G9
            isplitl [G10]; · iexact G10
            isplitl [G11]; · iexact G11
            isplitl [G12]; · iexact G12
            isplitl [G13]; · iexact G13
            isplitl [HS0]
            · unfold owns; iexists _; isplitr
              swap; · iexact HS0
              ipureintro; exact View.read_writes_of_cover _ _ _ _ _ (scover1_C_0 V c t _ _ _)
            isplitl [HS1]
            · unfold owns; iexists _; isplitr
              swap; · iexact HS1
              ipureintro; exact View.read_writes_of_cover _ _ _ _ _ (scover1_C_1 V c t _ _ _)
            unfold owns; iexists _; isplitr
            swap; · iexact HS2
            ipureintro; exact View.read_writes_of_cover _ _ _ _ _ (scover1_C_2 V c t _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 V c t _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold caseB; (try dsimp only)
      · rw [PhiS_castSucc V c t, PhiS_pos V c _ _ hz]
        iintro ⟨⟨⟨G0, G1, G2, G3, G4, G5, G6, G7, G8, G9, G10, G11, G12, G13, HS0, HS1, HS2⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [G0 G1 G2 G3 G4 G5 G6 G7 G8 G9 G10 G11 G12 G13 HS0 HS1 HS2 Hg]
        · isplitl [G0 G1 G2 G3 G4 G5 G6 G7 G8 G9 G10 G11 G12 G13 HS0 HS1 HS2]
          ·
            isplitl [G0]; · iexact G0
            isplitl [G1]; · iexact G1
            isplitl [G2]; · iexact G2
            isplitl [G3]; · iexact G3
            isplitl [G4]; · iexact G4
            isplitl [G5]; · iexact G5
            isplitl [G6]; · iexact G6
            isplitl [G7]; · iexact G7
            isplitl [G8]; · iexact G8
            isplitl [G9]; · iexact G9
            isplitl [G10]; · iexact G10
            isplitl [G11]; · iexact G11
            isplitl [G12]; · iexact G12
            isplitl [G13]; · iexact G13
            isplitl [HS0]
            · unfold owns; iexists _; isplitr
              swap; · iexact HS0
              ipureintro; exact View.read_writes_of_cover _ _ _ _ _ (scover1_B_0 V c t _ _ _)
            isplitl [HS1]
            · unfold owns; iexists _; isplitr
              swap; · iexact HS1
              ipureintro; exact View.read_writes_of_cover _ _ _ _ _ (scover1_B_1 V c t _ _ _)
            unfold owns; iexists _; isplitr
            swap; · iexact HS2
            ipureintro; exact View.read_writes_of_cover _ _ _ _ _ (scover1_B_2 V c t _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch buffers' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨G0, G1, G2, G3, G4, G5, G6, G7, G8, G9, G10, G11, G12, G13, HS0, HS1, HS2⟩, Hg⟩
  isplitl [G0 G1 G2 G3 G4 G5 G6 G7 G8 G9 G10 G11 G12 G13 HS0 HS1 HS2]
  ·
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [HS0]; · iexists _; iexact HS0
    isplitl [HS1]; · iexists _; iexact HS1
    iexists _; iexact HS2
  iexact Hg

end Body1

end Cert.Kernel.Hand

end
-- ==== Proof.KRunMain.lean ====
import proofs.«167690_j59450937312052_2_alg».proof.Proof.Gen.Kernel.Launch
import proofs.«167690_j59450937312052_2_alg».proof.Proof.Gen.Kernel.Skeleton
import proofs.«167690_j59450937312052_2_alg».proof.Proof.Gen.Kernel.Points
import proofs.«167690_j59450937312052_2_alg».proof.Proof.Gen.Kernel.Regions
import proofs.«167690_j59450937312052_2_alg».proof.Proof.KRegion0
import proofs.«167690_j59450937312052_2_alg».proof.Proof.KBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The program's run: a host stretch, the projection region, the attention region, the closing reshape -/

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch that scales, transposes and narrows the weights. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its arrays at what its write-backs leave. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the attention region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the closing reshape. -/
abbrev W4 : Dev nD → Valuation τ sig (Elt F) := fun c => StableHlo.after hostOps2 (W3 m ρ c)

/-! ### The arguments end as launched -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide : main_arg0 ∉ hostOps2_W)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide : main_arg1 ∉ hostOps2_W)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide : main_arg2 ∉ hostOps2_W)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide : main_arg3 ∉ hostOps2_W)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide : main_arg4 ∉ hostOps2_W)
    _ = W2 m ρ c (Proc.devRef .tc main_arg4) := W3_of_ne m ρ c main_arg4 (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_writes_sub hostOps0 _ hostOps0_writes (by decide : main_arg4 ∉ hostOps0_W)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide : main_arg5 ∉ hostOps2_W)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_writes_sub hostOps2 _ hostOps2_writes (by decide : main_arg6 ∉ hostOps2_W)
    _ = W2 m ρ c (Proc.devRef .tc main_arg6) := W3_of_ne m ρ c main_arg6 (by decide)
    _ = W1 m ρ c (Proc.devRef .tc main_arg6) := (W2_arr m ρ c 6).trans (((dat0 (V1 m ρ) c).arrAt_in 6 rfl _).trans (A_eq0 (V1 m ρ) c 6))
    _ = W0 m ρ c (Proc.devRef .tc main_arg6) := StableHlo.after_of_writes_sub hostOps0 _ hostOps0_writes (by decide : main_arg6 ∉ hostOps0_W)
    _ = m ((c : Thread nD τ).loc main_arg6) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its four segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing faulting,
    and every final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (StableHlo.after hostOps2 (W3 m ρ c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run_main m ρ)

end Cert.Kernel.Hand

end
-- ==== Proof.KIRegion0.lean ====
import proofs.«167690_j59450937312052_2_alg».proof.Proof.Gen.KernelIdeal.Launch
import proofs.«167690_j59450937312052_2_alg».proof.Proof.Gen.KernelIdeal.Skeleton
import proofs.«167690_j59450937312052_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The projection region: one launch computing the three projections of a 512-row block of the input

At a grid point the body multiplies the point's 512 rows of the input by each of the three (already transposed)
weight matrices, adds the bias along the rows, and stores the three results whole: two as they are, the middle one
transposed. Stated at a parameter `V`: what the core's buffers hold when the region is entered. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds the window's block at every point, whether the point fetched it or not:
    where it is not fetched the block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores through: each buffer whole -/
abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1024 := Rect.unit (s := S1024) ![0] S1024.size inb_S1024_S1024_0
abbrev rT : Rect S1024x512 := Rect.unit (s := S1024x512) ![0, 0] S1024x512.size inb_S1024x512_S1024x512_0_0

/-! ## What the body leaves in each output window's buffer: its one store, over the loaded blocks -/

/-- The first projection of the block: rows times the first weight matrix plus its bias. -/
def out0_7 (x0 : Vec F S512x1024 .f32) (x1 : Vec F S1024x1024 .bf16) (x2 : Vec F S1024 .f32) : Vec F S512x1024 .bf16 :=
  View.canon [⟨rX, k0_pay2 (View.ld x0 rX) (View.ld x1 rW) (View.ld x2 rB)⟩]
/-- The second projection of the block, stored transposed. -/
def out0_8 (x0 : Vec F S512x1024 .f32) (x3 : Vec F S1024x1024 .bf16) (x4 : Vec F S1024 .f32) : Vec F S1024x512 .bf16 :=
  View.canon [⟨rT, k0_pay4 (View.ld x0 rX) (View.ld x3 rW) (View.ld x4 rB)⟩]
/-- The third projection of the block. -/
def out0_9 (x0 : Vec F S512x1024 .f32) (x5 : Vec F S1024x1024 .bf16) (x6 : Vec F S1024 .f32) : Vec F S512x1024 .bf16 :=
  View.canon [⟨rX, k0_pay3 (View.ld x0 rX) (View.ld x5 rW) (View.ld x6 rB)⟩]

/-- A single whole-buffer store covers the buffer. -/
theorem cover0_X (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y
theorem cover0_T (p0 : Vec F S1024x512 .bf16) (y : S1024x512.Idx) :
    ∃ pc ∈ ([⟨rT, p0⟩] : List (View.Piece (Elt F) S1024x512 .bf16)), y ∈ pc.1.set :=
  View.cover_of_tiled [⟨rT, p0⟩] S1024x512.size (by rfl) y

/-! ## The body's triple -/

set_option maxHeartbeats 4000000 in
/-- On whole staging buffers, the seven inputs' at the contents read and the three outputs' at anything, the body runs
    to the continuation holding the inputs' as they were and each output's at its projection of them. -/
theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S512x1024 .bf16) (harg8 : arg8.IsWhole) (arg9 : Memref sig .tc .vmem S1024x512 .bf16) (harg9 : arg9.IsWhole) (arg10 : Memref sig .tc .vmem S512x1024 .bf16) (harg10 : arg10.IsWhole)
    (x0 : Vec F S512x1024 .f32) (x1 : Vec F S1024x1024 .bf16) (x2 : Vec F S1024 .f32) (x3 : Vec F S1024x1024 .bf16) (x4 : Vec F S1024 .f32) (x5 : Vec F S1024x1024 .bf16) (x6 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2) ∗ owns (c : Thread nD τ) arg9 fullShare (out0_8 x0 x3 x4) ∗ owns (c : Thread nD τ) arg10 fullShare (out0_9 x0 x5 x6)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_X _)
  isplitl [H8]
  · iexists _; isplitr
    swap; · iexact H8
    ipureintro
    exact View.read_writes_eq_canon _ _ _ (cover0_T _)
  iexists _; isplitr
  swap; · iexact H9
  ipureintro
  exact View.read_writes_eq_canon _ _ _ (cover0_X _)

end Region0

/-! ## The proof data of the projection region -/

section Data0
variable (V : (c : Dev nD) → (b : Ref sig .tc) → Buf (Elt F) ((c : Thread nD τ).loc b))

/-- On core `c`: the arrays as the region finds them; after the body at point `t` each input's buffer at its block and
    each output's at its projection of the point's input blocks; the invariant is the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Data0

end Cert.KernelIdeal.Hand

end
-- ==== Proof.KIRegion1.lean ====
import proofs.«167690_j59450937312052_2_alg».proof.Proof.Gen.KernelIdeal.Launch
import proofs.«167690_j59450937312052_2_alg».proof.Proof.Gen.KernelIdeal.Skeleton
import proofs.«167690_j59450937312052_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region: what its three control cases share

The grid is 8 row blocks by 8 column blocks, the column block the inner coordinate. At a point the body resets three
scratch buffers (the running row maximum, the running row sum, the running weighted sum) when the column block is the
first, updates them from the point's blocks, and when the column block is the last divides the weighted sum by the row
sum into the output block. So a point is in one of three cases: first column block, a middle one, the last. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions, decided over the grid -/

/-- "The column block is the first": the reset's condition, as the body computes it from the coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "The column block is the last": the final division's condition. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last column block the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- On the last column block it is live. -/
theorem liveAt1_3 : ∀ t : Fin cfg1.N, cond1_1 (grid1.coords t) → cfg1.idle 3 (grid1.coords t) = false := by decide +kernel

/-! ## The staging and scratch memrefs -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The running row maximum, -/
abbrev scM1_0 : Memref sig .tc .vmem S1024x1 .f32 := Memref.whole cc1_scratch0
/-- the running row sum, -/
abbrev scM1_1 : Memref sig .tc .vmem S1024x1 .f32 := Memref.whole cc1_scratch1
/-- and the running weighted sum. -/
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view
/-- One staging buffer of the output window, through which its contents are stated. -/
abbrev VO1_3 : View sig .tc .vmem S1024x1024 .f32 := (Memref.whole cc1_stg3_0 : Memref sig .tc .vmem S1024x1024 .f32).view

/-- The other region's staging buffers, which this region never touches: each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- The class invariant of the region with its scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.KIRun1A.lean ====
import proofs.«167690_j59450937312052_2_alg».proof.Proof.Gen.KernelIdeal.Launch
import proofs.«167690_j59450937312052_2_alg».proof.Proof.Gen.KernelIdeal.Skeleton
import proofs.«167690_j59450937312052_2_alg».proof.Proof.Gen.KernelIdeal.Points
import proofs.«167690_j59450937312052_2_alg».proof.Proof.KIRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- FIRST COLUMN BLOCK. On whole buffers — the three inputs at their contents, the output block untouched, the three
    scratch buffers at anything — the body resets the scratch, updates it from the point's blocks, and returns with
    each scratch buffer at the pieces its stores wrote (last first); the pieces are what the run finds. -/
noncomputable def kernelRun1_A (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x1024 .bf16) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KIRun1B.lean ====
import proofs.«167690_j59450937312052_2_alg».proof.Proof.Gen.KernelIdeal.Launch
import proofs.«167690_j59450937312052_2_alg».proof.Proof.Gen.KernelIdeal.Skeleton
import proofs.«167690_j59450937312052_2_alg».proof.Proof.Gen.KernelIdeal.Points
import proofs.«167690_j59450937312052_2_alg».proof.Proof.KIRun1A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A MIDDLE COLUMN BLOCK. The scratch buffers arrive at the contents the point before left; the body updates them
    from the point's blocks and leaves the output block untouched. -/
noncomputable def kernelRun1_B (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x1024 .bf16)
    (xs0 : Vec F S1024x1 .f32) (xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KIRun1C.lean ====
import proofs.«167690_j59450937312052_2_alg».proof.Proof.Gen.KernelIdeal.Launch
import proofs.«167690_j59450937312052_2_alg».proof.Proof.Gen.KernelIdeal.Skeleton
import proofs.«167690_j59450937312052_2_alg».proof.Proof.Gen.KernelIdeal.Points
import proofs.«167690_j59450937312052_2_alg».proof.Proof.KIRun1B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- THE LAST COLUMN BLOCK. The scratch buffers arrive at the contents the point before left; the body updates them
    and stores the quotient of the weighted sum by the row sum into the output block, which arrives at anything. -/
noncomputable def kernelRun1_C (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x1024 .bf16)
    (xs0 : Vec F S1024x1 .f32) (xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KIData1.lean ====
import proofs.«167690_j59450937312052_2_alg».proof.Proof.Gen.KernelIdeal.Launch
import proofs.«167690_j59450937312052_2_alg».proof.Proof.Gen.KernelIdeal.Skeleton
import proofs.«167690_j59450937312052_2_alg».proof.Proof.Gen.KernelIdeal.Points
import proofs.«167690_j59450937312052_2_alg».proof.Proof.KIRun1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region: what its buffers hold point by point, its proof data and its body obligation -/

section Data1
variable (V : (c : Dev nD) → (b : Ref sig .tc) → Buf (Elt F) ((c : Thread nD τ).loc b))

/-! ## What a point of each case leaves: the output block, then the three scratch buffers -/

/-- A point on the first column block: the scratch buffers reset and updated once; the output block a placeholder
    (the window is idle there: nothing reads the placeholder). -/
def caseA (c : Dev nD) (t : Fin cfg1.N) (hc0 : cond1_0 (grid1.coords t)) (hc1 : ¬cond1_1 (grid1.coords t)) : Vec F S1024x1024 .f32 × Vec F S1024x1 .f32 × Vec F S1024x1 .f32 × Vec F S1024x1024 .f32 :=
  (VO1_3.read (Elt F) (VO1_3.writes (Elt F) VO1_3.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).1),
   VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.2.1),
   VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.2.2.1))
/-- A point on a middle column block, the scratch buffers arriving at `s`'s last three components. -/
def caseB (c : Dev nD) (t : Fin cfg1.N) (hc0 : ¬cond1_0 (grid1.coords t)) (hc1 : ¬cond1_1 (grid1.coords t)) (s : Vec F S1024x1024 .f32 × Vec F S1024x1 .f32 × Vec F S1024x1 .f32 × Vec F S1024x1024 .f32) : Vec F S1024x1024 .f32 × Vec F S1024x1 .f32 × Vec F S1024x1 .f32 × Vec F S1024x1024 .f32 :=
  (VO1_3.read (Elt F) (VO1_3.writes (Elt F) VO1_3.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).1),
   VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.1),
   VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.2.1),
   VS1_2.read (Elt F) (VS1_2.writes (Elt F) VS1_2.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.2.2.1))
/-- A point on the last column block: the output block stored. -/
def caseC (c : Dev nD) (t : Fin cfg1.N) (hc0 : ¬cond1_0 (grid1.coords t)) (hc1 : cond1_1 (grid1.coords t)) (s : Vec F S1024x1024 .f32 × Vec F S1024x1 .f32 × Vec F S1024x1 .f32 × Vec F S1024x1024 .f32) : Vec F S1024x1024 .f32 × Vec F S1024x1 .f32 × Vec F S1024x1 .f32 × Vec F S1024x1024 .f32 :=
  (VO1_3.read (Elt F) (VO1_3.writes (Elt F) VO1_3.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).1),
   VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.1),
   VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.2.1),
   VS1_2.read (Elt F) (VS1_2.writes (Elt F) VS1_2.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.2.2.1))

/-- THE RECURSION along the grid: what the output's staging buffer and the three scratch buffers hold after the body at
    position `n`: the case the position is in, run on the point's blocks, its scratch arriving at what position
    `n - 1` left. -/
def outsAt1 (c : Dev nD) : (n : ℕ) → n < cfg1.N → Vec F S1024x1024 .f32 × Vec F S1024x1 .f32 × Vec F S1024x1 .f32 × Vec F S1024x1024 .f32
  | 0, hn => caseA V c ⟨0, hn⟩ ((hcond1_0 ⟨0, hn⟩).mpr (Nat.zero_mod _)) (fun h => by have := (hcond1_1 ⟨0, hn⟩).mp h; (try dsimp only at this); omega)
  | n + 1, hn =>
    if h0 : (n + 1) % 8 = 0 then
      if h1 : (n + 1) % 8 = 7 then False.elim (by omega)
      else caseA V c ⟨n + 1, hn⟩ ((hcond1_0 ⟨n + 1, hn⟩).mpr h0) (fun h => h1 ((hcond1_1 ⟨n + 1, hn⟩).mp h))
    else
      if h1 : (n + 1) % 8 = 7 then
        caseC V c ⟨n + 1, hn⟩ (fun h => h0 ((hcond1_0 ⟨n + 1, hn⟩).mp h)) ((hcond1_1 ⟨n + 1, hn⟩).mpr h1) (outsAt1 c n (Nat.lt_of_succ_lt hn))
      else
        caseB V c ⟨n + 1, hn⟩ (fun h => h0 ((hcond1_0 ⟨n + 1, hn⟩).mp h)) (fun h => h1 ((hcond1_1 ⟨n + 1, hn⟩).mp h)) (outsAt1 c n (Nat.lt_of_succ_lt hn))

theorem outsAt1_A (c : Dev nD) (t : Fin cfg1.N) (h0 : t.val % 8 = 0) (h1 : ¬t.val % 8 = 7) :
    outsAt1 V c t.val t.isLt = caseA V c t ((hcond1_0 t).mpr h0) (fun h => h1 ((hcond1_1 t).mp h)) := by
  obtain ⟨n, hn⟩ := t
  cases n with
  | zero => exact rfl
  | succ n => exact (dif_pos h0).trans ((dif_neg h1).trans rfl)
theorem outsAt1_B (c : Dev nD) (t : Fin cfg1.N) (h0 : ¬t.val % 8 = 0) (h1 : ¬t.val % 8 = 7) :
    outsAt1 V c t.val t.isLt = caseB V c t (fun h => h0 ((hcond1_0 t).mp h)) (fun h => h1 ((hcond1_1 t).mp h))
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 8 = 0) (h1 : t.val % 8 = 7) :
    outsAt1 V c t.val t.isLt = caseC V c t (fun h => h0 ((hcond1_0 t).mp h)) ((hcond1_1 t).mpr h1)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## Each case's stores cover the buffers they are read back from -/
theorem scover1_A_0 (c : Dev nD) (t : Fin cfg1.N) (hc0 : cond1_0 (grid1.coords t)) (hc1 : ¬cond1_1 (grid1.coords t)) (y : S1024x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.1 S1024x1.size (by sl_kernel_rfl) y
theorem scover1_A_1 (c : Dev nD) (t : Fin cfg1.N) (hc0 : cond1_0 (grid1.coords t)) (hc1 : ¬cond1_1 (grid1.coords t)) (y : S1024x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.2.1 S1024x1.size (by sl_kernel_rfl) y
theorem scover1_A_2 (c : Dev nD) (t : Fin cfg1.N) (hc0 : cond1_0 (grid1.coords t)) (hc1 : ¬cond1_1 (grid1.coords t)) (y : S1024x1024.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.2.2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.2.2.1 S1024x1024.size (by sl_kernel_rfl) y
theorem scover1_B_0 (c : Dev nD) (t : Fin cfg1.N) (hc0 : ¬cond1_0 (grid1.coords t)) (hc1 : ¬cond1_1 (grid1.coords t)) (s : Vec F S1024x1024 .f32 × Vec F S1024x1 .f32 × Vec F S1024x1 .f32 × Vec F S1024x1024 .f32) (y : S1024x1.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.1 S1024x1.size (by sl_kernel_rfl) y
theorem scover1_B_1 (c : Dev nD) (t : Fin cfg1.N) (hc0 : ¬cond1_0 (grid1.coords t)) (hc1 : ¬cond1_1 (grid1.coords t)) (s : Vec F S1024x1024 .f32 × Vec F S1024x1 .f32 × Vec F S1024x1 .f32 × Vec F S1024x1024 .f32) (y : S1024x1.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.2.1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.2.1 S1024x1.size (by sl_kernel_rfl) y
theorem scover1_B_2 (c : Dev nD) (t : Fin cfg1.N) (hc0 : ¬cond1_0 (grid1.coords t)) (hc1 : ¬cond1_1 (grid1.coords t)) (s : Vec F S1024x1024 .f32 × Vec F S1024x1 .f32 × Vec F S1024x1 .f32 × Vec F S1024x1024 .f32) (y : S1024x1024.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.2.2.1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.2.2.1 S1024x1024.size (by sl_kernel_rfl) y
theorem scover1_C_0 (c : Dev nD) (t : Fin cfg1.N) (hc0 : ¬cond1_0 (grid1.coords t)) (hc1 : cond1_1 (grid1.coords t)) (s : Vec F S1024x1024 .f32 × Vec F S1024x1 .f32 × Vec F S1024x1 .f32 × Vec F S1024x1024 .f32) (y : S1024x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.1 S1024x1.size (by sl_kernel_rfl) y
theorem scover1_C_1 (c : Dev nD) (t : Fin cfg1.N) (hc0 : ¬cond1_0 (grid1.coords t)) (hc1 : cond1_1 (grid1.coords t)) (s : Vec F S1024x1024 .f32 × Vec F S1024x1 .f32 × Vec F S1024x1 .f32 × Vec F S1024x1024 .f32) (y : S1024x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.2.1 S1024x1.size (by sl_kernel_rfl) y
theorem scover1_C_2 (c : Dev nD) (t : Fin cfg1.N) (hc0 : ¬cond1_0 (grid1.coords t)) (hc1 : cond1_1 (grid1.coords t)) (s : Vec F S1024x1024 .f32 × Vec F S1024x1 .f32 × Vec F S1024x1 .f32 × Vec F S1024x1024 .f32) (y : S1024x1024.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.2.2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).2.2.2.1 S1024x1024.size (by sl_kernel_rfl) y
theorem cover1_C_3 (c : Dev nD) (t : Fin cfg1.N) (hc0 : ¬cond1_0 (grid1.coords t)) (hc1 : cond1_1 (grid1.coords t)) (s : Vec F S1024x1024 .f32 × Vec F S1024x1 .f32 × Vec F S1024x1 .f32 × Vec F S1024x1024 .f32) (y : S1024x1024.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) s.2.1 s.2.2.1 s.2.2.2).1 S1024x1024.size (by sl_kernel_rfl) y

/-! ## The invariant: the scratch buffers at what the point before left -/

/-- Before position `n`: at the start the class's invariant (every scratch buffer at anything); afterwards the three
    scratch buffers at what position `n - 1` left in them, the other region's staging buffers at anything, and the
    generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Data1

end Cert.KernelIdeal.Hand

end
-- ==== Proof.KIBody1.lean ====
import proofs.«167690_j59450937312052_2_alg».proof.Proof.Gen.KernelIdeal.Launch
import proofs.«167690_j59450937312052_2_alg».proof.Proof.Gen.KernelIdeal.Skeleton
import proofs.«167690_j59450937312052_2_alg».proof.Proof.Gen.KernelIdeal.Points
import proofs.«167690_j59450937312052_2_alg».proof.Proof.KIData1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region's body obligation -/

section Body1
variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 16000000 in
/-- The body at any point. The inputs' buffers hold their blocks; the closed forms say which of the three cases the
    point is in; the invariant hands the body the scratch buffers at what the point before left (at anything at the
    region's first point) and takes them back at this point's contents; off the last column block the output's buffer
    goes back as found, on it with the quotient stored; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · by_cases h1 : t.val % 8 = 7
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold caseA; (try dsimp only)
      by_cases hz : t.val = 0
      · rw [PhiS_castSucc V c t, PhiS_zero V c _ _ hz, PhiA1_eq]
        iintro ⟨⟨⟨G0, G1, G2, G3, G4, G5, G6, G7, G8, G9, G10, G11, G12, G13, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [G0 G1 G2 G3 G4 G5 G6 G7 G8 G9 G10 G11 G12 G13 HS0 HS1 HS2 Hg]
        · isplitl [G0 G1 G2 G3 G4 G5 G6 G7 G8 G9 G10 G11 G12 G13 HS0 HS1 HS2]
          ·
            isplitl [G0]; · iexact G0
            isplitl [G1]; · iexact G1
            isplitl [G2]; · iexact G2
            isplitl [G3]; · iexact G3
            isplitl [G4]; · iexact G4
            isplitl [G5]; · iexact G5
            isplitl [G6]; · iexact G6
            isplitl [G7]; · iexact G7
            isplitl [G8]; · iexact G8
            isplitl [G9]; · iexact G9
            isplitl [G10]; · iexact G10
            isplitl [G11]; · iexact G11
            isplitl [G12]; · iexact G12
            isplitl [G13]; · iexact G13
            isplitl [HS0]
            · unfold owns; iexists _; isplitr
              swap; · iexact HS0
              ipureintro; exact View.read_writes_of_cover _ _ _ _ _ (scover1_A_0 V c t _ _)
            isplitl [HS1]
            · unfold owns; iexists _; isplitr
              swap; · iexact HS1
              ipureintro; exact View.read_writes_of_cover _ _ _ _ _ (scover1_A_1 V c t _ _)
            unfold owns; iexists _; isplitr
            swap; · iexact HS2
            ipureintro; exact View.read_writes_of_cover _ _ _ _ _ (scover1_A_2 V c t _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨G0, G1, G2, G3, G4, G5, G6, G7, G8, G9, G10, G11, G12, G13, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [G0 G1 G2 G3 G4 G5 G6 G7 G8 G9 G10 G11 G12 G13 HS0 HS1 HS2 Hg]
        · isplitl [G0 G1 G2 G3 G4 G5 G6 G7 G8 G9 G10 G11 G12 G13 HS0 HS1 HS2]
          ·
            isplitl [G0]; · iexact G0
            isplitl [G1]; · iexact G1
            isplitl [G2]; · iexact G2
            isplitl [G3]; · iexact G3
            isplitl [G4]; · iexact G4
            isplitl [G5]; · iexact G5
            isplitl [G6]; · iexact G6
            isplitl [G7]; · iexact G7
            isplitl [G8]; · iexact G8
            isplitl [G9]; · iexact G9
            isplitl [G10]; · iexact G10
            isplitl [G11]; · iexact G11
            isplitl [G12]; · iexact G12
            isplitl [G13]; · iexact G13
            isplitl [HS0]
            · unfold owns; iexists _; isplitr
              swap; · iexact HS0
              ipureintro; exact View.read_writes_of_cover _ _ _ _ _ (scover1_A_0 V c t _ _)
            isplitl [HS1]
            · unfold owns; iexists _; isplitr
              swap; · iexact HS1
              ipureintro; exact View.read_writes_of_cover _ _ _ _ _ (scover1_A_1 V c t _ _)
            unfold owns; iexists _; isplitr
            swap; · iexact HS2
            ipureintro; exact View.read_writes_of_cover _ _ _ _ _ (scover1_A_2 V c t _ _)
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold caseC; (try dsimp only)
      · rw [PhiS_castSucc V c t, PhiS_pos V c _ _ hz]
        iintro ⟨⟨⟨G0, G1, G2, G3, G4, G5, G6, G7, G8, G9, G10, G11, G12, G13, HS0, HS1, HS2⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [G0 G1 G2 G3 G4 G5 G6 G7 G8 G9 G10 G11 G12 G13 HS0 HS1 HS2 Hg]
        · isplitl [G0 G1 G2 G3 G4 G5 G6 G7 G8 G9 G10 G11 G12 G13 HS0 HS1 HS2]
          ·
            isplitl [G0]; · iexact G0
            isplitl [G1]; · iexact G1
            isplitl [G2]; · iexact G2
            isplitl [G3]; · iexact G3
            isplitl [G4]; · iexact G4
            isplitl [G5]; · iexact G5
            isplitl [G6]; · iexact G6
            isplitl [G7]; · iexact G7
            isplitl [G8]; · iexact G8
            isplitl [G9]; · iexact G9
            isplitl [G10]; · iexact G10
            isplitl [G11]; · iexact G11
            isplitl [G12]; · iexact G12
            isplitl [G13]; · iexact G13
            isplitl [HS0]
            · unfold owns; iexists _; isplitr
              swap; · iexact HS0
              ipureintro; exact View.read_writes_of_cover _ _ _ _ _ (scover1_C_0 V c t _ _ _)
            isplitl [HS1]
            · unfold owns; iexists _; isplitr
              swap; · iexact HS1
              ipureintro; exact View.read_writes_of_cover _ _ _ _ _ (scover1_C_1 V c t _ _ _)
            unfold owns; iexists _; isplitr
            swap; · iexact HS2
            ipureintro; exact View.read_writes_of_cover _ _ _ _ _ (scover1_C_2 V c t _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 V c t _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold caseB; (try dsimp only)
      · rw [PhiS_castSucc V c t, PhiS_pos V c _ _ hz]
        iintro ⟨⟨⟨G0, G1, G2, G3, G4, G5, G6, G7, G8, G9, G10, G11, G12, G13, HS0, HS1, HS2⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [G0 G1 G2 G3 G4 G5 G6 G7 G8 G9 G10 G11 G12 G13 HS0 HS1 HS2 Hg]
        · isplitl [G0 G1 G2 G3 G4 G5 G6 G7 G8 G9 G10 G11 G12 G13 HS0 HS1 HS2]
          ·
            isplitl [G0]; · iexact G0
            isplitl [G1]; · iexact G1
            isplitl [G2]; · iexact G2
            isplitl [G3]; · iexact G3
            isplitl [G4]; · iexact G4
            isplitl [G5]; · iexact G5
            isplitl [G6]; · iexact G6
            isplitl [G7]; · iexact G7
            isplitl [G8]; · iexact G8
            isplitl [G9]; · iexact G9
            isplitl [G10]; · iexact G10
            isplitl [G11]; · iexact G11
            isplitl [G12]; · iexact G12
            isplitl [G13]; · iexact G13
            isplitl [HS0]
            · unfold owns; iexists _; isplitr
              swap; · iexact HS0
              ipureintro; exact View.read_writes_of_cover _ _ _ _ _ (scover1_B_0 V c t _ _ _)
            isplitl [HS1]
            · unfold owns; iexists _; isplitr
              swap; · iexact HS1
              ipureintro; exact View.read_writes_of_cover _ _ _ _ _ (scover1_B_1 V c t _ _ _)
            unfold owns; iexists _; isplitr
            swap; · iexact HS2
            ipureintro; exact View.read_writes_of_cover _ _ _ _ _ (scover1_B_2 V c t _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch buffers' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨G0, G1, G2, G3, G4, G5, G6, G7, G8, G9, G10, G11, G12, G13, HS0, HS1, HS2⟩, Hg⟩
  isplitl [G0 G1 G2 G3 G4 G5 G6 G7 G8 G9 G10 G11 G12 G13 HS0 HS1 HS2]
  ·
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [HS0]; · iexists _; iexact HS0
    isplitl [HS1]; · iexists _; iexact HS1
    iexists _; iexact HS2
  iexact Hg

end Body1

end Cert.KernelIdeal.Hand

end
-- ==== Proof.KIRunMain.lean ====
import proofs.«167690_j59450937312052_2_alg».proof.Proof.Gen.KernelIdeal.Launch
import proofs.«167690_j59450937312052_2_alg».proof.Proof.Gen.KernelIdeal.Skeleton
import proofs.«167690_j59450937312052_2_alg».proof.Proof.Gen.KernelIdeal.Points
import proofs.«167690_j59450937312052_2_alg».proof.Proof.Gen.KernelIdeal.Regions
import proofs.«167690_j59450937312052_2_alg».proof.Proof.KIRegion0
import proofs.«167690_j59450937312052_2_alg».proof.Proof.KIBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The program's run: a host stretch, the projection region, the attention region, the closing reshape -/

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch that scales, transposes and narrows the weights. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its arrays at what its write-backs leave. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the attention region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the closing reshape. -/
abbrev W4 : Dev nD → Valuation τ sig (Elt F) := fun c => StableHlo.after hostOps2 (W3 m ρ c)

/-! ### The arguments end as launched -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide : main_arg0 ∉ hostOps2_W)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide : main_arg1 ∉ hostOps2_W)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide : main_arg2 ∉ hostOps2_W)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide : main_arg3 ∉ hostOps2_W)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide : main_arg4 ∉ hostOps2_W)
    _ = W2 m ρ c (Proc.devRef .tc main_arg4) := W3_of_ne m ρ c main_arg4 (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_writes_sub hostOps0 _ hostOps0_writes (by decide : main_arg4 ∉ hostOps0_W)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide : main_arg5 ∉ hostOps2_W)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_writes_sub hostOps2 _ hostOps2_writes (by decide : main_arg6 ∉ hostOps2_W)
    _ = W2 m ρ c (Proc.devRef .tc main_arg6) := W3_of_ne m ρ c main_arg6 (by decide)
    _ = W1 m ρ c (Proc.devRef .tc main_arg6) := (W2_arr m ρ c 6).trans (((dat0 (V1 m ρ) c).arrAt_in 6 rfl _).trans (A_eq0 (V1 m ρ) c 6))
    _ = W0 m ρ c (Proc.devRef .tc main_arg6) := StableHlo.after_of_writes_sub hostOps0 _ hostOps0_writes (by decide : main_arg6 ∉ hostOps0_W)
    _ = m ((c : Thread nD τ).loc main_arg6) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its four segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing faulting,
    and every final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (StableHlo.after hostOps2 (W3 m ρ c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run_main m ρ)

end Cert.KernelIdeal.Hand

end
-- ==== Proof.KIPieces.lean ====
import proofs.«167690_j59450937312052_2_alg».proof.Proof.Gen.KernelIdeal.Launch
import proofs.«167690_j59450937312052_2_alg».proof.Proof.Gen.KernelIdeal.Skeleton
import proofs.«167690_j59450937312052_2_alg».proof.Proof.Gen.KernelIdeal.Points
import proofs.«167690_j59450937312052_2_alg».proof.Proof.KIData1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One step of the attention recurrence, and what each case leaves, as the skeleton's payloads

A point updates the running row maximum, row sum and weighted sum from the point's three blocks: `stepM`, `stepL`,
`stepAcc`. On the first column block the three arrive reset (minus infinity, zero, zero); on the last the output block
is the quotient of the updated weighted sum by the updated row sum. -/

section Pieces
variable (V : (c : Dev nD) → (b : Ref sig .tc) → Buf (Elt F) ((c : Thread nD τ).loc b))

theorem hz2 : (![0, 0] : Fin 2 → Nat) = fun _ => 0 := funext fun a => by fin_cases a <;> rfl

/-- The new running maximum: the old one against the row maxima of the block's scores. -/
def stepM (q kT : Vec F S1024x1024 .bf16) (mOld : Vec F S1024x1 .f32) : Vec F S1024x1 .f32 := k1_pay2 (k1_pay8 q kT mOld)
/-- The new running sum: the old one rescaled, plus the block's row sums of weights. -/
def stepL (q kT : Vec F S1024x1024 .bf16) (mOld lOld : Vec F S1024x1 .f32) : Vec F S1024x1 .f32 := k1_pay11 q kT mOld mOld lOld
/-- The new weighted sum: the old one rescaled, plus the block's weights times its values. -/
def stepAcc (q kT vv : Vec F S1024x1024 .bf16) (mOld : Vec F S1024x1 .f32) (accOld : Vec F S1024x1024 .f32) : Vec F S1024x1024 .f32 :=
  k1_pay1 (k1_pay12 q kT vv mOld mOld accOld)

/-! ## A middle column block: one step from what the point before left -/
theorem caseB_m (c : Dev nD) (t : Fin cfg1.N) (hc0 : ¬cond1_0 (grid1.coords t)) (hc1 : ¬cond1_1 (grid1.coords t)) (s : Vec F S1024x1024 .f32 × Vec F S1024x1 .f32 × Vec F S1024x1 .f32 × Vec F S1024x1024 .f32) :
    (caseB V c t hc0 hc1 s).2.1 = stepM (iblk1 V c 0 t) (iblk1 V c 1 t) s.2.1 := by
  unfold caseB; dsimp only
  rw [View.read_writes_eq_canon _ _ _ (scover1_B_0 V c t hc0 hc1 s)]
  unfold kernelRun1_B
  dsimp only
  rw [View.canon_unit_zero hz2]
  unfold stepM
  simp only [View.readAt_eq_ld, (hs1_0 t).read_unread, (hs1_1 t).read_unread, (hs1_2 t).read_unread, (hs1_3 t).read_unread, (Memref.isWhole_whole cc1_scratch0).read_unread, (Memref.isWhole_whole cc1_scratch1).read_unread, (Memref.isWhole_whole cc1_scratch2).read_unread, View.ld_unit_zero (S := S1024x1024) hz2, View.ld_unit_zero (S := S1024x1) hz2]

theorem caseB_l (c : Dev nD) (t : Fin cfg1.N) (hc0 : ¬cond1_0 (grid1.coords t)) (hc1 : ¬cond1_1 (grid1.coords t)) (s : Vec F S1024x1024 .f32 × Vec F S1024x1 .f32 × Vec F S1024x1 .f32 × Vec F S1024x1024 .f32) :
    (caseB V c t hc0 hc1 s).2.2.1 = stepL (iblk1 V c 0 t) (iblk1 V c 1 t) s.2.1 s.2.2.1 := by
  unfold caseB; dsimp only
  rw [View.read_writes_eq_canon _ _ _ (scover1_B_1 V c t hc0 hc1 s)]
  unfold kernelRun1_B
  dsimp only
  rw [View.canon_unit_zero hz2]
  unfold stepL
  simp only [View.readAt_eq_ld, (hs1_0 t).read_unread, (hs1_1 t).read_unread, (hs1_2 t).read_unread, (hs1_3 t).read_unread, (Memref.isWhole_whole cc1_scratch0).read_unread, (Memref.isWhole_whole cc1_scratch1).read_unread, (Memref.isWhole_whole cc1_scratch2).read_unread, View.ld_unit_zero (S := S1024x1024) hz2, View.ld_unit_zero (S := S1024x1) hz2]

theorem caseB_acc (c : Dev nD) (t : Fin cfg1.N) (hc0 : ¬cond1_0 (grid1.coords t)) (hc1 : ¬cond1_1 (grid1.coords t)) (s : Vec F S1024x1024 .f32 × Vec F S1024x1 .f32 × Vec F S1024x1 .f32 × Vec F S1024x1024 .f32) :
    (caseB V c t hc0 hc1 s).2.2.2 = stepAcc (iblk1 V c 0 t) (iblk1 V c 1 t) (iblk1 V c 2 t) s.2.1 s.2.2.2 := by
  unfold caseB; dsimp only
  rw [View.read_writes_eq_canon _ _ _ (scover1_B_2 V c t hc0 hc1 s)]
  unfold kernelRun1_B
  dsimp only
  rw [View.canon_unit_zero hz2]
  unfold stepAcc
  simp only [View.readAt_eq_ld, (hs1_0 t).read_unread, (hs1_1 t).read_unread, (hs1_2 t).read_unread, (hs1_3 t).read_unread, (Memref.isWhole_whole cc1_scratch0).read_unread, (Memref.isWhole_whole cc1_scratch1).read_unread, (Memref.isWhole_whole cc1_scratch2).read_unread, View.ld_unit_zero (S := S1024x1024) hz2, View.ld_unit_zero (S := S1024x1) hz2]

/-! ## The last column block: the same step, and the quotient stored -/
theorem caseC_m (c : Dev nD) (t : Fin cfg1.N) (hc0 : ¬cond1_0 (grid1.coords t)) (hc1 : cond1_1 (grid1.coords t)) (s : Vec F S1024x1024 .f32 × Vec F S1024x1 .f32 × Vec F S1024x1 .f32 × Vec F S1024x1024 .f32) :
    (caseC V c t hc0 hc1 s).2.1 = stepM (iblk1 V c 0 t) (iblk1 V c 1 t) s.2.1 := by
  unfold caseC; dsimp only
  rw [View.read_writes_eq_canon _ _ _ (scover1_C_0 V c t hc0 hc1 s)]
  unfold kernelRun1_C
  dsimp only
  rw [View.canon_unit_zero hz2]
  unfold stepM
  simp only [View.readAt_eq_ld, (hs1_0 t).read_unread, (hs1_1 t).read_unread, (hs1_2 t).read_unread, (hs1_3 t).read_unread, (Memref.isWhole_whole cc1_scratch0).read_unread, (Memref.isWhole_whole cc1_scratch1).read_unread, (Memref.isWhole_whole cc1_scratch2).read_unread, View.ld_unit_zero (S := S1024x1024) hz2, View.ld_unit_zero (S := S1024x1) hz2]

theorem caseC_l (c : Dev nD) (t : Fin cfg1.N) (hc0 : ¬cond1_0 (grid1.coords t)) (hc1 : cond1_1 (grid1.coords t)) (s : Vec F S1024x1024 .f32 × Vec F S1024x1 .f32 × Vec F S1024x1 .f32 × Vec F S1024x1024 .f32) :
    (caseC V c t hc0 hc1 s).2.2.1 = stepL (iblk1 V c 0 t) (iblk1 V c 1 t) s.2.1 s.2.2.1 := by
  unfold caseC; dsimp only
  rw [View.read_writes_eq_canon _ _ _ (scover1_C_1 V c t hc0 hc1 s)]
  unfold kernelRun1_C
  dsimp only
  sl_unfold_words
  (try dsimp only)
  rw [View.canon_unit_zero hz2]
  unfold stepL
  simp only [View.readAt_eq_ld, (hs1_0 t).read_unread, (hs1_1 t).read_unread, (hs1_2 t).read_unread, (hs1_3 t).read_unread, (Memref.isWhole_whole cc1_scratch0).read_unread, (Memref.isWhole_whole cc1_scratch1).read_unread, (Memref.isWhole_whole cc1_scratch2).read_unread, View.ld_unit_zero (S := S1024x1024) hz2, View.ld_unit_zero (S := S1024x1) hz2]

theorem caseC_acc (c : Dev nD) (t : Fin cfg1.N) (hc0 : ¬cond1_0 (grid1.coords t)) (hc1 : cond1_1 (grid1.coords t)) (s : Vec F S1024x1024 .f32 × Vec F S1024x1 .f32 × Vec F S1024x1 .f32 × Vec F S1024x1024 .f32) :
    (caseC V c t hc0 hc1 s).2.2.2 = stepAcc (iblk1 V c 0 t) (iblk1 V c 1 t) (iblk1 V c 2 t) s.2.1 s.2.2.2 := by
  unfold caseC; dsimp only
  rw [View.read_writes_eq_canon _ _ _ (scover1_C_2 V c t hc0 hc1 s)]
  unfold kernelRun1_C
  dsimp only
  sl_unfold_words
  (try dsimp only)
  rw [View.canon_unit_zero hz2]
  unfold stepAcc
  simp only [View.readAt_eq_ld, (hs1_0 t).read_unread, (hs1_1 t).read_unread, (hs1_2 t).read_unread, (hs1_3 t).read_unread, (Memref.isWhole_whole cc1_scratch0).read_unread, (Memref.isWhole_whole cc1_scratch1).read_unread, (Memref.isWhole_whole cc1_scratch2).read_unread, View.ld_unit_zero (S := S1024x1024) hz2, View.ld_unit_zero (S := S1024x1) hz2]

theorem caseC_out (c : Dev nD) (t : Fin cfg1.N) (hc0 : ¬cond1_0 (grid1.coords t)) (hc1 : cond1_1 (grid1.coords t)) (s : Vec F S1024x1024 .f32 × Vec F S1024x1 .f32 × Vec F S1024x1 .f32 × Vec F S1024x1024 .f32) :
    (caseC V c t hc0 hc1 s).1 = k1_pay3 (stepAcc (iblk1 V c 0 t) (iblk1 V c 1 t) (iblk1 V c 2 t) s.2.1 s.2.2.2) (stepL (iblk1 V c 0 t) (iblk1 V c 1 t) s.2.1 s.2.2.1) := by
  unfold caseC; dsimp only
  rw [View.read_writes_eq_canon _ _ _ (cover1_C_3 V c t hc0 hc1 s)]
  unfold kernelRun1_C
  dsimp only
  sl_unfold_words
  rw [View.canon_unit_zero hz2]
  simp only [View.readCov_unit_zero (S := S1024x1) _ hz2, View.readCov_unit_zero (S := S1024x1024) _ hz2]
  unfold stepAcc stepL
  simp only [View.readAt_eq_ld, (hs1_0 t).read_unread, (hs1_1 t).read_unread, (hs1_2 t).read_unread, (hs1_3 t).read_unread, (Memref.isWhole_whole cc1_scratch0).read_unread, (Memref.isWhole_whole cc1_scratch1).read_unread, (Memref.isWhole_whole cc1_scratch2).read_unread, View.ld_unit_zero (S := S1024x1024) hz2, View.ld_unit_zero (S := S1024x1) hz2]

/-! ## The first column block: the step from the reset values -/
theorem caseA_m (c : Dev nD) (t : Fin cfg1.N) (hc0 : cond1_0 (grid1.coords t)) (hc1 : ¬cond1_1 (grid1.coords t)) :
    (caseA V c t hc0 hc1).2.1 = stepM (iblk1 V c 0 t) (iblk1 V c 1 t) (k1_pay4 (F := F)) := by
  unfold caseA; dsimp only
  rw [View.read_writes_eq_canon _ _ _ (scover1_A_0 V c t hc0 hc1)]
  unfold kernelRun1_A
  dsimp only
  sl_unfold_words
  rw [View.canon_cons_unit_zero (S := S1024x1) hz2]
  simp only [View.readCov_unit_zero (S := S1024x1) _ hz2, View.readCov_unit_zero (S := S1024x1024) _ hz2]
  unfold stepM
  simp only [View.readAt_eq_ld, (hs1_0 t).read_unread, (hs1_1 t).read_unread, (hs1_2 t).read_unread, (hs1_3 t).read_unread, (Memref.isWhole_whole cc1_scratch0).read_unread, (Memref.isWhole_whole cc1_scratch1).read_unread, (Memref.isWhole_whole cc1_scratch2).read_unread, View.ld_unit_zero (S := S1024x1024) hz2, View.ld_unit_zero (S := S1024x1) hz2]

theorem caseA_l (c : Dev nD) (t : Fin cfg1.N) (hc0 : cond1_0 (grid1.coords t)) (hc1 : ¬cond1_1 (grid1.coords t)) :
    (caseA V c t hc0 hc1).2.2.1 = stepL (iblk1 V c 0 t) (iblk1 V c 1 t) (k1_pay4 (F := F)) (k1_pay5 (F := F)) := by
  unfold caseA; dsimp only
  rw [View.read_writes_eq_canon _ _ _ (scover1_A_1 V c t hc0 hc1)]
  unfold kernelRun1_A
  dsimp only
  sl_unfold_words
  rw [View.canon_cons_unit_zero (S := S1024x1) hz2]
  simp only [View.readCov_unit_zero (S := S1024x1) _ hz2, View.readCov_unit_zero (S := S1024x1024) _ hz2]
  unfold stepL
  simp only [View.readAt_eq_ld, (hs1_0 t).read_unread, (hs1_1 t).read_unread, (hs1_2 t).read_unread, (hs1_3 t).read_unread, (Memref.isWhole_whole cc1_scratch0).read_unread, (Memref.isWhole_whole cc1_scratch1).read_unread, (Memref.isWhole_whole cc1_scratch2).read_unread, View.ld_unit_zero (S := S1024x1024) hz2, View.ld_unit_zero (S := S1024x1) hz2]

theorem caseA_acc (c : Dev nD) (t : Fin cfg1.N) (hc0 : cond1_0 (grid1.coords t)) (hc1 : ¬cond1_1 (grid1.coords t)) :
    (caseA V c t hc0 hc1).2.2.2 = stepAcc (iblk1 V c 0 t) (iblk1 V c 1 t) (iblk1 V c 2 t) (k1_pay4 (F := F)) (k1_pay6 (F := F)) := by
  unfold caseA; dsimp only
  rw [View.read_writes_eq_canon _ _ _ (scover1_A_2 V c t hc0 hc1)]
  unfold kernelRun1_A
  dsimp only
  sl_unfold_words
  rw [View.canon_cons_unit_zero (S := S1024x1024) hz2]
  simp only [View.readCov_unit_zero (S := S1024x1) _ hz2, View.readCov_unit_zero (S := S1024x1024) _ hz2]
  unfold stepAcc
  simp only [View.readAt_eq_ld, (hs1_0 t).read_unread, (hs1_1 t).read_unread, (hs1_2 t).read_unread, (hs1_3 t).read_unread, (Memref.isWhole_whole cc1_scratch0).read_unread, (Memref.isWhole_whole cc1_scratch1).read_unread, (Memref.isWhole_whole cc1_scratch2).read_unread, View.ld_unit_zero (S := S1024x1024) hz2, View.ld_unit_zero (S := S1024x1) hz2]

end Pieces

end Cert.KernelIdeal.Hand

end
-- ==== Proof.LibOnlineSoftmax.lean ====
import Idealize.ShloMosaic.PureOps.Ideal
import Idealize.ShloMosaic.PureOps.Ideal.Laws

/-!
# The tiled ("online") softmax-weighted sum equals the one-pass softmax-weighted sum, on the extended reals

Fix one row of scores and one column of values, both FINITE reals read as extended reals, cut into
n tiles of t positions: e k c, v k c for k < n, c < t.

The tiled computation keeps three extended reals (m, l, acc), started at (⊥, 0, 0) (the maximum of
nothing, an empty sum, an empty weighted sum), and at tile k replaces them by

    m'   = max m (the maximum over c of e k c, a fold of max from ⊥)
    a    = exp (m − m')
    l'   = a · l   + Σ_c exp (e k c − m')
    acc' = a · acc + Σ_c exp (e k c − m') · v k c

(onlineStep; onlineRun iterates it over the tiles), and answers acc / l at the end. Every operation
is the exact one on the extended reals: exp ⊥ = 0, ⊥ − x = ⊥, 0 · 0 = 0, x / y = x · y⁻¹ for y ≠ 0.

What is proved:

* online_invariant — after k ≥ 1 tiles, m is the real maximum μ of the first k tiles' scores,
  l = Σ_{k' < k, c} exp (e k' c − μ) and acc = Σ_{k' < k, c} exp (e k' c − μ) · v k' c, all of them
  real. The first tile is where ⊥ − μ = ⊥, exp ⊥ = 0 and 0 · 0 = 0 are used; every later tile is
  exp (μ − μ') · exp (x − μ) = exp (x − μ') on the reals, summed.
* online_eq_softmax, online_eq_softmax_of_equiv — hence acc / l after all n tiles is the one-pass value
  Σ_j (exp (e j − M) / L) · v j with M the maximum over all positions j = (k, c) and
  L = Σ_j exp (e j − M) (softmaxRef): both are the real number
  (Σ_j exp (e j − M) · v j) / (Σ_j exp (e j − M)), whose denominator is positive because every term is.
  The second form takes the one-pass side over any finite index type in bijection with the pairs (k, c).
-/

noncomputable section

namespace OnlineSoftmax

open Idealize.ShloMosaic
open scoped BigOperators

/-! ### Real numbers inside the extended reals -/

/-- The coercion of a finite real sum is the sum of the coercions. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The coercion of a maximum of reals is the maximum of the coercions. -/
theorem coe_max (a b : ℝ) : ((max a b : ℝ) : EReal) = max (a : EReal) (b : EReal) :=
  EReal.coe_strictMono.monotone.map_max

/-- The exponential of a difference of two reals is the real exponential of the real difference. -/
theorem exp_coe_sub_coe (a b : ℝ) : Ideal.exp ((a : EReal) - (b : EReal)) = ((Real.exp (a - b) : ℝ) : EReal) := rfl

/-- The exponential of minus infinity less a real is zero: ⊥ − b = ⊥ and exp ⊥ = 0. -/
theorem exp_bot_sub (b : EReal) : Ideal.exp (⊥ - b) = 0 := by
  rw [EReal.bot_sub, Ideal.exp_bot]

/-- A quotient of reals with a nonzero denominator is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- Moving the reference point of an exponential weight: exp (μ − μ') · exp (x − μ) = exp (x − μ'). -/
theorem exp_rescale (μ μ' x : ℝ) : Real.exp (μ - μ') * Real.exp (x - μ) = Real.exp (x - μ') := by
  rw [← Real.exp_add]; congr 1; ring

/-! ### The maximum of a tile, a fold of max from ⊥ -/

/-- The maximum over a finite family of extended reals, folded from ⊥. -/
def foldMax {ι : Type} [Fintype ι] (e : ι → EReal) : EReal := (Finset.univ : Finset ι).fold max ⊥ e

theorem foldMax_eq_sup {ι : Type} [Fintype ι] (e : ι → EReal) : foldMax e = Finset.univ.sup e := rfl

/-- Over a nonempty index type the folded maximum of finite reals is one of them, and bounds them all. -/
theorem foldMax_coe {ι : Type} [Fintype ι] [Nonempty ι] (e : ι → ℝ) :
    ∃ ρ : ℝ, foldMax (fun c => (e c : EReal)) = (ρ : EReal) ∧ (∀ c, e c ≤ ρ) ∧ ∃ c, e c = ρ := by
  obtain ⟨c, -, hc⟩ := Finset.exists_mem_eq_sup Finset.univ Finset.univ_nonempty (fun c => (e c : EReal))
  refine ⟨e c, by rw [foldMax_eq_sup, hc], fun c' => ?_, c, rfl⟩
  have h := Finset.le_sup (f := fun c => (e c : EReal)) (Finset.mem_univ c')
  rw [hc] at h
  exact EReal.coe_le_coe_iff.mp h

/-! ### The recurrence -/

/-- The three running quantities: the maximum so far, the sum of weights, the weighted sum. -/
@[ext] structure State where
  m : EReal
  l : EReal
  acc : EReal

/-- Before the first tile: the maximum of nothing, and two empty sums. -/
def init : State := ⟨⊥, 0, 0⟩

/-- One tile's update of the three running quantities, from the tile's scores and values. -/
def onlineStep {t : ℕ} (s : State) (e v : Fin t → EReal) : State where
  m := max s.m (foldMax e)
  l := Ideal.exp (s.m - max s.m (foldMax e)) * s.l + ∑ c, Ideal.exp (e c - max s.m (foldMax e))
  acc := Ideal.exp (s.m - max s.m (foldMax e)) * s.acc + ∑ c, Ideal.exp (e c - max s.m (foldMax e)) * v c

/-- The running quantities after the first k of the n tiles (all n of them for k ≥ n). -/
def onlineRun {n t : ℕ} (e v : Fin n → Fin t → EReal) : ℕ → State
  | 0 => init
  | k + 1 => if h : k < n then onlineStep (onlineRun e v k) (e ⟨k, h⟩) (v ⟨k, h⟩) else onlineRun e v k

@[simp] theorem onlineRun_zero {n t : ℕ} (e v : Fin n → Fin t → EReal) : onlineRun e v 0 = init := rfl

theorem onlineRun_succ {n t : ℕ} (e v : Fin n → Fin t → EReal) {k : ℕ} (h : k < n) :
    onlineRun e v (k + 1) = onlineStep (onlineRun e v k) (e ⟨k, h⟩) (v ⟨k, h⟩) := by
  rw [onlineRun, dif_pos h]

@[simp] theorem onlineStep_m {t : ℕ} (s : State) (e v : Fin t → EReal) :
    (onlineStep s e v).m = max s.m (foldMax e) := rfl

@[simp] theorem onlineStep_l {t : ℕ} (s : State) (e v : Fin t → EReal) :
    (onlineStep s e v).l
      = Ideal.exp (s.m - max s.m (foldMax e)) * s.l + ∑ c, Ideal.exp (e c - max s.m (foldMax e)) := rfl

@[simp] theorem onlineStep_acc {t : ℕ} (s : State) (e v : Fin t → EReal) :
    (onlineStep s e v).acc
      = Ideal.exp (s.m - max s.m (foldMax e)) * s.acc + ∑ c, Ideal.exp (e c - max s.m (foldMax e)) * v c := rfl

/-- Any sequence of running quantities that starts at (⊥, 0, 0) and moves by the tile update is onlineRun. -/
theorem eq_onlineRun_of_rec {n t : ℕ} (e v : Fin n → Fin t → EReal) (s : ℕ → State) (h0 : s 0 = init)
    (hs : ∀ (k : ℕ) (h : k < n), s (k + 1) = onlineStep (s k) (e ⟨k, h⟩) (v ⟨k, h⟩)) :
    ∀ k, k ≤ n → s k = onlineRun e v k := by
  intro k
  induction k with
  | zero => intro _; rw [h0, onlineRun_zero]
  | succ k ih =>
    intro hk
    have hkn : k < n := hk
    rw [hs k hkn, onlineRun_succ e v hkn, ih (Nat.le_of_lt hkn)]

/-- The same update written with the float operations of the extended-real instance. -/
theorem onlineStep_floatOps {t : ℕ} (s : State) (e v : Fin t → EReal) :
    onlineStep s e v =
      { m := FloatOps.maximumf (F := Ideal) (φ := .f32) s.m ((Finset.univ : Finset (Fin t)).fold max ⊥ e)
        l := FloatOps.addf (F := Ideal) (φ := .f32)
              (FloatOps.mulf (F := Ideal) (φ := .f32)
                (FloatOps.exp (F := Ideal) (φ := .f32) (FloatOps.subf (F := Ideal) (φ := .f32) s.m
                  (FloatOps.maximumf (F := Ideal) (φ := .f32) s.m ((Finset.univ : Finset (Fin t)).fold max ⊥ e)))) s.l)
              (∑ c, FloatOps.exp (F := Ideal) (φ := .f32) (FloatOps.subf (F := Ideal) (φ := .f32) (e c)
                  (FloatOps.maximumf (F := Ideal) (φ := .f32) s.m ((Finset.univ : Finset (Fin t)).fold max ⊥ e))))
        acc := FloatOps.addf (F := Ideal) (φ := .f32)
              (FloatOps.mulf (F := Ideal) (φ := .f32)
                (FloatOps.exp (F := Ideal) (φ := .f32) (FloatOps.subf (F := Ideal) (φ := .f32) s.m
                  (FloatOps.maximumf (F := Ideal) (φ := .f32) s.m ((Finset.univ : Finset (Fin t)).fold max ⊥ e)))) s.acc)
              (∑ c, FloatOps.mulf (F := Ideal) (φ := .f32)
                (FloatOps.exp (F := Ideal) (φ := .f32) (FloatOps.subf (F := Ideal) (φ := .f32) (e c)
                  (FloatOps.maximumf (F := Ideal) (φ := .f32) s.m ((Finset.univ : Finset (Fin t)).fold max ⊥ e)))) (v c)) } :=
  rfl

/-! ### One tile on real running quantities -/

/-- The first tile, from (⊥, 0, 0): the rescaling factor is exp (⊥ − ρ) = exp ⊥ = 0 and multiplies 0,
    so the new quantities are the tile's own maximum ρ, weight sum and weighted sum. -/
theorem onlineStep_init {t : ℕ} (e v : Fin t → ℝ) {ρ : ℝ} (hρ : foldMax (fun c => (e c : EReal)) = (ρ : EReal)) :
    onlineStep init (fun c => (e c : EReal)) (fun c => (v c : EReal))
      = ⟨(ρ : EReal), ((∑ c, Real.exp (e c - ρ) : ℝ) : EReal), ((∑ c, Real.exp (e c - ρ) * v c : ℝ) : EReal)⟩ := by
  have hm : max (⊥ : EReal) (ρ : EReal) = (ρ : EReal) := max_eq_right bot_le
  ext
  · show max (⊥ : EReal) (foldMax fun c => (e c : EReal)) = _
    rw [hρ, hm]
  · show Ideal.exp (⊥ - max (⊥ : EReal) (foldMax fun c => (e c : EReal))) * 0
        + ∑ c, Ideal.exp ((e c : EReal) - max (⊥ : EReal) (foldMax fun c => (e c : EReal)))
        = ((∑ c, Real.exp (e c - ρ) : ℝ) : EReal)
    rw [hρ, hm, exp_bot_sub, zero_mul, zero_add, coe_sum]
    exact Finset.sum_congr rfl fun c _ => exp_coe_sub_coe _ _
  · show Ideal.exp (⊥ - max (⊥ : EReal) (foldMax fun c => (e c : EReal))) * 0
        + ∑ c, Ideal.exp ((e c : EReal) - max (⊥ : EReal) (foldMax fun c => (e c : EReal))) * (v c : EReal)
        = ((∑ c, Real.exp (e c - ρ) * v c : ℝ) : EReal)
    rw [hρ, hm, exp_bot_sub, zero_mul, zero_add, coe_sum]
    exact Finset.sum_congr rfl fun c _ => by rw [exp_coe_sub_coe, EReal.coe_mul]

/-- A later tile, from real quantities (μ, L, A): the new maximum is max μ ρ, and the old sums are
    rescaled by the real factor exp (μ − max μ ρ) before the tile's own sums are added. -/
theorem onlineStep_coe {t : ℕ} (μ L A : ℝ) (e v : Fin t → ℝ) {ρ : ℝ}
    (hρ : foldMax (fun c => (e c : EReal)) = (ρ : EReal)) :
    onlineStep ⟨(μ : EReal), (L : EReal), (A : EReal)⟩ (fun c => (e c : EReal)) (fun c => (v c : EReal))
      = ⟨((max μ ρ : ℝ) : EReal),
         ((Real.exp (μ - max μ ρ) * L + ∑ c, Real.exp (e c - max μ ρ) : ℝ) : EReal),
         ((Real.exp (μ - max μ ρ) * A + ∑ c, Real.exp (e c - max μ ρ) * v c : ℝ) : EReal)⟩ := by
  have hm : max (μ : EReal) (ρ : EReal) = ((max μ ρ : ℝ) : EReal) := (coe_max μ ρ).symm
  ext
  · show max (μ : EReal) (foldMax fun c => (e c : EReal)) = _
    rw [hρ, hm]
  · show Ideal.exp ((μ : EReal) - max (μ : EReal) (foldMax fun c => (e c : EReal))) * (L : EReal)
        + ∑ c, Ideal.exp ((e c : EReal) - max (μ : EReal) (foldMax fun c => (e c : EReal)))
        = ((Real.exp (μ - max μ ρ) * L + ∑ c, Real.exp (e c - max μ ρ) : ℝ) : EReal)
    rw [hρ, hm, exp_coe_sub_coe, EReal.coe_add, EReal.coe_mul, coe_sum]
    exact congrArg _ (Finset.sum_congr rfl fun c _ => exp_coe_sub_coe _ _)
  · show Ideal.exp ((μ : EReal) - max (μ : EReal) (foldMax fun c => (e c : EReal))) * (A : EReal)
        + ∑ c, Ideal.exp ((e c : EReal) - max (μ : EReal) (foldMax fun c => (e c : EReal))) * (v c : EReal)
        = ((Real.exp (μ - max μ ρ) * A + ∑ c, Real.exp (e c - max μ ρ) * v c : ℝ) : EReal)
    rw [hρ, hm, exp_coe_sub_coe, EReal.coe_add, EReal.coe_mul, coe_sum]
    exact congrArg _ (Finset.sum_congr rfl fun c _ => by rw [exp_coe_sub_coe, EReal.coe_mul])

/-! ### The tiles before the k-th -/

/-- The tiles with number below k. -/
def before (n k : ℕ) : Finset (Fin n) := Finset.univ.filter fun k' => k'.val < k

@[simp] theorem mem_before {n k : ℕ} (k' : Fin n) : k' ∈ before n k ↔ k'.val < k := by
  simp [before]

theorem before_succ {n k : ℕ} (h : k < n) : before n (k + 1) = insert ⟨k, h⟩ (before n k) := by
  ext k'
  simp only [mem_before, Finset.mem_insert, Fin.ext_iff]
  omega

theorem not_mem_before_self {n k : ℕ} (h : k < n) : (⟨k, h⟩ : Fin n) ∉ before n k := by
  simp

theorem before_self (n : ℕ) : before n n = Finset.univ := by
  ext k'; simp

/-- Rescaling a double sum of exponential weights from the reference point μ to μ'. -/
theorem rescale_sum {n t : ℕ} (s : Finset (Fin n)) (e w : Fin n → Fin t → ℝ) (μ μ' : ℝ) :
    Real.exp (μ - μ') * ∑ k' ∈ s, ∑ c, Real.exp (e k' c - μ) * w k' c
      = ∑ k' ∈ s, ∑ c, Real.exp (e k' c - μ') * w k' c := by
  rw [Finset.mul_sum]
  refine Finset.sum_congr rfl fun k' _ => ?_
  rw [Finset.mul_sum]
  refine Finset.sum_congr rfl fun c _ => ?_
  rw [← mul_assoc, exp_rescale]

/-! ### The invariant -/

/-- After k ≥ 1 of the n tiles: the running maximum is a real μ, the greatest score among the first k
    tiles; the running sum is Σ exp (e − μ) and the running weighted sum Σ exp (e − μ) · v over them. -/
theorem online_invariant {n t : ℕ} (ht : 0 < t) (e v : Fin n → Fin t → ℝ) (k : ℕ) (hk0 : 1 ≤ k) (hk : k ≤ n) :
    ∃ μ : ℝ, (∀ k' : Fin n, k'.val < k → ∀ c, e k' c ≤ μ) ∧ (∃ k' : Fin n, k'.val < k ∧ ∃ c, e k' c = μ) ∧
      onlineRun (fun k' c => (e k' c : EReal)) (fun k' c => (v k' c : EReal)) k
        = ⟨(μ : EReal), ((∑ k' ∈ before n k, ∑ c, Real.exp (e k' c - μ) : ℝ) : EReal),
            ((∑ k' ∈ before n k, ∑ c, Real.exp (e k' c - μ) * v k' c : ℝ) : EReal)⟩ := by
  haveI : Nonempty (Fin t) := ⟨⟨0, ht⟩⟩
  induction k, hk0 using Nat.le_induction with
  | base =>
    have h0 : 0 < n := hk
    obtain ⟨ρ, hρ, hle, c₀, hc₀⟩ := foldMax_coe (e ⟨0, h0⟩)
    refine ⟨ρ, ?_, ⟨⟨0, h0⟩, Nat.zero_lt_one, c₀, hc₀⟩, ?_⟩
    · intro k' hk' c
      have : k' = ⟨0, h0⟩ := Fin.ext (by simpa using hk')
      rw [this]; exact hle c
    · rw [onlineRun_succ _ _ h0, onlineRun_zero]
      rw [onlineStep_init (e ⟨0, h0⟩) (v ⟨0, h0⟩) hρ]
      have hb : before n (0 + 1) = {⟨0, h0⟩} := by rw [before_succ h0]; ext; simp
      rw [hb, Finset.sum_singleton, Finset.sum_singleton]
  | succ k hk0 ih =>
    have hkn : k < n := hk
    obtain ⟨μ, hle, ⟨k₁, hk₁, c₁, hc₁⟩, hrun⟩ := ih (Nat.le_of_lt hkn)
    obtain ⟨ρ, hρ, hρle, c₀, hc₀⟩ := foldMax_coe (e ⟨k, hkn⟩)
    refine ⟨max μ ρ, ?_, ?_, ?_⟩
    · intro k' hk' c
      rcases Nat.lt_succ_iff_lt_or_eq.mp hk' with h | h
      · exact le_trans (hle k' h c) (le_max_left _ _)
      · have : k' = ⟨k, hkn⟩ := Fin.ext h
        rw [this]; exact le_trans (hρle c) (le_max_right _ _)
    · rcases le_total μ ρ with h | h
      · exact ⟨⟨k, hkn⟩, Nat.lt_succ_self k, c₀, by rw [hc₀, max_eq_right h]⟩
      · exact ⟨k₁, Nat.lt_succ_of_lt hk₁, c₁, by rw [hc₁, max_eq_left h]⟩
    · rw [onlineRun_succ _ _ hkn, hrun, onlineStep_coe _ _ _ (e ⟨k, hkn⟩) (v ⟨k, hkn⟩) hρ]
      rw [before_succ hkn, Finset.sum_insert (not_mem_before_self hkn), Finset.sum_insert (not_mem_before_self hkn)]
      have h1 := rescale_sum (before n k) e (fun _ _ => (1 : ℝ)) μ (max μ ρ)
      simp only [mul_one] at h1
      rw [h1, rescale_sum (before n k) e v μ (max μ ρ)]
      congr 2 <;> exact add_comm _ _

/-! ### The one-pass value, and the equality -/

/-- The one-pass softmax-weighted sum over a finite index type: with M = max ⊥ (the folded maximum)
    and L = 0 + Σ_i exp (e i − M), the sum Σ_j (exp (e j − M) / L) · v j. -/
def softmaxRef {J : Type} [Fintype J] (e v : J → EReal) : EReal :=
  ∑ j, Ideal.div (Ideal.exp (e j - max ⊥ (foldMax e))) (0 + ∑ i, Ideal.exp (e i - max ⊥ (foldMax e))) * v j

/-- The same value written with the float operations of the extended-real instance, the host's among them. -/
theorem softmaxRef_floatOps {J : Type} [Fintype J] (e v : J → EReal) :
    softmaxRef e v =
      ∑ j, FloatOps.mulf (F := Ideal) (φ := .f32)
        (FloatOps.hostDivf (F := Ideal) (φ := .f32)
          (FloatOps.hostUnary (F := Ideal) (φ := .f32) .exp (FloatOps.subf (F := Ideal) (φ := .f32) (e j)
            (FloatOps.maximumf (F := Ideal) (φ := .f32) ⊥ ((Finset.univ : Finset J).fold max ⊥ e))))
          (FloatOps.addf (F := Ideal) (φ := .f32) 0
            (∑ i, FloatOps.hostUnary (F := Ideal) (φ := .f32) .exp (FloatOps.subf (F := Ideal) (φ := .f32) (e i)
              (FloatOps.maximumf (F := Ideal) (φ := .f32) ⊥ ((Finset.univ : Finset J).fold max ⊥ e))))))
        (v j) :=
  rfl

/-- With real scores and values whose maximum is μ, the one-pass value is the real quotient
    (Σ_j exp (e j − μ) · v j) / (Σ_j exp (e j − μ)); the denominator is a nonempty sum of positive terms. -/
theorem softmaxRef_coe {J : Type} [Fintype J] [Nonempty J] (e v : J → ℝ) {μ : ℝ}
    (hμ : foldMax (fun j => (e j : EReal)) = (μ : EReal)) :
    softmaxRef (fun j => (e j : EReal)) (fun j => (v j : EReal))
      = (((∑ j, Real.exp (e j - μ) * v j) / (∑ j, Real.exp (e j - μ)) : ℝ) : EReal) := by
  have hL0 : (∑ j, Real.exp (e j - μ)) ≠ 0 :=
    ne_of_gt (Finset.sum_pos (fun j _ => Real.exp_pos _) Finset.univ_nonempty)
  have hL : (∑ i, Ideal.exp ((e i : EReal) - (μ : EReal))) = ((∑ j, Real.exp (e j - μ) : ℝ) : EReal) := by
    rw [coe_sum]; exact Finset.sum_congr rfl fun c _ => exp_coe_sub_coe _ _
  have hR : (((∑ j, Real.exp (e j - μ) * v j) / (∑ j, Real.exp (e j - μ)) : ℝ) : EReal)
      = ∑ j, ((Real.exp (e j - μ) / (∑ i, Real.exp (e i - μ)) * v j : ℝ) : EReal) := by
    rw [← coe_sum, Finset.sum_div]
    exact congrArg _ (Finset.sum_congr rfl fun j _ => (div_mul_eq_mul_div _ _ _).symm)
  unfold softmaxRef
  rw [hR, hμ, max_eq_right (bot_le : (⊥ : EReal) ≤ (μ : EReal)), zero_add, hL]
  refine Finset.sum_congr rfl fun j _ => ?_
  show Ideal.div (Ideal.exp ((e j : EReal) - (μ : EReal))) ((∑ i, Real.exp (e i - μ) : ℝ) : EReal) * (v j : EReal) = _
  rw [exp_coe_sub_coe, div_coe_coe _ hL0, ← EReal.coe_mul]

/-- THE EQUALITY. For finite real scores and values indexed by any finite type in bijection σ with the pairs
    (tile, position in the tile), n ≥ 1 tiles of t ≥ 1 positions: the tiled computation's acc / l after
    all n tiles is the one-pass softmax-weighted sum. -/
theorem online_eq_softmax_of_equiv {J : Type} [Fintype J] {n t : ℕ} (hn : 0 < n) (ht : 0 < t)
    (σ : Fin n × Fin t ≃ J) (e v : J → ℝ) :
    Ideal.div
        (onlineRun (fun k c => (e (σ (k, c)) : EReal)) (fun k c => (v (σ (k, c)) : EReal)) n).acc
        (onlineRun (fun k c => (e (σ (k, c)) : EReal)) (fun k c => (v (σ (k, c)) : EReal)) n).l
      = softmaxRef (fun j => (e j : EReal)) (fun j => (v j : EReal)) := by
  haveI : Nonempty J := ⟨σ (⟨0, hn⟩, ⟨0, ht⟩)⟩
  obtain ⟨μ, hle, ⟨k₁, -, c₁, hc₁⟩, hrun⟩ :=
    online_invariant ht (fun k c => e (σ (k, c))) (fun k c => v (σ (k, c))) n hn le_rfl
  -- μ is the maximum over all of J
  have hμ : foldMax (fun j => (e j : EReal)) = (μ : EReal) := by
    rw [foldMax_eq_sup]
    apply le_antisymm
    · refine Finset.sup_le fun j _ => ?_
      have h := hle (σ.symm j).1 (σ.symm j).1.isLt (σ.symm j).2
      rw [Prod.mk.eta, Equiv.apply_symm_apply] at h
      exact EReal.coe_le_coe_iff.mpr h
    · rw [← hc₁]
      exact Finset.le_sup (f := fun j => (e j : EReal)) (Finset.mem_univ (σ (k₁, c₁)))
  -- the double sums over tiles and positions are the sums over J
  have hsum : ∀ F : J → ℝ, (∑ k' ∈ before n n, ∑ c, F (σ (k', c))) = ∑ j, F j := fun F => by
    rw [before_self, ← Fintype.sum_prod_type (fun p : Fin n × Fin t => F (σ p))]
    exact Equiv.sum_comp σ F
  have hL0 : (∑ j, Real.exp (e j - μ)) ≠ 0 :=
    ne_of_gt (Finset.sum_pos (fun j _ => Real.exp_pos _) Finset.univ_nonempty)
  rw [softmaxRef_coe e v hμ, hrun]
  show Ideal.div ((∑ k' ∈ before n n, ∑ c, Real.exp (e (σ (k', c)) - μ) * v (σ (k', c)) : ℝ) : EReal)
      ((∑ k' ∈ before n n, ∑ c, Real.exp (e (σ (k', c)) - μ) : ℝ) : EReal) = _
  rw [hsum (fun j => Real.exp (e j - μ) * v j), hsum (fun j => Real.exp (e j - μ)), div_coe_coe _ hL0]

/-- The same with the one-pass side indexed by the pairs (tile, position) themselves. -/
theorem online_eq_softmax {n t : ℕ} (hn : 0 < n) (ht : 0 < t) (e v : Fin n → Fin t → ℝ) :
    Ideal.div
        (onlineRun (fun k c => (e k c : EReal)) (fun k c => (v k c : EReal)) n).acc
        (onlineRun (fun k c => (e k c : EReal)) (fun k c => (v k c : EReal)) n).l
      = softmaxRef (fun p : Fin n × Fin t => (e p.1 p.2 : EReal)) (fun p : Fin n × Fin t => (v p.1 p.2 : EReal)) :=
  online_eq_softmax_of_equiv hn ht (Equiv.refl _) (fun p => e p.1 p.2) (fun p => v p.1 p.2)

end OnlineSoftmax

end
-- ==== Proof.KIPay1.lean ====
import proofs.«167690_j59450937312052_2_alg».proof.Proof.Gen.KernelIdeal.Skeleton
import proofs.«167690_j59450937312052_2_alg».proof.Proof.LibOnlineSoftmax
import Idealize.ShloMosaic.Lib.ValueIdx
import Idealize.ShloMosaic.Lib.Pipeline.Value
import Idealize.ShloMosaic.Lib.ValueLayout
import Idealize.ShloMosaic.PureOps.Ideal.Laws

/-! The values the attention kernel's body stores, read at an index over the extended reals.

One step of the body takes a block of queries `q`, a block of transposed keys `kT`, a block of values `vv` and
the three running quantities of each row — the maximum `m`, the sum of weights `l`, the weighted sums `acc` — and
replaces them by

  `m' = max m (max_c e c)`,  `l' = exp (m - m') * l + ∑ c, exp (e c - m')`,
  `acc' d = exp (m - m') * acc d + ∑ c, exp (e c - m') * vv c d`,   where `e c = ∑ dd, q r dd * kT dd c`.

Each stored value is read here at row `r` (and column `d`): a cast of a shape to itself is the identity, a column
`[a] → [a, 1]` or its broadcast along the rows `[a, 1] → [a, b]` moves the index, a product into the zero accumulator
is the sum over the contracted coordinate, a reduction over the columns is the fold of `max` from `-∞` or the sum
over the row, and a change of float format is the identity. The three new quantities are then the block update of
the tiled softmax at the row's scores `tileE` and the values' column `tileV`. -/

noncomputable section

namespace Cert.KernelIdeal.Pay

open Cert.KernelIdeal Cert.KernelIdeal.Gen
open Idealize.ShloMosaic Idealize.ShloMosaic.ValueIdx
open scoped BigOperators

/-! ## Column forms of the layout operations -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A square contraction into the zero accumulator -/

theorem lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- A `[1024, 1024] × [1024, 1024]` product into the zero accumulator, at `(i, c)`: the sum over the contracted
    coordinate of row `i` of the left operand against column `c` of the right. -/
theorem matmul_zero_read (l r : FVec Ideal S1024x1024 .bf16) (i c : Fin 1024) :
    matmul dot_S1024x1024_S1024x1024_S1024x1024_1_0_0_1_n_n none l r
        (constant (F := Ideal) S1024x1024 .f32 0x00000000#32) (ix2 i c)
      = ∑ k : Fin 1024, l (ix2 i k) * r (ix2 k c) := by
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 i c)
      ((contrEquiv1 dot_S1024x1024_S1024x1024_S1024x1024_1_0_0_1_n_n 1024 rfl rfl).symm k) = ix2 i k :=
    funext fun a => Fin.ext (by
      match a with
      | ⟨0, _⟩ => exact lhs_0 _ _
      | ⟨1, _⟩ => exact (lhs_1 _ _).trans hk)
  have er : dot_S1024x1024_S1024x1024_S1024x1024_1_0_0_1_n_n.rhsIdx (ix2 i c)
      ((contrEquiv1 dot_S1024x1024_S1024x1024_S1024x1024_1_0_0_1_n_n 1024 rfl rfl).symm k) = ix2 k c :=
    funext fun a => Fin.ext (by
      match a with
      | ⟨0, _⟩ => exact (rhs_0 _ _).trans hk
      | ⟨1, _⟩ => exact rhs_1 _ _)
  rw [el, er]

/-! ## The flash kernel's payloads at an index -/

/-- The scores of row `r` against the column block: `∑ dd, q r dd * kT dd c`. -/
def tileE (q kT : Vec Ideal S1024x1024 .bf16) (r : Fin 1024) : Fin 1024 → EReal :=
  fun c => ∑ dd : Fin 1024, q (ix2 r dd) * kT (ix2 dd c)

/-- Column `d` of the value block. -/
def tileV (vv : Vec Ideal S1024x1024 .bf16) (d : Fin 1024) : Fin 1024 → EReal :=
  fun c => vv (ix2 c d)

/-- The word `0xFF800000` is `-∞`. -/
theorem negInf : Ideal.ofBits .f32 0xFF800000#32 = (⊥ : EReal) := by simp [Ideal.ofBits, Ideal.ieee]

/-- The reduced index `r` with column `c` put back is `(r, c)`. -/
theorem lift_row (h : S1024x1024.Reduces [1] S1024) (r c : Fin 1024) : h.lift (ix1 r) c = ix2 r c :=
  funext fun a => Fin.ext (by match a with | ⟨0, _⟩ => rfl | ⟨1, _⟩ => rfl)

/-- The block of scores is the contraction of the two loaded blocks into the zero accumulator. -/
theorem pay7_eq (q kT : FVec Ideal S1024x1024 .bf16) :
    k1_pay7 (F := Ideal) q kT
      = matmul dot_S1024x1024_S1024x1024_S1024x1024_1_0_0_1_n_n none q kT
          (constant (F := Ideal) S1024x1024 .f32 0x00000000#32) := by
  unfold k1_pay7
  rw [shapeCast_self, shapeCast_self]

/-- The block of scores at `(r, c)`. -/
theorem pay7_idx (q kT : FVec Ideal S1024x1024 .bf16) (r c : Fin 1024) :
    k1_pay7 (F := Ideal) q kT (ix2 r c) = tileE q kT r c := by
  rw [pay7_eq]
  exact matmul_zero_read q kT r c

/-- A row's maximum from `-∞`: the reduction of a `[1024, 1024]` block over its columns, at row `r`. -/
theorem rowMax_read (src : FVec Ideal S1024x1024 .f32) (h : S1024x1024.Reduces [1] S1024) (hφ : FKind.Formats .f32)
    (hacc : (0xFF800000#32 : BitVec 32) = FKind.maximumf.neutral .f32 hφ) (r : Fin 1024) :
    multiReduction .maximumf [1] S1024 src 0xFF800000#32 h hφ hacc (ix1 r)
      = (Finset.univ : Finset (Fin 1024)).fold max ⊥ (fun c => src (ix2 r c)) := by
  refine (Ideal.multiReduction_maximumf_single src 0xFF800000#32 h hφ hacc (ix1 r)).trans ?_
  have hf : (src ∘ h.lift (ix1 r)) = fun c : Fin 1024 => src (ix2 r c) :=
    funext fun (c : Fin 1024) => congrArg src (lift_row h r c)
  rw [hf]
  show Finset.fold max (Ideal.ofBits .f32 0xFF800000#32) _ (Finset.univ : Finset (Fin 1024)) = _
  rw [negInf]

/-- A row's sum: the reduction of a `[1024, 1024]` block over its columns, at row `r`. -/
theorem rowSum_read (src : FVec Ideal S1024x1024 .f32) (h : S1024x1024.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ c : Fin 1024, src (ix2 r c) := by
  refine (Ideal.multiReduction_add_single src 0x00000000#32 h hφ hacc (ix1 r)).trans ?_
  exact Finset.sum_congr rfl fun (c : Fin 1024) _ => congrArg src (lift_row h r c)

/-- The new running maximum at row `r`: the old one against the maximum of the row's scores, folded from `-∞`. -/
theorem pay8_read (q kT : FVec Ideal S1024x1024 .bf16) (mOld : FVec Ideal S1024x1 .f32) (r : Fin 1024) (u : Fin 1) :
    k1_pay8 (F := Ideal) q kT mOld (ix2 r u)
      = max (mOld (ix2 r u)) ((Finset.univ : Finset (Fin 1024)).fold max ⊥ (tileE q kT r)) := by
  unfold k1_pay8
  refine (maximumf_apply _ _ _).trans ?_
  refine congrArg (max (mOld (ix2 r u))) ?_
  refine (shapeCast_a_a1_apply _ _ r u).trans ?_
  refine (rowMax_read _ _ _ _ r).trans ?_
  exact congrArg (fun f => Finset.fold max ⊥ f (Finset.univ : Finset (Fin 1024))) (funext fun c => pay7_idx q kT r c)

/-- An exponential at an index is the exponential of the element. -/
theorem exp_apply {s : Shape} {φ : FTy} (a : FVec Ideal s φ) (i : s.Idx) : exp a i = Ideal.exp (a i) := rfl

/-- The rescaling factor at row `r`: `exp (m - m')`. -/
theorem pay9_read (q kT : FVec Ideal S1024x1024 .bf16) (mOld mOld' : FVec Ideal S1024x1 .f32) (r : Fin 1024) (u : Fin 1) :
    k1_pay9 (F := Ideal) q kT mOld mOld' (ix2 r u)
      = Ideal.exp (mOld' (ix2 r u) - k1_pay8 (F := Ideal) q kT mOld (ix2 r u)) := by
  unfold k1_pay9
  rfl

/-- The block's weights at `(r, c)`: `exp (e r c - m' r)`. -/
theorem pay10_read (q kT : FVec Ideal S1024x1024 .bf16) (mOld : FVec Ideal S1024x1 .f32) (r c : Fin 1024) :
    k1_pay10 (F := Ideal) q kT mOld (ix2 r c)
      = Ideal.exp (tileE q kT r c - k1_pay8 (F := Ideal) q kT mOld (ix2 r (0 : Fin 1))) := by
  unfold k1_pay10
  refine (exp_apply _ _).trans ?_
  refine congrArg Ideal.exp ?_
  refine (subf_apply _ _ _).trans ?_
  rw [pay7_idx]
  exact congrArg (tileE q kT r c - ·) (broadcastTo_a1_ab_apply _ _ r c)

/-- The new running sum at row `r`. -/
theorem pay11_read (q kT : FVec Ideal S1024x1024 .bf16) (mOld mOld' lOld : FVec Ideal S1024x1 .f32) (r : Fin 1024) (u : Fin 1) :
    k1_pay11 (F := Ideal) q kT mOld mOld' lOld (ix2 r u)
      = k1_pay9 (F := Ideal) q kT mOld mOld' (ix2 r u) * lOld (ix2 r u)
        + ∑ c : Fin 1024, k1_pay10 (F := Ideal) q kT mOld (ix2 r c) := by
  unfold k1_pay11
  rw [shapeCast_self]
  refine (addf_apply _ _ _).trans ?_
  refine congrArg₂ (· + ·) (mulf_apply _ _ _) ?_
  refine (shapeCast_a_a1_apply _ _ r u).trans ?_
  exact rowSum_read _ _ _ _ r

/-- The new running weighted sum at `(r, d)`. -/
theorem pay12_read (q kT vv : FVec Ideal S1024x1024 .bf16) (mOld mOld' : FVec Ideal S1024x1 .f32)
    (accOld : FVec Ideal S1024x1024 .f32) (r d : Fin 1024) :
    k1_pay12 (F := Ideal) q kT vv mOld mOld' accOld (ix2 r d)
      = k1_pay9 (F := Ideal) q kT mOld mOld' (ix2 r (0 : Fin 1)) * accOld (ix2 r d)
        + ∑ c : Fin 1024, k1_pay10 (F := Ideal) q kT mOld (ix2 r c) * vv (ix2 c d) := by
  unfold k1_pay12
  rw [shapeCast_self]
  refine (addf_apply _ _ _).trans ?_
  refine congrArg₂ (· + ·) ?_ ?_
  · refine (mulf_apply _ _ _).trans ?_
    exact congrArg (· * accOld (ix2 r d)) (broadcastTo_a1_ab_apply _ _ r d)
  · exact matmul_zero_read _ vv r d

/-- The stored weighted sum is the computed one: a cast of a shape to itself. -/
theorem pay1_idx (a : FVec Ideal S1024x1024 .f32) (j : S1024x1024.Idx) : k1_pay1 (F := Ideal) a j = a j := by
  unfold k1_pay1
  rw [shapeCast_self]

/-- The stored running maximum is the computed one: a cast of a shape to itself. -/
theorem pay2_idx (a : FVec Ideal S1024x1 .f32) (j : S1024x1.Idx) : k1_pay2 (F := Ideal) a j = a j := by
  unfold k1_pay2
  rw [shapeCast_self]

/-- The result at `(r, d)`: the weighted sum over the row's sum of weights. -/
theorem pay3_idx (acc : Vec Ideal S1024x1024 .f32) (l : Vec Ideal S1024x1 .f32) (r d : Fin 1024) :
    k1_pay3 (F := Ideal) acc l (ix2 r d) = Ideal.div (acc (ix2 r d)) (l (ix2 r (0 : Fin 1))) := by
  unfold k1_pay3
  refine (divf_apply _ _ _).trans ?_
  exact congrArg (Ideal.div (acc (ix2 r d))) (broadcastTo_a1_ab_apply _ _ r d)

/-- The running maximum starts at `-∞`. -/
theorem pay4_idx (r : Fin 1024) : k1_pay4 (F := Ideal) (ix2 r (0 : Fin 1)) = (⊥ : EReal) := by
  unfold k1_pay4
  rw [shapeCast_self]
  exact negInf

/-- The running sum starts at `0`. -/
theorem pay5_idx (r : Fin 1024) : k1_pay5 (F := Ideal) (ix2 r (0 : Fin 1)) = (0 : EReal) := by
  unfold k1_pay5
  rw [shapeCast_self]
  exact Ideal.ofBits_zero_f32

/-- The running weighted sum starts at `0`. -/
theorem pay6_idx (r d : Fin 1024) : k1_pay6 (F := Ideal) (ix2 r d) = (0 : EReal) := by
  unfold k1_pay6
  rw [shapeCast_self]
  exact Ideal.ofBits_zero_f32

/-! ## The three running quantities after one block -/

/-- The running quantities at row `r` and column `d` before the block. -/
def stAt (mOld lOld : Vec Ideal S1024x1 .f32) (accOld : Vec Ideal S1024x1024 .f32) (r d : Fin 1024) :
    OnlineSoftmax.State :=
  ⟨mOld (ix2 r (0 : Fin 1)), lOld (ix2 r (0 : Fin 1)), accOld (ix2 r d)⟩

/-- The new running maximum is the block update's. -/
theorem pay8_idx (q kT vv : Vec Ideal S1024x1024 .bf16) (mOld lOld : Vec Ideal S1024x1 .f32)
    (accOld : Vec Ideal S1024x1024 .f32) (r d : Fin 1024) :
    k1_pay8 (F := Ideal) q kT mOld (ix2 r (0 : Fin 1))
      = (OnlineSoftmax.onlineStep (stAt mOld lOld accOld r d) (tileE q kT r) (tileV vv d)).m :=
  pay8_read q kT mOld r 0

/-- The new running sum is the block update's (the body loads the running maximum twice). -/
theorem pay11_idx (q kT vv : Vec Ideal S1024x1024 .bf16) (mOld lOld : Vec Ideal S1024x1 .f32)
    (accOld : Vec Ideal S1024x1024 .f32) (r d : Fin 1024) :
    k1_pay11 (F := Ideal) q kT mOld mOld lOld (ix2 r (0 : Fin 1))
      = (OnlineSoftmax.onlineStep (stAt mOld lOld accOld r d) (tileE q kT r) (tileV vv d)).l := by
  rw [pay11_read, pay9_read]
  simp only [pay10_read, pay8_read]
  rfl

/-- The new running weighted sum is the block update's. -/
theorem pay12_idx (q kT vv : Vec Ideal S1024x1024 .bf16) (mOld lOld : Vec Ideal S1024x1 .f32)
    (accOld : Vec Ideal S1024x1024 .f32) (r d : Fin 1024) :
    k1_pay12 (F := Ideal) q kT vv mOld mOld accOld (ix2 r d)
      = (OnlineSoftmax.onlineStep (stAt mOld lOld accOld r d) (tileE q kT r) (tileV vv d)).acc := by
  rw [pay12_read, pay9_read]
  simp only [pay10_read, pay8_read]
  rfl

end Cert.KernelIdeal.Pay

end
-- ==== Proof.KIValue1.lean ====
import proofs.«167690_j59450937312052_2_alg».proof.Proof.KIPieces
import proofs.«167690_j59450937312052_2_alg».proof.Proof.KIPay1
import Idealize.ShloMosaic.Lib.ValueIdx

/-! # The attention region on the extended reals: along a row block's eight column blocks the three scratch
buffers, read at a row (and a column of the values), run the tiled softmax recurrence, and the block written back on
the last column block is the recurrence's weighted sum divided by its sum of weights. -/

set_option maxRecDepth 16384

noncomputable section

namespace Cert.KernelIdeal.Value

open Cert.KernelIdeal Cert.KernelIdeal.Gen Cert.KernelIdeal.Hand Cert.KernelIdeal.Pay
open Idealize.ShloMosaic Idealize.ShloMosaic.TcCoe Idealize.ShloMosaic.ValueIdx Idealize.SL.Sem
open OnlineSoftmax

variable (V : (c : Dev nD) → (b : Ref sig .tc) → Buf (Elt Ideal) ((c : Thread nD τ).loc b))

/-- One point's update of the three buffers, read at row `r` (and column `d` of the values), is one tile's update of
    the three running quantities. -/
theorem step_state (q kT vv : Vec Ideal S1024x1024 .bf16) (mOld lOld : Vec Ideal S1024x1 .f32) (accOld : Vec Ideal S1024x1024 .f32) (r d : Fin 1024) :
    (⟨stepM q kT mOld (ix2 r 0), stepL q kT mOld lOld (ix2 r 0), stepAcc q kT vv mOld accOld (ix2 r d)⟩ : State)
      = onlineStep (stAt mOld lOld accOld r d) (tileE q kT r) (tileV vv d) := by
  apply State.ext
  · show k1_pay2 (k1_pay8 q kT mOld) (ix2 r 0) = _
    rw [pay2_idx]; exact pay8_idx q kT vv mOld lOld accOld r d
  · exact pay11_idx q kT vv mOld lOld accOld r d
  · show k1_pay1 (k1_pay12 q kT vv mOld mOld accOld) (ix2 r d) = _
    rw [pay1_idx]; exact pay12_idx q kT vv mOld lOld accOld r d

/-- The reset values read as the start of the recurrence: minus infinity and two zeros. -/
theorem stAt_reset (r d : Fin 1024) : stAt (k1_pay4 (F := Ideal)) (k1_pay5 (F := Ideal)) (k1_pay6 (F := Ideal)) r d = init :=
  State.ext (pay4_idx r) (pay5_idx r) (pay6_idx r d)

/-- The three scratch buffers after position `n`, read at row `r` and column `d`. -/
def stOf (c : Dev nD) (n : ℕ) (h : n < cfg1.N) (r d : Fin 1024) : State :=
  stAt (outsAt1 V c n h).2.1 (outsAt1 V c n h).2.2.1 (outsAt1 V c n h).2.2.2 r d

/-- The point's scores of row `r` against its column block, and column `d` of its value block. -/
def eAt (c : Dev nD) (t : Fin cfg1.N) (r : Fin 1024) : Fin 1024 → EReal := tileE (iblk1 V c 0 t) (iblk1 V c 1 t) r
def vAt (c : Dev nD) (t : Fin cfg1.N) (d : Fin 1024) : Fin 1024 → EReal := tileV (iblk1 V c 2 t) d

theorem stOf_first (c : Dev nD) (t : Fin cfg1.N) (h0 : t.val % 8 = 0) (r d : Fin 1024) :
    stOf V c t.val t.isLt r d = onlineStep init (eAt V c t r) (vAt V c t d) := by
  have h1 : ¬t.val % 8 = 7 := by omega
  unfold stOf
  rw [outsAt1_A V c t h0 h1, caseA_m, caseA_l, caseA_acc]
  have h := step_state (iblk1 V c 0 t) (iblk1 V c 1 t) (iblk1 V c 2 t) (k1_pay4 (F := Ideal)) (k1_pay5 (F := Ideal)) (k1_pay6 (F := Ideal)) r d
  rw [stAt_reset] at h
  exact h

theorem stOf_next (c : Dev nD) (t : Fin cfg1.N) (h0 : ¬t.val % 8 = 0) (r d : Fin 1024) :
    stOf V c t.val t.isLt r d
      = onlineStep (stOf V c (t.val - 1) (Nat.lt_of_le_of_lt (Nat.sub_le _ _) t.isLt) r d) (eAt V c t r) (vAt V c t d) := by
  unfold stOf
  by_cases h1 : t.val % 8 = 7
  · rw [outsAt1_C V c t h0 h1, caseC_m, caseC_l, caseC_acc]
    exact step_state _ _ _ _ _ _ r d
  · rw [outsAt1_B V c t h0 h1, caseB_m, caseB_l, caseB_acc]
    exact step_state _ _ _ _ _ _ r d

/-- Position `8 * qi + k` of the grid: row block `qi`, column block `k`. -/
def pt (qi : Fin 8) (k : Fin 8) : Fin cfg1.N := ⟨8 * qi.val + k.val, by rw [show cfg1.N = 64 from N_1]; omega⟩

/-- Row `r` of row block `qi`: its scores against each column block, and column `d` of each value block. -/
def eRow (c : Dev nD) (qi : Fin 8) (r : Fin 1024) : Fin 8 → Fin 1024 → EReal := fun k => eAt V c (pt qi k) r
def vCol (c : Dev nD) (qi : Fin 8) (d : Fin 1024) : Fin 8 → Fin 1024 → EReal := fun k => vAt V c (pt qi k) d

/-- ALONG THE ROW BLOCK: after column block `k` the three buffers hold the recurrence run over the first `k + 1` tiles. -/
theorem stOf_run (c : Dev nD) (qi : Fin 8) (r d : Fin 1024) :
    ∀ (k : ℕ) (hk : k < 8), stOf V c (pt qi ⟨k, hk⟩).val (pt qi ⟨k, hk⟩).isLt r d = onlineRun (eRow V c qi r) (vCol V c qi d) (k + 1)
  | 0, hk => by
    rw [stOf_first V c (pt qi ⟨0, hk⟩) (by show (8 * qi.val + 0) % 8 = 0; omega), onlineRun_succ _ _ hk, onlineRun_zero]
    rfl
  | k + 1, hk => by
    rw [stOf_next V c (pt qi ⟨k + 1, hk⟩) (by show ¬(8 * qi.val + (k + 1)) % 8 = 0; omega), onlineRun_succ _ _ hk]
    have ih := stOf_run c qi r d k (Nat.lt_of_succ_lt hk)
    have e : (pt qi ⟨k + 1, hk⟩).val - 1 = (pt qi ⟨k, Nat.lt_of_succ_lt hk⟩).val := by show 8 * qi.val + (k + 1) - 1 = 8 * qi.val + k; omega
    have : stOf V c ((pt qi ⟨k + 1, hk⟩).val - 1) (Nat.lt_of_le_of_lt (Nat.sub_le _ _) (pt qi ⟨k + 1, hk⟩).isLt) r d
        = stOf V c (pt qi ⟨k, Nat.lt_of_succ_lt hk⟩).val (pt qi ⟨k, Nat.lt_of_succ_lt hk⟩).isLt r d := by
      congr 1
    rw [this, ih]
    rfl

/-- THE BLOCK WRITTEN BACK on the last column block: at row `r`, column `d`, the recurrence's weighted sum over all eight
    tiles divided by its sum of weights. -/
theorem out_last (c : Dev nD) (qi : Fin 8) (r d : Fin 1024) :
    (outsAt1 V c (pt qi 7).val (pt qi 7).isLt).1 (ix2 r d)
      = Ideal.div (onlineRun (eRow V c qi r) (vCol V c qi d) 8).acc (onlineRun (eRow V c qi r) (vCol V c qi d) 8).l := by
  have h0 : ¬(pt qi 7).val % 8 = 0 := by show ¬(8 * qi.val + 7) % 8 = 0; omega
  have h1 : (pt qi 7).val % 8 = 7 := by show (8 * qi.val + 7) % 8 = 7; omega
  have hs : stOf V c (pt qi 7).val (pt qi 7).isLt r d = onlineRun (eRow V c qi r) (vCol V c qi d) 8 :=
    stOf_run V c qi r d 7 (by omega)
  unfold stOf at hs
  rw [outsAt1_C V c (pt qi 7) h0 h1] at hs
  rw [outsAt1_C V c (pt qi 7) h0 h1]
  rw [caseC_out, pay3_idx]
  rw [caseC_m, caseC_l, caseC_acc] at hs
  have hl := congrArg State.l hs
  have ha := congrArg State.acc hs
  exact (congrArg₂ Ideal.div ha hl)

end Cert.KernelIdeal.Value

end
-- ==== Proof.Reference.lean ====
import proofs.«167690_j59450937312052_2_alg».proof.Proof.Gen.ReferenceIdeal.Run
import proofs.«167690_j59450937312052_2_alg».proof.Proof.Gen.ReferenceIdeal.Read
import Idealize.ShloMosaic.Lib.ValueIdx
import Idealize.ShloMosaic.Lib.Pipeline.Value
import Idealize.ShloMosaic.PureOps.Ideal.Laws

/-! The reference program's result read as one function of its seven argument arrays.

Over the extended reals the reference is softmax attention of three linear projections of its first argument
`x : [8192, 1024]`. With `Q = x Wqᵀ + bq`, `K = x Wkᵀ + bk`, `V = x Wvᵀ + bv` (each `[8192, 1024]`) and the scale
`s = 1 / sqrt 64`,

  `e i j = (∑ d, Q i d * K j d) * s`,   `M i = max_j e i j` (from `-∞`),   `p i j = exp (e i j - M i)`,
  `L i = ∑ j, p i j`,   `a i j = p i j / L i`,   `o i d = ∑ j, a i j * V j d`,

and the result is `o` with a unit axis appended. Each stage is a definition over coordinates, so that a stage can be
rewritten by itself; `res_eq` says the program's result term is `spec` of the argument arrays. The proof reads the
program one operation at a time at an index: a transpose, a broadcast and the final reshape move the index, a
contraction is the sum over its one contracted coordinate, the sum over a row starts from the literal `0`, and the
maximum over a row is the fold of `max` from the literal `-∞` over the row's coordinates. No law of arithmetic is
used beyond `0 + a = a` and `max ⊥ a = a`, so nothing here needs the entries to be finite. -/

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open scoped BigOperators

/-! ## The specification, stage by stage -/

/-- A linear projection with bias: `(x Wᵀ + b) i j = (∑ k, x i k * W j k) + b j`. -/
def proj (x : FVec Ideal S8192x1024 .f32) (W : FVec Ideal S1024x1024 .f32) (b : FVec Ideal S1024 .f32) :
    Fin 8192 → Fin 1024 → EReal :=
  fun i j => (∑ k : Fin 1024, x (ix2 i k) * W (ix2 j k)) + b (ix1 j)

/-- The scale `1 / sqrt 64`, as the quotient of the two literals. -/
def scale : EReal :=
  Ideal.div (Ideal.ofBits .f32 0x3F800000#32) (Ideal.sqrt (Ideal.ofBits .f32 0x42800000#32))

/-- Scaled scores: `e i j = (∑ d, Q i d * K j d) * scale`. -/
def energy (Q K : Fin 8192 → Fin 1024 → EReal) : Fin 8192 → Fin 8192 → EReal :=
  fun i j => (∑ d : Fin 1024, Q i d * K j d) * scale

/-- The maximum of a row of scores, from `⊥`. -/
def rowMax (e : Fin 8192 → Fin 8192 → EReal) : Fin 8192 → EReal :=
  fun i => (Finset.univ : Finset (Fin 8192)).fold max ⊥ (fun j => e i j)

/-- Unnormalised weights: `p i j = exp (e i j - max_j e i j)`. -/
def weight (e : Fin 8192 → Fin 8192 → EReal) : Fin 8192 → Fin 8192 → EReal :=
  fun i j => Ideal.exp (e i j - rowMax e i)

/-- The sum of a row of weights. -/
def rowSum (p : Fin 8192 → Fin 8192 → EReal) : Fin 8192 → EReal :=
  fun i => ∑ j : Fin 8192, p i j

/-- Normalised weights: `a i j = p i j / ∑ j, p i j`. -/
def attn (p : Fin 8192 → Fin 8192 → EReal) : Fin 8192 → Fin 8192 → EReal :=
  fun i j => Ideal.div (p i j) (rowSum p i)

/-- The weighted sum of the value rows: `o i d = ∑ j, a i j * V j d`. -/
def out (a : Fin 8192 → Fin 8192 → EReal) (V : Fin 8192 → Fin 1024 → EReal) : Fin 8192 → Fin 1024 → EReal :=
  fun i d => ∑ j : Fin 8192, a i j * V j d

/-- Softmax attention of the three projections of `x`, as an array of shape [8192, 1024, 1]. -/
def spec (x : FVec Ideal S8192x1024 .f32) (Wq : FVec Ideal S1024x1024 .f32) (bq : FVec Ideal S1024 .f32)
    (Wk : FVec Ideal S1024x1024 .f32) (bk : FVec Ideal S1024 .f32)
    (Wv : FVec Ideal S1024x1024 .f32) (bv : FVec Ideal S1024 .f32) : FVec Ideal S8192x1024x1 .f32 :=
  fun idx => out (attn (weight (energy (proj x Wq bq) (proj x Wk bk)))) (proj x Wv bv) (idx 0) (idx 1)

/-! ## Readings of the specification -/

/-- The specification at the index `(i, d, 0)`. -/
theorem spec_ix3 (x : FVec Ideal S8192x1024 .f32) (Wq : FVec Ideal S1024x1024 .f32) (bq : FVec Ideal S1024 .f32)
    (Wk : FVec Ideal S1024x1024 .f32) (bk : FVec Ideal S1024 .f32)
    (Wv : FVec Ideal S1024x1024 .f32) (bv : FVec Ideal S1024 .f32) (i : Fin 8192) (d : Fin 1024) (z : Fin 1) :
    spec x Wq bq Wk bk Wv bv (ix3 i d z)
      = out (attn (weight (energy (proj x Wq bq) (proj x Wk bk)))) (proj x Wv bv) i d := rfl

/-- The scale is the scalar program `1 / sqrt 64` of the two literals, read at its one index. -/
theorem scale_eq_host :
    scale = (Host.divf (F := Ideal) (constant S_ .f32 0x3F800000#32) (Host.sqrt (constant S_ .f32 0x42800000#32))) ix0 := rfl

/-- A row's maximum from `⊥` is the supremum of the row. -/
theorem rowMax_eq_sup (e : Fin 8192 → Fin 8192 → EReal) (i : Fin 8192) :
    rowMax e i = (Finset.univ : Finset (Fin 8192)).sup (fun j => e i j) := rfl

/-! ## The reference's stages read at an index -/

/-- The query projection at `(i, j)`: the contraction runs over the SECOND coordinate of the weight, since the
    program contracts `x` with the transposed weight; the bias is broadcast along the rows. -/
theorem proj_read (x0 : FVec Ideal S8192x1024 .f32) (x1 : FVec Ideal S1024x1024 .f32) (x2 : FVec Ideal S1024 .f32)
    (i : Fin 8192) (j : Fin 1024) :
    val_main_v4 (F := Ideal) x0 x1 x2 (ix2 i j) = proj x0 x1 x2 i j := by
  have el : ∀ k : Fin 1024, lidx_main_v1 (ix2 i j) k = ix2 i k := fun k =>
    funext fun a => by match a with | ⟨0, _⟩ => rfl | ⟨1, _⟩ => rfl
  have er : ∀ k : Fin 1024, idx_main_v0 (ridx_main_v1 (ix2 i j) k) = ix2 j k := fun k =>
    funext fun a => by match a with | ⟨0, _⟩ => rfl | ⟨1, _⟩ => rfl
  have eb : idx_main_v2 (idx_main_v3 (ix2 i j)) = ix1 j :=
    funext fun a => by match a with | ⟨0, _⟩ => rfl
  rw [val_main_v4_apply, val_main_v1_apply, val_main_v3_apply, val_main_v2_apply]
  simp only [val_main_v0_apply, el, er, eb, Ideal.addf_def]
  rfl

/-- The key projection is the same program as the query projection, at the key's weight and bias. -/
theorem v9_eq_v4 (x0 : FVec Ideal S8192x1024 .f32) (x3 : FVec Ideal S1024x1024 .f32) (x4 : FVec Ideal S1024 .f32) :
    val_main_v9 (F := Ideal) x0 x3 x4 = val_main_v4 (F := Ideal) x0 x3 x4 := rfl

/-- The value projection is the same program as the query projection, at the value's weight and bias. -/
theorem v14_eq_v4 (x0 : FVec Ideal S8192x1024 .f32) (x5 : FVec Ideal S1024x1024 .f32) (x6 : FVec Ideal S1024 .f32) :
    val_main_v14 (F := Ideal) x0 x5 x6 = val_main_v4 (F := Ideal) x0 x5 x6 := rfl

/-- The broadcast scalar is the scale everywhere. -/
theorem scale_read (i : S8192x8192.Idx) : val_main_v19 (F := Ideal) i = scale := by
  rw [val_main_v19_apply]; rfl

/-- The scaled scores at `(i, j)`: the contraction of row `i` of the queries with row `j` of the keys (the keys
    enter transposed), times the scale. -/
theorem energy_read (x0 : FVec Ideal S8192x1024 .f32) (x1 : FVec Ideal S1024x1024 .f32) (x2 : FVec Ideal S1024 .f32)
    (x3 : FVec Ideal S1024x1024 .f32) (x4 : FVec Ideal S1024 .f32) (i j : Fin 8192) :
    val_main_v20 (F := Ideal) x0 x1 x2 x3 x4 (ix2 i j) = energy (proj x0 x1 x2) (proj x0 x3 x4) i j := by
  have el : ∀ k : Fin 1024, lidx_main_v18 (ix2 i j) k = ix2 i k := fun k =>
    funext fun a => by match a with | ⟨0, _⟩ => rfl | ⟨1, _⟩ => rfl
  have er : ∀ k : Fin 1024, idx_main_v17 (ridx_main_v18 (ix2 i j) k) = ix2 j k := fun k =>
    funext fun a => by match a with | ⟨0, _⟩ => rfl | ⟨1, _⟩ => rfl
  rw [val_main_v20_apply, val_main_v18_apply, scale_read]
  simp only [val_main_v17_apply, el, er, v9_eq_v4, proj_read, Ideal.mulf_def]
  rfl

/-- The word `0xFF800000` is `-∞`. -/
theorem negInf : Ideal.ofBits .f32 0xFF800000#32 = (⊥ : EReal) := by simp [Ideal.ofBits, Ideal.ieee]

/-- The row maximum at `i`: the program folds `max` from `-∞` over the row's coordinates and then takes the maximum
    with `-∞` once more, which changes nothing. -/
theorem rowMax_read (x0 : FVec Ideal S8192x1024 .f32) (x1 : FVec Ideal S1024x1024 .f32) (x2 : FVec Ideal S1024 .f32)
    (x3 : FVec Ideal S1024x1024 .f32) (x4 : FVec Ideal S1024 .f32) (i : Fin 8192) :
    val_main_v23 (F := Ideal) x0 x1 x2 x3 x4 (ix1 i) = rowMax (energy (proj x0 x1 x2) (proj x0 x3 x4)) i := by
  have hR : S8192x8192.Reduces [1] S8192 := by decide
  have hl : ∀ k : Fin 8192, hR.lift (ix1 i) k = ix2 i k := fun k =>
    funext fun a => Fin.ext (by match a with | ⟨0, _⟩ => rfl | ⟨1, _⟩ => rfl)
  have hf : (val_main_v20 (F := Ideal) x0 x1 x2 x3 x4 ∘ hR.lift (ix1 i))
      = fun j : Fin 8192 => energy (proj x0 x1 x2) (proj x0 x3 x4) i j :=
    funext fun (k : Fin 8192) =>
      (congrArg (val_main_v20 (F := Ideal) x0 x1 x2 x3 x4) (hl k)).trans (energy_read x0 x1 x2 x3 x4 i k)
  rw [val_main_v23_apply, val_main_v22_apply]
  unfold val_main_v21
  rw [Host.reduce_eq_fold_single FloatOps.maximumf _ _ reducesTo_S8192x8192_S8192_d1 hR h_S_, hf]
  show max (Ideal.ofBits .f32 0xFF800000#32)
    (Finset.fold max (Ideal.ofBits .f32 0xFF800000#32) _ (Finset.univ : Finset (Fin 8192))) = _
  rw [negInf, max_bot_left]
  rfl

/-- The unnormalised weight at `(i, j)`: the row maximum is broadcast along the row before the subtraction. -/
theorem weight_read (x0 : FVec Ideal S8192x1024 .f32) (x1 : FVec Ideal S1024x1024 .f32) (x2 : FVec Ideal S1024 .f32)
    (x3 : FVec Ideal S1024x1024 .f32) (x4 : FVec Ideal S1024 .f32) (i j : Fin 8192) :
    val_main_v27 (F := Ideal) x0 x1 x2 x3 x4 (ix2 i j) = weight (energy (proj x0 x1 x2) (proj x0 x3 x4)) i j := by
  have eb : idx_main_v24 (idx_main_v25 (ix2 i j)) = ix1 i :=
    funext fun a => by match a with | ⟨0, _⟩ => rfl
  rw [val_main_v27_apply, val_main_v26_apply, val_main_v25_apply, val_main_v24_apply, eb, rowMax_read, energy_read]
  rfl

/-- The row sum at `i`: the program's sum starts from the literal `0`. -/
theorem rowSum_read (x0 : FVec Ideal S8192x1024 .f32) (x1 : FVec Ideal S1024x1024 .f32) (x2 : FVec Ideal S1024 .f32)
    (x3 : FVec Ideal S1024x1024 .f32) (x4 : FVec Ideal S1024 .f32) (i : Fin 8192) :
    val_main_v28 (F := Ideal) x0 x1 x2 x3 x4 (ix1 i) = rowSum (weight (energy (proj x0 x1 x2) (proj x0 x3 x4))) i := by
  have el : ∀ k : Fin 8192, idx_main_v28 (ix1 i) k = ix2 i k := fun k =>
    funext fun a => by match a with | ⟨0, _⟩ => rfl | ⟨1, _⟩ => rfl
  rw [val_main_v28_apply, val_main_cst_3_apply]
  simp only [el, weight_read, Ideal.ofBits_def, Ideal.ofBits_zero_f32, zero_add]
  rfl

/-- The normalised weight at `(i, j)`: the row sum is broadcast along the row before the division. -/
theorem attn_read (x0 : FVec Ideal S8192x1024 .f32) (x1 : FVec Ideal S1024x1024 .f32) (x2 : FVec Ideal S1024 .f32)
    (x3 : FVec Ideal S1024x1024 .f32) (x4 : FVec Ideal S1024 .f32) (i j : Fin 8192) :
    val_main_v31 (F := Ideal) x0 x1 x2 x3 x4 (ix2 i j) = attn (weight (energy (proj x0 x1 x2) (proj x0 x3 x4))) i j := by
  have eb : idx_main_v29 (idx_main_v30 (ix2 i j)) = ix1 i :=
    funext fun a => by match a with | ⟨0, _⟩ => rfl
  rw [val_main_v31_apply, val_main_v30_apply, val_main_v29_apply, eb, rowSum_read, weight_read]
  rfl

/-- The weighted sum of the value rows at `(i, d)`: the contraction runs over the rows of the values. -/
theorem out_read (x0 : FVec Ideal S8192x1024 .f32) (x1 : FVec Ideal S1024x1024 .f32) (x2 : FVec Ideal S1024 .f32)
    (x3 : FVec Ideal S1024x1024 .f32) (x4 : FVec Ideal S1024 .f32)
    (x5 : FVec Ideal S1024x1024 .f32) (x6 : FVec Ideal S1024 .f32) (i : Fin 8192) (d : Fin 1024) :
    val_main_v32 (F := Ideal) x0 x1 x2 x3 x4 x5 x6 (ix2 i d)
      = out (attn (weight (energy (proj x0 x1 x2) (proj x0 x3 x4)))) (proj x0 x5 x6) i d := by
  have el : ∀ k : Fin 8192, lidx_main_v32 (ix2 i d) k = ix2 i k := fun k =>
    funext fun a => by match a with | ⟨0, _⟩ => rfl | ⟨1, _⟩ => rfl
  have er : ∀ k : Fin 8192, ridx_main_v32 (ix2 i d) k = ix2 k d := fun k =>
    funext fun a => by match a with | ⟨0, _⟩ => rfl | ⟨1, _⟩ => rfl
  rw [val_main_v32_apply]
  simp only [el, er, attn_read, v14_eq_v4, proj_read]
  rfl

/-- The reference's last stage is the specification. -/
theorem val_eq_spec (x0 : FVec Ideal S8192x1024 .f32) (x1 : FVec Ideal S1024x1024 .f32) (x2 : FVec Ideal S1024 .f32)
    (x3 : FVec Ideal S1024x1024 .f32) (x4 : FVec Ideal S1024 .f32)
    (x5 : FVec Ideal S1024x1024 .f32) (x6 : FVec Ideal S1024 .f32) :
    val_main_v33 (F := Ideal) x0 x1 x2 x3 x4 x5 x6 = spec x0 x1 x2 x3 x4 x5 x6 := by
  funext (idx : S8192x1024x1.Idx)
  have e : idx_main_v33 idx = ix2 (n0 := 8192) (n1 := 1024) (idx 0) (idx 1) :=
    funext fun a => Fin.ext (by
      have h0 : (idx 0).val < 8192 := (idx 0).isLt
      have h1 : (idx 1).val < 1024 := (idx 1).isLt
      have h2 : (idx 2).val < 1 := (idx 2).isLt
      match a with
      | ⟨0, _⟩ => show (((idx 0).val * 1024 + (idx 1).val) * 1 + (idx 2).val) / 1024 = (idx 0).val; omega
      | ⟨1, _⟩ => show (((idx 0).val * 1024 + (idx 1).val) * 1 + (idx 2).val) % 1024 = (idx 1).val; omega)
  rw [val_main_v33_apply, e]
  exact out_read x0 x1 x2 x3 x4 x5 x6 (idx 0) (idx 1)

/-- The reference program's result is softmax attention of the three projections of its first argument. -/
theorem res_eq (m : (ℓ : Loc nD τ sig) → Buf (Elt Ideal) ℓ) (c : Dev nD) :
    Cert.ReferenceIdeal.Value.res_out0 (F := Ideal) m c
      = spec (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (val_main_v33_eq (F := Ideal) m c).trans (val_eq_spec _ _ _ _ _ _ _)

end Cert.ReferenceIdeal.RefValue

end
-- ==== Proof.LibAttentionScale.lean ====
import Idealize.ShloMosaic.PureOps.Ideal
import Idealize.ShloMosaic.PureOps.Ideal.Laws

/-!
# The attention scale 1 / √64 = 1/8, and folding a scale into an affine map, on the extended reals

* The square root of 64 is 8, so on the extended reals the quotient of the float word for 1.0 by the square root
  of the float word for 64.0 is the value of the float word for 0.125 (inv_sqrt_64, and inv_sqrt_64_floatOps
  in the float operations of the extended-real instance). The words read once each: ofBits_one, ofBits_64,
  ofBits_eighth, and the word of minus infinity, ofBits_neg_inf.
* For finite reals a common factor folds out of an affine map:
  Σ_k x k · (w k · s) + b · s = (Σ_k x k · w k + b) · s, as extended reals of real arguments (fold_scale), each side
  being the real number it spells (fold_scale_left, fold_scale_right); and out of one factor of a dot product:
  Σ_d (q d · s) · k d = (Σ_d q d · k d) · s (dot_scale, dot_scale_left, dot_scale_right).
* The coercion of a finite real sum is the sum of the coercions (coe_sum), and a quotient of reals with a nonzero
  denominator is the real quotient (div_coe_coe).
-/

noncomputable section

namespace AttentionScale

open Idealize.ShloMosaic
open scoped BigOperators

/-! ### The float words -/

/-- The word 0x3F800000 denotes 1. -/
theorem ofBits_one : Ideal.ofBits .f32 0x3F800000#32 = ((1 : ℝ) : EReal) := by
  simp [Ideal.ofBits, Ideal.ieee, -EReal.coe_mul]; norm_num

/-- The word 0x42800000 denotes 64. -/
theorem ofBits_64 : Ideal.ofBits .f32 0x42800000#32 = ((64 : ℝ) : EReal) := by
  simp [Ideal.ofBits, Ideal.ieee, -EReal.coe_mul]; norm_num

/-- The word 0x3E000000 denotes 1/8. -/
theorem ofBits_eighth : Ideal.ofBits .f32 0x3E000000#32 = ((1 / 8 : ℝ) : EReal) := by
  simp [Ideal.ofBits, Ideal.ieee, -EReal.coe_mul]; norm_num

/-- The word 0xFF800000 denotes minus infinity. -/
theorem ofBits_neg_inf : Ideal.ofBits .f32 0xFF800000#32 = ⊥ := by
  simp [Ideal.ofBits, Ideal.ieee]

/-! ### 1 / √64 = 1/8 -/

/-- The square root of 64 is 8. -/
theorem sqrt_64 : Real.sqrt 64 = 8 := by
  rw [show (64 : ℝ) = 8 ^ 2 by norm_num]
  exact Real.sqrt_sq (by norm_num)

/-- A quotient of reals with a nonzero denominator is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- On the extended reals the square root of 64 is 8. -/
theorem ideal_sqrt_64 : Ideal.sqrt ((64 : ℝ) : EReal) = ((8 : ℝ) : EReal) := by
  rw [Ideal.sqrt_coe, if_neg (by norm_num), sqrt_64]

/-- 1.0 / √64.0 is 0.125, between the float words. -/
theorem inv_sqrt_64 :
    Ideal.div (Ideal.ofBits .f32 0x3F800000#32) (Ideal.sqrt (Ideal.ofBits .f32 0x42800000#32))
      = Ideal.ofBits .f32 0x3E000000#32 := by
  rw [ofBits_one, ofBits_64, ofBits_eighth, ideal_sqrt_64, div_coe_coe _ (by norm_num : (8 : ℝ) ≠ 0)]

/-- The same in the float operations of the extended-real instance: the host's quotient and square root. -/
theorem inv_sqrt_64_floatOps :
    FloatOps.hostDivf (F := Ideal) (φ := .f32) (FloatOps.ofBits (F := Ideal) .f32 0x3F800000#32)
        (FloatOps.hostUnary (F := Ideal) (φ := .f32) .sqrt (FloatOps.ofBits (F := Ideal) .f32 0x42800000#32))
      = FloatOps.ofBits (F := Ideal) .f32 0x3E000000#32 :=
  inv_sqrt_64

/-! ### Folding a scale -/

/-- The coercion of a finite real sum is the sum of the coercions. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The affine map with the scale folded into its weights and bias is the real number it spells. -/
theorem fold_scale_left {ι : Type} (s : Finset ι) (x w : ι → ℝ) (b sc : ℝ) :
    (∑ k ∈ s, (x k : EReal) * ((w k : EReal) * (sc : EReal))) + (b : EReal) * (sc : EReal)
      = (((∑ k ∈ s, x k * (w k * sc)) + b * sc : ℝ) : EReal) := by
  rw [EReal.coe_add, EReal.coe_mul, coe_sum]
  exact congrArg (· + _) (Finset.sum_congr rfl fun k _ => by rw [EReal.coe_mul, EReal.coe_mul])

/-- The affine map scaled afterwards is the real number it spells. -/
theorem fold_scale_right {ι : Type} (s : Finset ι) (x w : ι → ℝ) (b sc : ℝ) :
    ((∑ k ∈ s, (x k : EReal) * (w k : EReal)) + (b : EReal)) * (sc : EReal)
      = ((((∑ k ∈ s, x k * w k) + b) * sc : ℝ) : EReal) := by
  rw [EReal.coe_mul, EReal.coe_add, coe_sum]
  exact congrArg (fun z => (z + _) * _) (Finset.sum_congr rfl fun k _ => by rw [EReal.coe_mul])

/-- On the reals: Σ_k x k · (w k · s) + b · s = (Σ_k x k · w k + b) · s. -/
theorem fold_scale_real {ι : Type} (s : Finset ι) (x w : ι → ℝ) (b sc : ℝ) :
    (∑ k ∈ s, x k * (w k * sc)) + b * sc = ((∑ k ∈ s, x k * w k) + b) * sc := by
  rw [add_mul, Finset.sum_mul]
  exact congrArg (· + _) (Finset.sum_congr rfl fun k _ => (mul_assoc _ _ _).symm)

/-- Folding the scale into the weights and the bias of an affine map of finite reals, or scaling its result,
    give one extended real. -/
theorem fold_scale {ι : Type} (s : Finset ι) (x w : ι → ℝ) (b sc : ℝ) :
    (∑ k ∈ s, (x k : EReal) * ((w k : EReal) * (sc : EReal))) + (b : EReal) * (sc : EReal)
      = ((∑ k ∈ s, (x k : EReal) * (w k : EReal)) + (b : EReal)) * (sc : EReal) := by
  rw [fold_scale_left, fold_scale_right, fold_scale_real]

/-- A dot product with one factor scaled is the real number it spells. -/
theorem dot_scale_left {ι : Type} (s : Finset ι) (q k : ι → ℝ) (sc : ℝ) :
    (∑ d ∈ s, ((q d : EReal) * (sc : EReal)) * (k d : EReal)) = ((∑ d ∈ s, (q d * sc) * k d : ℝ) : EReal) := by
  rw [coe_sum]
  exact Finset.sum_congr rfl fun d _ => by rw [EReal.coe_mul, EReal.coe_mul]

/-- A dot product scaled afterwards is the real number it spells. -/
theorem dot_scale_right {ι : Type} (s : Finset ι) (q k : ι → ℝ) (sc : ℝ) :
    (∑ d ∈ s, (q d : EReal) * (k d : EReal)) * (sc : EReal) = (((∑ d ∈ s, q d * k d) * sc : ℝ) : EReal) := by
  rw [EReal.coe_mul, coe_sum]
  exact congrArg (· * _) (Finset.sum_congr rfl fun d _ => by rw [EReal.coe_mul])

/-- Scaling one factor of a dot product of finite reals, or scaling its result, give one extended real. -/
theorem dot_scale {ι : Type} (s : Finset ι) (q k : ι → ℝ) (sc : ℝ) :
    (∑ d ∈ s, ((q d : EReal) * (sc : EReal)) * (k d : EReal)) = (∑ d ∈ s, (q d : EReal) * (k d : EReal)) * (sc : EReal) := by
  rw [dot_scale_left, dot_scale_right, Finset.sum_mul]
  exact congrArg _ (Finset.sum_congr rfl fun d _ => mul_right_comm _ _ _)

end AttentionScale

end
-- ==== Proof.Bridge.lean ====
import proofs.«167690_j59450937312052_2_alg».proof.Proof.Reference
import proofs.«167690_j59450937312052_2_alg».proof.Proof.LibOnlineSoftmax
import proofs.«167690_j59450937312052_2_alg».proof.Proof.LibAttentionScale

/-! The tiled computation of one output entry is the reference's softmax attention entry.

For finite inputs every projection entry is a real number. The tiled side scales the query projection's weights and
bias by the literal 1/8 BEFORE the matrix product, the reference scales the scores by 1 / sqrt 64 AFTER it; both are
the real 1/8, and a common factor folds out of an affine map and out of one factor of a dot product, so the two
rows of scores are the same real numbers. Row i of the 8192 scores, cut into 8 tiles of 1024 (position
1024 · k + c is position c of tile k), run through the tiled recurrence from (⊥, 0, 0), gives acc / l equal to the
one-pass softmax-weighted sum, which is the reference's out (attn (weight energy)) V at (i, d) once max ⊥ a = a and
0 + a = a are used. -/

noncomputable section

namespace Cert.Bridge

open Cert.ReferenceIdeal Cert.ReferenceIdeal.RefValue
open Idealize.ShloMosaic Idealize.ShloMosaic.ValueIdx
open scoped BigOperators

/-- The literal 0.125 the tiled side multiplies the query weights and bias by. -/
def c8 : EReal := Ideal.ofBits .f32 0x3E000000#32

/-- Position c of tile k among the 8192 positions. -/
def tile (k : Fin 8) (cc : Fin 1024) : Fin 8192 := ⟨1024 * k.val + cc.val, by omega⟩

/-- The query projection with the scale folded into its weights and bias before the matrix product. -/
def kQ (x : FVec Ideal S8192x1024 .f32) (Wq : FVec Ideal S1024x1024 .f32) (bq : FVec Ideal S1024 .f32) :
    Fin 8192 → Fin 1024 → EReal :=
  fun i dd => (∑ k : Fin 1024, x (ix2 i k) * (Wq (ix2 dd k) * c8)) + bq (ix1 dd) * c8

/-- The 8 tiles of 1024 positions are the 8192 positions: (k, c) ↦ 1024 · k + c, with inverse (j / 1024, j % 1024). -/
def tileEquiv : Fin 8 × Fin 1024 ≃ Fin 8192 where
  toFun p := tile p.1 p.2
  invFun j := (⟨j.val / 1024, by omega⟩, ⟨j.val % 1024, by omega⟩)
  left_inv p := by
    rcases p with ⟨k, cc⟩
    refine Prod.ext (Fin.ext ?_) (Fin.ext ?_)
    · show (1024 * k.val + cc.val) / 1024 = k.val
      omega
    · show (1024 * k.val + cc.val) % 1024 = cc.val
      omega
  right_inv j := Fin.ext (by
    show 1024 * (j.val / 1024) + j.val % 1024 = j.val
    omega)

theorem tileEquiv_apply (k : Fin 8) (cc : Fin 1024) : tileEquiv (k, cc) = tile k cc := rfl

/-! ### The constants -/

theorem c8_eq : c8 = ((1 / 8 : ℝ) : EReal) := AttentionScale.ofBits_eighth

theorem scale_eq : RefValue.scale = ((1 / 8 : ℝ) : EReal) := by
  unfold RefValue.scale
  rw [AttentionScale.inv_sqrt_64, AttentionScale.ofBits_eighth]

/-! ### Projections of finite inputs are real -/

/-- The real projection of real arrays. -/
def projR (xr : S8192x1024.Idx → ℝ) (Wr : S1024x1024.Idx → ℝ) (br : S1024.Idx → ℝ) : Fin 8192 → Fin 1024 → ℝ :=
  fun i j => (∑ k : Fin 1024, xr (ix2 i k) * Wr (ix2 j k)) + br (ix1 j)

/-- A projection of arrays of reals is the real projection. -/
theorem proj_real (x : FVec Ideal S8192x1024 .f32) (W : FVec Ideal S1024x1024 .f32) (b : FVec Ideal S1024 .f32)
    (xr : S8192x1024.Idx → ℝ) (Wr : S1024x1024.Idx → ℝ) (br : S1024.Idx → ℝ)
    (hx : ∀ i, x i = (xr i : EReal)) (hW : ∀ i, W i = (Wr i : EReal)) (hb : ∀ i, b i = (br i : EReal))
    (i : Fin 8192) (j : Fin 1024) :
    RefValue.proj x W b i j = ((projR xr Wr br i j : ℝ) : EReal) := by
  unfold RefValue.proj projR
  rw [EReal.coe_add, AttentionScale.coe_sum, hb]
  exact congrArg (· + _) (Finset.sum_congr rfl fun k _ => by rw [hx, hW, EReal.coe_mul])

/-- The query projection with the folded scale is the real projection times 1/8. -/
theorem kQ_real (x : FVec Ideal S8192x1024 .f32) (Wq : FVec Ideal S1024x1024 .f32) (bq : FVec Ideal S1024 .f32)
    (xr : S8192x1024.Idx → ℝ) (Wr : S1024x1024.Idx → ℝ) (br : S1024.Idx → ℝ)
    (hx : ∀ i, x i = (xr i : EReal)) (hW : ∀ i, Wq i = (Wr i : EReal)) (hb : ∀ i, bq i = (br i : EReal))
    (i : Fin 8192) (dd : Fin 1024) :
    kQ x Wq bq i dd = ((projR xr Wr br i dd * (1 / 8) : ℝ) : EReal) := by
  unfold kQ projR
  rw [c8_eq, hb]
  have h := AttentionScale.fold_scale_left (Finset.univ : Finset (Fin 1024)) (fun k => xr (ix2 i k))
    (fun k => Wr (ix2 dd k)) (br (ix1 dd)) (1 / 8)
  rw [AttentionScale.fold_scale_real] at h
  rw [← h]
  exact congrArg (· + _) (Finset.sum_congr rfl fun k _ => by rw [hx, hW])

/-! ### The two rows of scores are the same reals -/

/-- The real scores: row i of Q Kᵀ / 8. -/
def energyR (Qr Kr : Fin 8192 → Fin 1024 → ℝ) : Fin 8192 → Fin 8192 → ℝ :=
  fun i j => (∑ d : Fin 1024, Qr i d * Kr j d) * (1 / 8)

/-- The reference's scores of real projections are the real scores. -/
theorem energy_real (Q K : Fin 8192 → Fin 1024 → EReal) (Qr Kr : Fin 8192 → Fin 1024 → ℝ)
    (hQ : ∀ i d, Q i d = (Qr i d : EReal)) (hK : ∀ i d, K i d = (Kr i d : EReal)) (i j : Fin 8192) :
    RefValue.energy Q K i j = ((energyR Qr Kr i j : ℝ) : EReal) := by
  unfold RefValue.energy energyR
  rw [scale_eq, ← AttentionScale.dot_scale_right]
  exact congrArg (· * _) (Finset.sum_congr rfl fun d _ => by rw [hQ, hK])

/-- The tiled side's scores, with the scale inside the query projection, are the same real scores. -/
theorem tiled_energy_real (kq K : Fin 8192 → Fin 1024 → EReal) (Qr Kr : Fin 8192 → Fin 1024 → ℝ)
    (hQ : ∀ i d, kq i d = ((Qr i d * (1 / 8) : ℝ) : EReal)) (hK : ∀ i d, K i d = (Kr i d : EReal)) (i j : Fin 8192) :
    (∑ dd : Fin 1024, kq i dd * K j dd) = ((energyR Qr Kr i j : ℝ) : EReal) := by
  unfold energyR
  rw [← AttentionScale.dot_scale_right, ← AttentionScale.dot_scale]
  exact Finset.sum_congr rfl fun d _ => by rw [hQ, hK, EReal.coe_mul]

/-! ### The one-pass value is the reference's last three stages -/

/-- The one-pass softmax-weighted sum of row i of the scores against column d of the values is the reference's
    out (attn (weight e)) V at (i, d): max ⊥ a = a and 0 + a = a. -/
theorem softmaxRef_eq_out (e : Fin 8192 → Fin 8192 → EReal) (V : Fin 8192 → Fin 1024 → EReal) (i : Fin 8192) (d : Fin 1024) :
    OnlineSoftmax.softmaxRef (fun j => e i j) (fun j => V j d) = RefValue.out (RefValue.attn (RefValue.weight e)) V i d := by
  unfold OnlineSoftmax.softmaxRef
  rw [max_bot_left, zero_add]
  rfl

/-! ### The bridge -/

/-- For finite inputs, the tiled recurrence over the 8 tiles of row i's scores (computed with the scale folded into
    the query projection) against column d of the value projection ends with acc / l equal to the reference's
    attention output at (i, d). -/
theorem attention_bridge (x : FVec Ideal S8192x1024 .f32) (Wq : FVec Ideal S1024x1024 .f32) (bq : FVec Ideal S1024 .f32)
    (Wk : FVec Ideal S1024x1024 .f32) (bk : FVec Ideal S1024 .f32)
    (Wv : FVec Ideal S1024x1024 .f32) (bv : FVec Ideal S1024 .f32)
    (hx : ∀ i, ∃ r : ℝ, x i = (r : EReal)) (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal))
    (hWv : ∀ i, ∃ r : ℝ, Wv i = (r : EReal)) (hbv : ∀ i, ∃ r : ℝ, bv i = (r : EReal))
    (i : Fin 8192) (d : Fin 1024) :
    Ideal.div
        (OnlineSoftmax.onlineRun (n := 8) (t := 1024)
          (fun k cc => ∑ dd : Fin 1024, kQ x Wq bq i dd * RefValue.proj x Wk bk (tile k cc) dd)
          (fun k cc => RefValue.proj x Wv bv (tile k cc) d) 8).acc
        (OnlineSoftmax.onlineRun (n := 8) (t := 1024)
          (fun k cc => ∑ dd : Fin 1024, kQ x Wq bq i dd * RefValue.proj x Wk bk (tile k cc) dd)
          (fun k cc => RefValue.proj x Wv bv (tile k cc) d) 8).l
      = RefValue.out (RefValue.attn (RefValue.weight (RefValue.energy (RefValue.proj x Wq bq) (RefValue.proj x Wk bk))))
          (RefValue.proj x Wv bv) i d := by
  choose xr hxr using hx
  choose Wqr hWqr using hWq
  choose bqr hbqr using hbq
  choose Wkr hWkr using hWk
  choose bkr hbkr using hbk
  choose Wvr hWvr using hWv
  choose bvr hbvr using hbv
  have hQ := proj_real x Wq bq xr Wqr bqr hxr hWqr hbqr
  have hK := proj_real x Wk bk xr Wkr bkr hxr hWkr hbkr
  have hV := proj_real x Wv bv xr Wvr bvr hxr hWvr hbvr
  have hkQ := kQ_real x Wq bq xr Wqr bqr hxr hWqr hbqr
  -- the tiled side's scores and values, as the reals at position tileEquiv (k, c)
  have he : (fun (k : Fin 8) (cc : Fin 1024) => ∑ dd : Fin 1024, kQ x Wq bq i dd * RefValue.proj x Wk bk (tile k cc) dd)
      = fun k cc => ((energyR (projR xr Wqr bqr) (projR xr Wkr bkr) i (tileEquiv (k, cc)) : ℝ) : EReal) :=
    funext fun k => funext fun cc =>
      tiled_energy_real (kQ x Wq bq) (RefValue.proj x Wk bk) (projR xr Wqr bqr) (projR xr Wkr bkr) hkQ hK i (tile k cc)
  have hv : (fun (k : Fin 8) (cc : Fin 1024) => RefValue.proj x Wv bv (tile k cc) d)
      = fun k cc => ((projR xr Wvr bvr (tileEquiv (k, cc)) d : ℝ) : EReal) :=
    funext fun k => funext fun cc => hV (tile k cc) d
  rw [he, hv]
  rw [OnlineSoftmax.online_eq_softmax_of_equiv (n := 8) (t := 1024) (by norm_num) (by norm_num) tileEquiv
    (fun j => energyR (projR xr Wqr bqr) (projR xr Wkr bkr) i j) (fun j => projR xr Wvr bvr j d)]
  -- back to the reference's scores and values
  have he' : (fun j : Fin 8192 => ((energyR (projR xr Wqr bqr) (projR xr Wkr bkr) i j : ℝ) : EReal))
      = fun j => RefValue.energy (RefValue.proj x Wq bq) (RefValue.proj x Wk bk) i j :=
    funext fun j => (energy_real (RefValue.proj x Wq bq) (RefValue.proj x Wk bk) (projR xr Wqr bqr) (projR xr Wkr bkr) hQ hK i j).symm
  have hv' : (fun j : Fin 8192 => ((projR xr Wvr bvr j d : ℝ) : EReal)) = fun j => RefValue.proj x Wv bv j d :=
    funext fun j => (hV j d).symm
  rw [he', hv']
  exact softmaxRef_eq_out _ _ i d

end Cert.Bridge

end
-- ==== Proof.KIValue1b.lean ====
import proofs.«167690_j59450937312052_2_alg».proof.Proof.KIValue1
import proofs.«167690_j59450937312052_2_alg».proof.Proof.Bridge
import Idealize.ShloMosaic.Lib.Pipeline.Value

/-! # The attention region's result array as one function of its three input arrays

Row `i` of the result is, column by column, the tiled softmax recurrence run over the eight column blocks of row `i`'s
scores against the transposed second projection, weighting the third projection's rows. -/

set_option maxRecDepth 16384

noncomputable section

namespace Cert.KernelIdeal.Value

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)
open OnlineSoftmax Cert.Bridge

variable (V : (c : Dev nD) → (b : Ref sig .tc) → Buf (Elt Ideal) ((c : Thread nD τ).loc b))

/-- The printed block-index maps, decided once over the 64 points: the first input and the output move with the row
    block, the second and third inputs with the column block. -/
theorem idx1 : ∀ t : Fin cfg1.N, win1_0.index t (0 : Fin 2) = t.val / 8 ∧ win1_0.index t (1 : Fin 2) = 0
    ∧ win1_1.index t (0 : Fin 2) = 0 ∧ win1_1.index t (1 : Fin 2) = t.val % 8
    ∧ win1_2.index t (0 : Fin 2) = t.val % 8 ∧ win1_2.index t (1 : Fin 2) = 0
    ∧ win1_3.index t (0 : Fin 2) = t.val / 8 ∧ win1_3.index t (1 : Fin 2) = 0 :=
  (by decide +kernel : ∀ t : Fin grid1.N, _)

/-! ## The input blocks read where they sit in their arrays -/

theorem iblk_q (c : Dev nD) (t : Fin cfg1.N) (y : S1024x1024.Idx) (i : S8192x1024.Idx)
    (h0 : (i 0).val = 1024 * (t.val / 8) + (y 0).val) (h1 : (i 1).val = (y 1).val) :
    iblk1 V c 0 t y = V c main_v10_0 i := by
  obtain ⟨e0, e1, -⟩ := idx1 t
  show V c main_v10_0 (((cfg1.win 0).blk t).view.emb y) = V c main_v10_0 i
  congr 1; funext a; apply Fin.ext
  match a with
  | ⟨0, _⟩ => show win1_0.index t (0 : Fin 2) * 1024 + 1 * (y 0).val = (i 0).val; omega
  | ⟨1, _⟩ => show win1_0.index t (1 : Fin 2) * 1024 + 1 * (y 1).val = (i 1).val; omega

theorem iblk_kT (c : Dev nD) (t : Fin cfg1.N) (y : S1024x1024.Idx) (i : S1024x8192.Idx)
    (h0 : (i 0).val = (y 0).val) (h1 : (i 1).val = 1024 * (t.val % 8) + (y 1).val) :
    iblk1 V c 1 t y = V c main_v10_1 i := by
  obtain ⟨-, -, e0, e1, -⟩ := idx1 t
  show V c main_v10_1 (((cfg1.win 1).blk t).view.emb y) = V c main_v10_1 i
  congr 1; funext a; apply Fin.ext
  match a with
  | ⟨0, _⟩ => show win1_1.index t (0 : Fin 2) * 1024 + 1 * (y 0).val = (i 0).val; omega
  | ⟨1, _⟩ => show win1_1.index t (1 : Fin 2) * 1024 + 1 * (y 1).val = (i 1).val; omega

theorem iblk_v (c : Dev nD) (t : Fin cfg1.N) (y : S1024x1024.Idx) (i : S8192x1024.Idx)
    (h0 : (i 0).val = 1024 * (t.val % 8) + (y 0).val) (h1 : (i 1).val = (y 1).val) :
    iblk1 V c 2 t y = V c main_v10_2 i := by
  obtain ⟨-, -, -, -, e0, e1, -⟩ := idx1 t
  show V c main_v10_2 (((cfg1.win 2).blk t).view.emb y) = V c main_v10_2 i
  congr 1; funext a; apply Fin.ext
  match a with
  | ⟨0, _⟩ => show win1_2.index t (0 : Fin 2) * 1024 + 1 * (y 0).val = (i 0).val; omega
  | ⟨1, _⟩ => show win1_2.index t (1 : Fin 2) * 1024 + 1 * (y 1).val = (i 1).val; omega

/-! ## A row's scores and a column's values, tile by tile, off the arrays -/

/-- Row `i`'s scores against column block `k`: the row of a first array against the columns of a second. -/
def scoreTiles (Q : S8192x1024.Idx → EReal) (KT : S1024x8192.Idx → EReal) (i : Fin 8192) : Fin 8 → Fin 1024 → EReal :=
  fun k cc => ∑ dd : Fin 1024, Q (ix2 i dd) * KT (ix2 dd (tile k cc))
/-- Column `d` of a third array, tile by tile. -/
def valueTiles (Vv : S8192x1024.Idx → EReal) (d : Fin 1024) : Fin 8 → Fin 1024 → EReal :=
  fun k cc => Vv (ix2 (tile k cc) d)
/-- The same off the region's three input arrays as it finds them. -/
def gE (c : Dev nD) (i : Fin 8192) : Fin 8 → Fin 1024 → EReal := scoreTiles (V c main_v10_0) (V c main_v10_1) i
def gV (c : Dev nD) (d : Fin 1024) : Fin 8 → Fin 1024 → EReal := valueTiles (V c main_v10_2) d

theorem eRow_eq (c : Dev nD) (qi : Fin 8) (r : Fin 1024) : eRow V c qi r = gE V c (tile qi r) := by
  funext k cc
  show tileE (iblk1 V c 0 (pt qi k)) (iblk1 V c 1 (pt qi k)) r cc = scoreTiles (V c main_v10_0) (V c main_v10_1) (tile qi r) k cc
  unfold tileE scoreTiles
  refine Finset.sum_congr rfl fun dd _ => ?_
  exact congrArg₂ (fun a b : EReal => a * b)
    (iblk_q V c (pt qi k) (ix2 r dd) (ix2 (tile qi r) dd) (by show 1024 * qi.val + r.val = 1024 * ((8 * qi.val + k.val) / 8) + r.val; omega) rfl)
    (iblk_kT V c (pt qi k) (ix2 dd cc) (ix2 dd (tile k cc)) rfl (by show 1024 * k.val + cc.val = 1024 * ((8 * qi.val + k.val) % 8) + cc.val; omega))

theorem vCol_eq (c : Dev nD) (qi : Fin 8) (d : Fin 1024) : vCol V c qi d = gV V c d := by
  funext k cc
  show iblk1 V c 2 (pt qi k) (ix2 cc d) = _
  exact iblk_v V c (pt qi k) (ix2 cc d) (ix2 (tile k cc) d) (by show 1024 * k.val + cc.val = 1024 * ((8 * qi.val + k.val) % 8) + cc.val; omega) rfl

/-! ## The result array -/

/-- The result at (i, d): the recurrence over row `i`'s eight tiles of scores, weighting column `d`. -/
def G1 (c : Dev nD) : S8192x1024.Idx → EReal := fun i =>
  Ideal.div (onlineRun (gE V c (i 0)) (gV V c (i 1)) 8).acc (onlineRun (gE V c (i 0)) (gV V c (i 1)) 8).l

/-- WHAT A LAST-COLUMN-BLOCK POINT WRITES BACK is its row block of `G1`. -/
theorem flushed1_eq (c : Dev nD) (t : Fin cfg1.N) (hf : (cfg1.win 3).flush t = true) :
    (dat1 V c).flushed 3 t = ((cfg1.win 3).blk t).view.read (Elt Ideal) (G1 V c) := by
  have h7 : t.val % 8 = 7 := (flush1_3 t).mp hf
  have hN : t.val < 64 := lt_of_lt_of_eq t.isLt (show cfg1.N = 64 from N_1)
  obtain ⟨qi, rfl⟩ : ∃ qi : Fin 8, t = pt qi 7 := ⟨⟨t.val / 8, by omega⟩, Fin.ext (by show t.val = 8 * (t.val / 8) + 7; omega)⟩
  show (cfg1.win 3).cut (grid1.coords (pt qi 7)) ((dat1 V c).after 3 (pt qi 7)) = _
  rw [after1_3]
  funext y
  obtain ⟨r, d, rfl⟩ : ∃ (r d : Fin 1024), y = ix2 r d := ⟨y 0, y 1, eq_ix2 y⟩
  show (outsAt1 V c (pt qi 7).val (pt qi 7).isLt).1 (ix2 r d) = G1 V c (((cfg1.win 3).blk (pt qi 7)).view.emb (ix2 r d))
  rw [out_last, eRow_eq, vCol_eq]
  obtain ⟨-, -, -, -, -, -, e0, e1⟩ := idx1 (pt qi 7)
  have he : ((cfg1.win 3).blk (pt qi 7)).view.emb (ix2 r d) = (ix2 (tile qi r) d : S8192x1024.Idx) := by
    funext a; apply Fin.ext
    match a with
    | ⟨0, _⟩ => show win1_3.index (pt qi 7) (0 : Fin 2) * 1024 + 1 * r.val = 1024 * qi.val + r.val
                have : (pt qi 7).val = 8 * qi.val + 7 := rfl
                omega
    | ⟨1, _⟩ => show win1_3.index (pt qi 7) (1 : Fin 2) * 1024 + 1 * d.val = d.val; omega
  rw [he]
  rfl

/-- An index of the result array is in point `t`'s block iff each coordinate is in the block's range on its axis. -/
theorem mem_blk1 (t : Fin cfg1.N) (i : S8192x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v11).slice (win1_3.rect t)).set ↔ _
  rw [View.set_slice_whole, Rect.mem_set_unit]
  exact Iff.rfl

/-- THE RESULT ARRAY after the region: the last column block of every row block covers it. -/
theorem final1_3 (c : Dev nD) : (dat1 V c).arrAt 3 cfg1.N = G1 V c :=
  (dat1 V c).arrAt_eq_of_cover 3 (G1 V c) (fun t hf => flushed1_eq V c t hf) fun i => by
    have hi0 : (i 0).val < 8192 := (i 0).isLt
    have hi1 : (i 1).val < 1024 := (i 1).isLt
    refine ⟨pt ⟨(i 0).val / 1024, by omega⟩ 7, (flush1_3 _).mpr (by show (8 * ((i 0).val / 1024) + 7) % 8 = 7; omega), ?_⟩
    rw [mem_blk1]
    obtain ⟨-, -, -, -, -, -, e0, e1⟩ := idx1 (pt ⟨(i 0).val / 1024, by omega⟩ 7)
    have hp : (pt ⟨(i 0).val / 1024, by omega⟩ 7).val = 8 * ((i 0).val / 1024) + 7 := rfl
    intro a
    match a with
    | ⟨0, _⟩ => show win1_3.index _ (0 : Fin 2) * 1024 ≤ (i 0).val ∧ (i 0).val < win1_3.index _ (0 : Fin 2) * 1024 + 1024; omega
    | ⟨1, _⟩ => show win1_3.index _ (1 : Fin 2) * 1024 ≤ (i 1).val ∧ (i 1).val < win1_3.index _ (1 : Fin 2) * 1024 + 1024; omega

end Cert.KernelIdeal.Value

end
-- ==== Proof.KIPay0.lean ====
import proofs.«167690_j59450937312052_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-! The values the projection kernel's body stores, read at an index over the extended reals.

The body takes a block `x0 : [512, 1024]` of rows, and for each of the three weights `w : [1024, 1024]` (already
transposed: the contraction runs over its FIRST coordinate) and biases `b : [1024]` stores
`(∑ k, x0 r k * w k j) + b j`: twice as a `[512, 1024]` block at `(r, j)`, once transposed as a `[1024, 512]`
block at `(j, r)`. A change of float format is the identity; a cast of a shape to itself is the identity; the bias
is cast to one row and broadcast down the rows; the product goes into the zero accumulator. -/

noncomputable section

namespace Cert.KernelIdeal.Pay

open Cert.KernelIdeal Cert.KernelIdeal.Gen
open Idealize.ShloMosaic Idealize.ShloMosaic.ValueIdx
open scoped BigOperators

/-! ## A `[512, 1024] × [1024, 1024]` contraction into the zero accumulator -/

theorem lhs_proj_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
theorem lhs_proj_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_proj_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_proj_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The product at `(i, c)`: the sum over the contracted coordinate of row `i` of the left operand against column
    `c` of the right. -/
theorem matmul_zero_read_proj (l : FVec Ideal S512x1024 .bf16) (r : FVec Ideal S1024x1024 .bf16) (i : Fin 512) (c : Fin 1024) :
    matmul dot_S512x1024_S1024x1024_S512x1024_1_0_0_1_n_n none l r (constant (F := Ideal) S512x1024 .f32 0x00000000#32) (ix2 i c)
      = ∑ k : Fin 1024, l (ix2 i k) * r (ix2 k c) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 i c) ((contrEquiv1 dot_S512x1024_S1024x1024_S512x1024_1_0_0_1_n_n 1024 rfl rfl).symm k) = ix2 i k :=
    funext fun a => Fin.ext (by
      match a with
      | ⟨0, _⟩ => exact lhs_proj_0 _ _
      | ⟨1, _⟩ => exact (lhs_proj_1 _ _).trans hk)
  have er : dot_S512x1024_S1024x1024_S512x1024_1_0_0_1_n_n.rhsIdx (ix2 i c) ((contrEquiv1 dot_S512x1024_S1024x1024_S512x1024_1_0_0_1_n_n 1024 rfl rfl).symm k) = ix2 k c :=
    funext fun a => Fin.ext (by
      match a with
      | ⟨0, _⟩ => exact (rhs_proj_0 _ _).trans hk
      | ⟨1, _⟩ => exact rhs_proj_1 _ _)
  rw [el, er]

/-! ## The three stored projections at an index -/

/-- The loaded rows in the narrower format are the loaded rows. -/
theorem pay1_idx0 (x0 : FVec Ideal S512x1024 .f32) (j : S512x1024.Idx) : k0_pay1 (F := Ideal) x0 j = x0 j := rfl

/-- The narrowing of the float format is the identity on extended reals. -/
theorem truncf_bf16_read {s : Shape} (a : FVec Ideal s .f32) (h : FTy.bits .bf16 < FTy.bits .f32) (i : s.Idx) :
    truncf (F := Ideal) .bf16 a h i = a i := rfl

/-- The bias cast to one row and broadcast down the rows, at `(r, j)`, is the bias at `j`. -/
theorem bias_read (b : FVec Ideal S1024 .f32) (h1 : S1024.ShapeCasts S1x1024) (h2 : S1x1024.Broadcasts S512x1024)
    (r : Fin 512) (j : Fin 1024) :
    broadcastTo S512x1024 (shapeCast S1x1024 b h1) h2 (ix2 r j) = b (ix1 j) :=
  (broadcastTo_1b_ab_apply _ h2 r j).trans (shapeCast_a_1a_apply b h1 0 j)

/-- The first stored projection at `(r, j)`. -/
theorem pay2_idx0 (x0 : Vec Ideal S512x1024 .f32) (w : Vec Ideal S1024x1024 .bf16) (b : Vec Ideal S1024 .f32)
    (r : Fin 512) (j : Fin 1024) :
    k0_pay2 (F := Ideal) x0 w b (ix2 r j) = (∑ k : Fin 1024, x0 (ix2 r k) * w (ix2 k j)) + b (ix1 j) := by
  unfold k0_pay2
  rw [shapeCast_self, shapeCast_self]
  refine (truncf_bf16_read _ _ _).trans ?_
  refine (addf_apply _ _ _).trans ?_
  exact congrArg₂ (· + ·) (matmul_zero_read_proj _ w r j) (bias_read b _ _ r j)

/-- The third stored projection at `(r, j)`. -/
theorem pay3_idx0 (x0 : Vec Ideal S512x1024 .f32) (w : Vec Ideal S1024x1024 .bf16) (b : Vec Ideal S1024 .f32)
    (r : Fin 512) (j : Fin 1024) :
    k0_pay3 (F := Ideal) x0 w b (ix2 r j) = (∑ k : Fin 1024, x0 (ix2 r k) * w (ix2 k j)) + b (ix1 j) := by
  unfold k0_pay3
  rw [shapeCast_self]
  refine (truncf_bf16_read _ _ _).trans ?_
  refine (addf_apply _ _ _).trans ?_
  exact congrArg₂ (· + ·) (matmul_zero_read_proj _ w r j) (bias_read b _ _ r j)

/-- The second projection is stored transposed: at `(j, r)` it is the projection at `(r, j)`. -/
theorem pay4_idx0 (x0 : Vec Ideal S512x1024 .f32) (w : Vec Ideal S1024x1024 .bf16) (b : Vec Ideal S1024 .f32)
    (r : Fin 512) (j : Fin 1024) :
    k0_pay4 (F := Ideal) x0 w b (ix2 j r) = (∑ k : Fin 1024, x0 (ix2 r k) * w (ix2 k j)) + b (ix1 j) := by
  unfold k0_pay4
  rw [shapeCast_self]
  refine (transpose_apply _ _ _ (ix2 j r) (ix2 r j) (fun a => match a with | ⟨0, _⟩ => rfl | ⟨1, _⟩ => rfl)).trans ?_
  refine (truncf_bf16_read _ _ _).trans ?_
  refine (addf_apply _ _ _).trans ?_
  exact congrArg₂ (· + ·) (matmul_zero_read_proj _ w r j) (bias_read b _ _ r j)

end Cert.KernelIdeal.Pay

end
-- ==== Proof.KIValue0.lean ====
import proofs.«167690_j59450937312052_2_alg».proof.Proof.KIRegion0
import proofs.«167690_j59450937312052_2_alg».proof.Proof.KIPay0
import Idealize.ShloMosaic.Lib.Pipeline.Value
import Idealize.ShloMosaic.Lib.ValueIdx

/-! The projection region's three output arrays as functions of its input arrays, over the extended reals.

The region runs its body at sixteen points. At point `t` the body reads rows `512 t … 512 t + 511` of the input
`x : [8192, 1024]` and, whole, three (already transposed) weights `w : [1024, 1024]` and biases `b : [1024]`, and writes
back the block's three projections `(∑ k, x i k * w k j) + b j`: the first and third as rows `512 t …` of two
`[8192, 1024]` arrays, the second TRANSPOSED as columns `512 t …` of a `[1024, 8192]` array. Every point writes back,
and the sixteen blocks tile each output array (row `i`, or column `i`, is in the block of point `i / 512`), so after
the region each output array is the projection of the whole input, index by index: `final0_7`, `final0_8`,
`final0_9`. A block's coordinate on an axis is the point's block index there times the block's size plus the
coordinate inside the block; the block indices are decided once over the sixteen points (`idx_facts`). -/

noncomputable section

namespace Cert.KernelIdeal.Value0

open Cert.KernelIdeal Cert.KernelIdeal.Gen Cert.KernelIdeal.Hand Cert.KernelIdeal.Pay
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- A projection with bias, the weight already transposed: `(∑ k, x i k * w k j) + b j`. -/
def projArr (x : S8192x1024.Idx → EReal) (w : S1024x1024.Idx → EReal) (b : S1024.Idx → EReal) :
    Fin 8192 → Fin 1024 → EReal :=
  fun i j => (∑ k : Fin 1024, x (ix2 i k) * w (ix2 k j)) + b (ix1 j)

theorem hz : (![0, 0] : Fin 2 → Nat) = fun _ => 0 := funext fun a => by fin_cases a <;> rfl
theorem hz1 : (![0] : Fin 1 → Nat) = fun _ => 0 := funext fun a => by fin_cases a; rfl

/-- What the first output array ends holding: the projection by the first weight and bias, index by index. -/
def G7 (c : Dev nD) : S8192x1024.Idx → EReal := fun idx =>
  projArr (V c (Pipeline.arrRef spec0 0)) (V c (Pipeline.arrRef spec0 1)) (V c (Pipeline.arrRef spec0 2)) (idx 0) (idx 1)

/-! ## The index maps over the grid -/

/-- The printed index maps, decided over the sixteen points: the input rows and the two untransposed outputs move
    down the rows with the point, the transposed output moves along the columns, and the weights and biases stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = t.val ∧ win0_7.index t (1 : Fin 2) = 0
    ∧ win0_8.index t (0 : Fin 2) = 0 ∧ win0_8.index t (1 : Fin 2) = t.val
    ∧ win0_9.index t (0 : Fin 2) = t.val ∧ win0_9.index t (1 : Fin 2) = 0 :=
  (by decide +kernel : ∀ t : Fin grid0.N, _)

/-- A grid point is below sixteen. -/
theorem t_lt (t : Fin cfg0.N) : t.val < 16 := lt_of_lt_of_eq t.isLt N_0

/-- Row `p` of the point's block is row `512 t + p` of the array. -/
def rowOf (t : Fin cfg0.N) (p : Fin 512) : Fin 8192 := ⟨512 * t.val + p.val, by have := t_lt t; have := p.isLt; omega⟩

/-- The input rows' block at point `t`, at `(p, k)`, sits at `(512 t + p, k)` of the array. -/
theorem emb0 (t : Fin cfg0.N) (p : Fin 512) (k : Fin 1024) :
    ((cfg0.win 0).blk t).view.emb (ix2 p k) = ix2 (rowOf t p) k := by
  obtain ⟨e0, e1, -⟩ := idx_facts t
  funext a; apply Fin.ext
  match a with
  | ⟨0, _⟩ => show win0_0.index t (0 : Fin 2) * 512 + 1 * p.val = 512 * t.val + p.val; omega
  | ⟨1, _⟩ => show win0_0.index t (1 : Fin 2) * 1024 + 1 * k.val = k.val; omega

/-- A weight's window is the whole array at every point. -/
theorem emb1 (t : Fin cfg0.N) (j : S1024x1024.Idx) : ((cfg0.win 1).blk t).view.emb j = j := by
  obtain ⟨-, -, e0, e1, -⟩ := idx_facts t
  funext a; apply Fin.ext
  match a with
  | ⟨0, _⟩ => show win0_1.index t (0 : Fin 2) * 1024 + 1 * (j 0).val = (j 0).val; omega
  | ⟨1, _⟩ => show win0_1.index t (1 : Fin 2) * 1024 + 1 * (j 1).val = (j 1).val; omega
theorem emb3 (t : Fin cfg0.N) (j : S1024x1024.Idx) : ((cfg0.win 3).blk t).view.emb j = j := by
  obtain ⟨-, -, -, -, -, e0, e1, -⟩ := idx_facts t
  funext a; apply Fin.ext
  match a with
  | ⟨0, _⟩ => show win0_3.index t (0 : Fin 2) * 1024 + 1 * (j 0).val = (j 0).val; omega
  | ⟨1, _⟩ => show win0_3.index t (1 : Fin 2) * 1024 + 1 * (j 1).val = (j 1).val; omega
theorem emb5 (t : Fin cfg0.N) (j : S1024x1024.Idx) : ((cfg0.win 5).blk t).view.emb j = j := by
  obtain ⟨-, -, -, -, -, -, -, -, e0, e1, -⟩ := idx_facts t
  funext a; apply Fin.ext
  match a with
  | ⟨0, _⟩ => show win0_5.index t (0 : Fin 2) * 1024 + 1 * (j 0).val = (j 0).val; omega
  | ⟨1, _⟩ => show win0_5.index t (1 : Fin 2) * 1024 + 1 * (j 1).val = (j 1).val; omega

/-- A bias's window is the whole array at every point. -/
theorem emb2 (t : Fin cfg0.N) (j : S1024.Idx) : ((cfg0.win 2).blk t).view.emb j = j := by
  obtain ⟨-, -, -, -, e0, -⟩ := idx_facts t
  funext a; apply Fin.ext
  match a with
  | ⟨0, _⟩ => show win0_2.index t (0 : Fin 1) * 1024 + 1 * (j 0).val = (j 0).val; omega
theorem emb4 (t : Fin cfg0.N) (j : S1024.Idx) : ((cfg0.win 4).blk t).view.emb j = j := by
  obtain ⟨-, -, -, -, -, -, -, e0, -⟩ := idx_facts t
  funext a; apply Fin.ext
  match a with
  | ⟨0, _⟩ => show win0_4.index t (0 : Fin 1) * 1024 + 1 * (j 0).val = (j 0).val; omega
theorem emb6 (t : Fin cfg0.N) (j : S1024.Idx) : ((cfg0.win 6).blk t).view.emb j = j := by
  obtain ⟨-, -, -, -, -, -, -, -, -, -, e0, -⟩ := idx_facts t
  funext a; apply Fin.ext
  match a with
  | ⟨0, _⟩ => show win0_6.index t (0 : Fin 1) * 1024 + 1 * (j 0).val = (j 0).val; omega

/-- The untransposed outputs' block at point `t`, at `(p, q)`, sits at `(512 t + p, q)` of the array. -/
theorem emb7 (t : Fin cfg0.N) (p : Fin 512) (q : Fin 1024) :
    ((cfg0.win 7).blk t).view.emb (ix2 p q) = ix2 (rowOf t p) q := by
  obtain ⟨-, -, -, -, -, -, -, -, -, -, -, e0, e1, -⟩ := idx_facts t
  funext a; apply Fin.ext
  match a with
  | ⟨0, _⟩ => show win0_7.index t (0 : Fin 2) * 512 + 1 * p.val = 512 * t.val + p.val; omega
  | ⟨1, _⟩ => show win0_7.index t (1 : Fin 2) * 1024 + 1 * q.val = q.val; omega
theorem emb9 (t : Fin cfg0.N) (p : Fin 512) (q : Fin 1024) :
    ((cfg0.win 9).blk t).view.emb (ix2 p q) = ix2 (rowOf t p) q := by
  obtain ⟨-, -, -, -, -, -, -, -, -, -, -, -, -, -, -, e0, e1⟩ := idx_facts t
  funext a; apply Fin.ext
  match a with
  | ⟨0, _⟩ => show win0_9.index t (0 : Fin 2) * 512 + 1 * p.val = 512 * t.val + p.val; omega
  | ⟨1, _⟩ => show win0_9.index t (1 : Fin 2) * 1024 + 1 * q.val = q.val; omega

/-- The transposed output's block at point `t`, at `(q, p)`, sits at `(q, 512 t + p)` of the array. -/
theorem emb8 (t : Fin cfg0.N) (q : Fin 1024) (p : Fin 512) :
    ((cfg0.win 8).blk t).view.emb (ix2 q p) = ix2 q (rowOf t p) := by
  obtain ⟨-, -, -, -, -, -, -, -, -, -, -, -, -, e0, e1, -⟩ := idx_facts t
  funext a; apply Fin.ext
  match a with
  | ⟨0, _⟩ => show win0_8.index t (0 : Fin 2) * 1024 + 1 * q.val = q.val; omega
  | ⟨1, _⟩ => show win0_8.index t (1 : Fin 2) * 512 + 1 * p.val = 512 * t.val + p.val; omega

/-! ## The input blocks read off their arrays -/

theorem iblk_0 (c : Dev nD) (t : Fin cfg0.N) (p : Fin 512) (k : Fin 1024) :
    iblk0 V c 0 t (ix2 p k) = (V c (Pipeline.arrRef spec0 0) : S8192x1024.Idx → EReal) (ix2 (rowOf t p) k) := by
  unfold iblk0
  rw [View.read_apply]
  show (V c (Pipeline.arrRef spec0 0) : S8192x1024.Idx → EReal) _ = _
  exact congrArg _ (emb0 t p k)

theorem iblk_1 (c : Dev nD) (t : Fin cfg0.N) (j : S1024x1024.Idx) :
    iblk0 V c 1 t j = (V c (Pipeline.arrRef spec0 1) : S1024x1024.Idx → EReal) j := by
  unfold iblk0
  rw [View.read_apply]
  show (V c (Pipeline.arrRef spec0 1) : S1024x1024.Idx → EReal) _ = _
  exact congrArg _ (emb1 t j)
theorem iblk_2 (c : Dev nD) (t : Fin cfg0.N) (j : S1024.Idx) :
    iblk0 V c 2 t j = (V c (Pipeline.arrRef spec0 2) : S1024.Idx → EReal) j := by
  unfold iblk0
  rw [View.read_apply]
  show (V c (Pipeline.arrRef spec0 2) : S1024.Idx → EReal) _ = _
  exact congrArg _ (emb2 t j)
theorem iblk_3 (c : Dev nD) (t : Fin cfg0.N) (j : S1024x1024.Idx) :
    iblk0 V c 3 t j = (V c (Pipeline.arrRef spec0 3) : S1024x1024.Idx → EReal) j := by
  unfold iblk0
  rw [View.read_apply]
  show (V c (Pipeline.arrRef spec0 3) : S1024x1024.Idx → EReal) _ = _
  exact congrArg _ (emb3 t j)
theorem iblk_4 (c : Dev nD) (t : Fin cfg0.N) (j : S1024.Idx) :
    iblk0 V c 4 t j = (V c (Pipeline.arrRef spec0 4) : S1024.Idx → EReal) j := by
  unfold iblk0
  rw [View.read_apply]
  show (V c (Pipeline.arrRef spec0 4) : S1024.Idx → EReal) _ = _
  exact congrArg _ (emb4 t j)
theorem iblk_5 (c : Dev nD) (t : Fin cfg0.N) (j : S1024x1024.Idx) :
    iblk0 V c 5 t j = (V c (Pipeline.arrRef spec0 5) : S1024x1024.Idx → EReal) j := by
  unfold iblk0
  rw [View.read_apply]
  show (V c (Pipeline.arrRef spec0 5) : S1024x1024.Idx → EReal) _ = _
  exact congrArg _ (emb5 t j)
theorem iblk_6 (c : Dev nD) (t : Fin cfg0.N) (j : S1024.Idx) :
    iblk0 V c 6 t j = (V c (Pipeline.arrRef spec0 6) : S1024.Idx → EReal) j := by
  unfold iblk0
  rw [View.read_apply]
  show (V c (Pipeline.arrRef spec0 6) : S1024.Idx → EReal) _ = _
  exact congrArg _ (emb6 t j)

/-! ## The first output array -/

/-- What point `t` writes back to the first output is block `t` of the projection. -/
theorem flushed7_eq (c : Dev nD) (t : Fin cfg0.N) :
    (dat0 V c).flushed 7 t = ((cfg0.win 7).blk t).view.read (Elt Ideal) (G7 V c) := by
  show (cfg0.win 7).cut (grid0.coords t) ((dat0 V c).after 7 t) = _
  rw [after0_7]
  unfold out0_7
  rw [View.canon_unit_zero hz]
  simp only [View.ld_unit_zero (S := S512x1024) hz, View.ld_unit_zero (S := S1024x1024) hz, View.ld_unit_zero (S := S1024) hz1]
  funext (y : S512x1024.Idx)
  obtain ⟨p, q, rfl⟩ : ∃ (p : Fin 512) (q : Fin 1024), y = ix2 p q := ⟨y 0, y 1, eq_ix2 y⟩
  show k0_pay2 (F := Ideal) (iblk0 V c 0 t) (iblk0 V c 1 t) (iblk0 V c 2 t) (ix2 p q)
    = G7 V c (((cfg0.win 7).blk t).view.emb (ix2 p q))
  refine (pay2_idx0 _ _ _ p q).trans ?_
  refine Eq.trans ?_ (congrArg (G7 V c) (emb7 t p q)).symm
  exact congrArg₂ (· + ·)
    (Finset.sum_congr rfl fun k _ => congrArg₂ (· * ·) (iblk_0 V c t p k) (iblk_1 V c t (ix2 k q)))
    (iblk_2 V c t (ix1 q))

/-- An index of the array is in point `t`'s block iff each coordinate is in the block's range on its axis. -/
theorem mem_blk7 (t : Fin cfg0.N) (i : S8192x1024.Idx) :
    i ∈ ((cfg0.win 7).blk t).view.set ↔ ∀ a : Fin 2, win0_7.index t a * S512x1024.size a ≤ (i a).val
      ∧ (i a).val < win0_7.index t a * S512x1024.size a + S512x1024.size a := by
  show i ∈ ((View.whole main_v10_0).slice (win0_7.rect t)).set ↔ _
  rw [View.set_slice_whole, Rect.mem_set_unit]
  exact Iff.rfl

/-- The point whose block holds row `r`: `r / 512`. -/
def pointOf (r : Fin 8192) : Fin cfg0.N := ⟨r.val / 512, lt_of_lt_of_eq (by have := r.isLt; omega : r.val / 512 < 16) N_0.symm⟩

/-- Every index of the first output array is in the block of the point of its row. -/
theorem cover7 (i : S8192x1024.Idx) :
    ∃ t : Fin cfg0.N, (cfg0.win 7).flush t = true ∧ i ∈ ((cfg0.win 7).blk t).view.set := by
  have h0 : (i 0).val < 8192 := (i 0).isLt
  have h1 : (i 1).val < 1024 := (i 1).isLt
  refine ⟨pointOf (i 0), flush0_7 _, ?_⟩
  rw [mem_blk7]
  obtain ⟨-, -, -, -, -, -, -, -, -, -, -, e0, e1, -⟩ := idx_facts (pointOf (i 0))
  have ht : (pointOf (i 0)).val = (i 0).val / 512 := rfl
  intro a
  match a with
  | ⟨0, _⟩ =>
    show win0_7.index (pointOf (i 0)) (0 : Fin 2) * 512 ≤ (i 0).val
      ∧ (i 0).val < win0_7.index (pointOf (i 0)) (0 : Fin 2) * 512 + 512
    omega
  | ⟨1, _⟩ =>
    show win0_7.index (pointOf (i 0)) (1 : Fin 2) * 1024 ≤ (i 1).val
      ∧ (i 1).val < win0_7.index (pointOf (i 0)) (1 : Fin 2) * 1024 + 1024
    omega

/-- THE FIRST OUTPUT ARRAY after the region: the projection by the first weight and bias. -/
theorem final0_7 (c : Dev nD) : (dat0 V c).arrAt 7 cfg0.N = G7 V c :=
  (dat0 V c).arrAt_eq_of_cover 7 (G7 V c) (fun t _ => flushed7_eq V c t) cover7

/-! ## The third output array -/

/-- What the third output array ends holding: the projection by the third weight and bias, index by index. -/
def G9 (c : Dev nD) : S8192x1024.Idx → EReal := fun idx =>
  projArr (V c (Pipeline.arrRef spec0 0)) (V c (Pipeline.arrRef spec0 5)) (V c (Pipeline.arrRef spec0 6)) (idx 0) (idx 1)

/-- What point `t` writes back to the third output is block `t` of the projection. -/
theorem flushed9_eq (c : Dev nD) (t : Fin cfg0.N) :
    (dat0 V c).flushed 9 t = ((cfg0.win 9).blk t).view.read (Elt Ideal) (G9 V c) := by
  show (cfg0.win 9).cut (grid0.coords t) ((dat0 V c).after 9 t) = _
  rw [after0_9]
  unfold out0_9
  rw [View.canon_unit_zero hz]
  simp only [View.ld_unit_zero (S := S512x1024) hz, View.ld_unit_zero (S := S1024x1024) hz, View.ld_unit_zero (S := S1024) hz1]
  funext (y : S512x1024.Idx)
  obtain ⟨p, q, rfl⟩ : ∃ (p : Fin 512) (q : Fin 1024), y = ix2 p q := ⟨y 0, y 1, eq_ix2 y⟩
  show k0_pay3 (F := Ideal) (iblk0 V c 0 t) (iblk0 V c 5 t) (iblk0 V c 6 t) (ix2 p q)
    = G9 V c (((cfg0.win 9).blk t).view.emb (ix2 p q))
  refine (pay3_idx0 _ _ _ p q).trans ?_
  refine Eq.trans ?_ (congrArg (G9 V c) (emb9 t p q)).symm
  exact congrArg₂ (· + ·)
    (Finset.sum_congr rfl fun k _ => congrArg₂ (· * ·) (iblk_0 V c t p k) (iblk_5 V c t (ix2 k q)))
    (iblk_6 V c t (ix1 q))

theorem mem_blk9 (t : Fin cfg0.N) (i : S8192x1024.Idx) :
    i ∈ ((cfg0.win 9).blk t).view.set ↔ ∀ a : Fin 2, win0_9.index t a * S512x1024.size a ≤ (i a).val
      ∧ (i a).val < win0_9.index t a * S512x1024.size a + S512x1024.size a := by
  show i ∈ ((View.whole main_v10_2).slice (win0_9.rect t)).set ↔ _
  rw [View.set_slice_whole, Rect.mem_set_unit]
  exact Iff.rfl

/-- Every index of the third output array is in the block of the point of its row. -/
theorem cover9 (i : S8192x1024.Idx) :
    ∃ t : Fin cfg0.N, (cfg0.win 9).flush t = true ∧ i ∈ ((cfg0.win 9).blk t).view.set := by
  have h0 : (i 0).val < 8192 := (i 0).isLt
  have h1 : (i 1).val < 1024 := (i 1).isLt
  refine ⟨pointOf (i 0), flush0_9 _, ?_⟩
  rw [mem_blk9]
  obtain ⟨-, -, -, -, -, -, -, -, -, -, -, -, -, -, -, e0, e1⟩ := idx_facts (pointOf (i 0))
  have ht : (pointOf (i 0)).val = (i 0).val / 512 := rfl
  intro a
  match a with
  | ⟨0, _⟩ =>
    show win0_9.index (pointOf (i 0)) (0 : Fin 2) * 512 ≤ (i 0).val
      ∧ (i 0).val < win0_9.index (pointOf (i 0)) (0 : Fin 2) * 512 + 512
    omega
  | ⟨1, _⟩ =>
    show win0_9.index (pointOf (i 0)) (1 : Fin 2) * 1024 ≤ (i 1).val
      ∧ (i 1).val < win0_9.index (pointOf (i 0)) (1 : Fin 2) * 1024 + 1024
    omega

/-- THE THIRD OUTPUT ARRAY after the region: the projection by the third weight and bias. -/
theorem final0_9 (c : Dev nD) : (dat0 V c).arrAt 9 cfg0.N = G9 V c :=
  (dat0 V c).arrAt_eq_of_cover 9 (G9 V c) (fun t _ => flushed9_eq V c t) cover9

/-! ## The second output array, stored transposed -/

/-- What the second output array ends holding: at `(j, i)` the projection by the second weight and bias at row `i`,
    column `j`. -/
def G8 (c : Dev nD) : S1024x8192.Idx → EReal := fun idx =>
  projArr (V c (Pipeline.arrRef spec0 0)) (V c (Pipeline.arrRef spec0 3)) (V c (Pipeline.arrRef spec0 4)) (idx 1) (idx 0)

/-- What point `t` writes back to the second output is block `t` of the transposed projection. -/
theorem flushed8_eq (c : Dev nD) (t : Fin cfg0.N) :
    (dat0 V c).flushed 8 t = ((cfg0.win 8).blk t).view.read (Elt Ideal) (G8 V c) := by
  show (cfg0.win 8).cut (grid0.coords t) ((dat0 V c).after 8 t) = _
  rw [after0_8]
  unfold out0_8
  rw [View.canon_unit_zero hz]
  simp only [View.ld_unit_zero (S := S512x1024) hz, View.ld_unit_zero (S := S1024x1024) hz, View.ld_unit_zero (S := S1024) hz1]
  funext (y : S1024x512.Idx)
  obtain ⟨q, p, rfl⟩ : ∃ (q : Fin 1024) (p : Fin 512), y = ix2 q p := ⟨y 0, y 1, eq_ix2 y⟩
  show k0_pay4 (F := Ideal) (iblk0 V c 0 t) (iblk0 V c 3 t) (iblk0 V c 4 t) (ix2 q p)
    = G8 V c (((cfg0.win 8).blk t).view.emb (ix2 q p))
  refine (pay4_idx0 _ _ _ p q).trans ?_
  refine Eq.trans ?_ (congrArg (G8 V c) (emb8 t q p)).symm
  exact congrArg₂ (· + ·)
    (Finset.sum_congr rfl fun k _ => congrArg₂ (· * ·) (iblk_0 V c t p k) (iblk_3 V c t (ix2 k q)))
    (iblk_4 V c t (ix1 q))

theorem mem_blk8 (t : Fin cfg0.N) (i : S1024x8192.Idx) :
    i ∈ ((cfg0.win 8).blk t).view.set ↔ ∀ a : Fin 2, win0_8.index t a * S1024x512.size a ≤ (i a).val
      ∧ (i a).val < win0_8.index t a * S1024x512.size a + S1024x512.size a := by
  show i ∈ ((View.whole main_v10_1).slice (win0_8.rect t)).set ↔ _
  rw [View.set_slice_whole, Rect.mem_set_unit]
  exact Iff.rfl

/-- Every index of the second output array is in the block of the point of its COLUMN. -/
theorem cover8 (i : S1024x8192.Idx) :
    ∃ t : Fin cfg0.N, (cfg0.win 8).flush t = true ∧ i ∈ ((cfg0.win 8).blk t).view.set := by
  have h0 : (i 0).val < 1024 := (i 0).isLt
  have h1 : (i 1).val < 8192 := (i 1).isLt
  refine ⟨pointOf (i 1), flush0_8 _, ?_⟩
  rw [mem_blk8]
  obtain ⟨-, -, -, -, -, -, -, -, -, -, -, -, -, e0, e1, -⟩ := idx_facts (pointOf (i 1))
  have ht : (pointOf (i 1)).val = (i 1).val / 512 := rfl
  intro a
  match a with
  | ⟨0, _⟩ =>
    show win0_8.index (pointOf (i 1)) (0 : Fin 2) * 1024 ≤ (i 0).val
      ∧ (i 0).val < win0_8.index (pointOf (i 1)) (0 : Fin 2) * 1024 + 1024
    omega
  | ⟨1, _⟩ =>
    show win0_8.index (pointOf (i 1)) (1 : Fin 2) * 512 ≤ (i 1).val
      ∧ (i 1).val < win0_8.index (pointOf (i 1)) (1 : Fin 2) * 512 + 512
    omega

/-- THE SECOND OUTPUT ARRAY after the region: the projection by the second weight and bias, transposed. -/
theorem final0_8 (c : Dev nD) : (dat0 V c).arrAt 8 cfg0.N = G8 V c :=
  (dat0 V c).arrAt_eq_of_cover 8 (G8 V c) (fun t _ => flushed8_eq V c t) cover8

/-! ## The three arrays at an index -/

theorem G7_ix2 (c : Dev nD) (i : Fin 8192) (j : Fin 1024) : G7 V c (ix2 i j)
    = projArr (V c (Pipeline.arrRef spec0 0)) (V c (Pipeline.arrRef spec0 1)) (V c (Pipeline.arrRef spec0 2)) i j := rfl
theorem G9_ix2 (c : Dev nD) (i : Fin 8192) (j : Fin 1024) : G9 V c (ix2 i j)
    = projArr (V c (Pipeline.arrRef spec0 0)) (V c (Pipeline.arrRef spec0 5)) (V c (Pipeline.arrRef spec0 6)) i j := rfl
/-- Entry `(j, i)` of the transposed array is the projection at row `i`, column `j`. -/
theorem G8_ix2 (c : Dev nD) (j : Fin 1024) (i : Fin 8192) : G8 V c (ix2 j i)
    = projArr (V c (Pipeline.arrRef spec0 0)) (V c (Pipeline.arrRef spec0 3)) (V c (Pipeline.arrRef spec0 4)) i j := rfl

end Cert.KernelIdeal.Value0

end
-- ==== Proof.KIHost.lean ====
import proofs.«167690_j59450937312052_2_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

/-! The host operations of the program, before its first region and after its last, read at an index over the
extended reals.

Before the first region the host scales the query weight and the query bias by the literal 0.125, transposes the
three weights and narrows their format; over the extended reals a change of format is the identity, a transpose
swaps the two coordinates, and a broadcast scalar is that scalar at every index. So the transposed, scaled query
weight at (k, j) is the query weight at (j, k) times 0.125; the transposed key and value weights at (k, j) are the
weights at (j, k); the scaled query bias at j is the bias at j times 0.125. After the last region the host appends a
unit axis to the [8192, 1024] result: the entry at (i, d, 0) is the entry at (i, d), the two having one row-major
position. -/

noncomputable section

namespace Cert.KernelIdeal.Host

open Cert.KernelIdeal Cert.KernelIdeal.Gen
open Idealize.ShloMosaic Idealize.ShloMosaic.TcCoe Idealize.SL.Sem Idealize.ShloMosaic.StableHlo
open Idealize.ShloMosaic.ValueIdx

/-! ### The operations' terms -/

/-- The query weight: scaled by the broadcast literal, transposed, narrowed. -/
theorem wqT_term (W : Valuation τ sig (Elt Ideal)) :
    (StableHlo.after (hostOps0 (F := Ideal)) W (Proc.devRef .tc main_v3) : S1024x1024.Idx → EReal)
      = truncf .bf16 (transpose S1024x1024 [1, 0]
          (mulf (W (Proc.devRef .tc main_arg1))
            (broadcastInDim S1024x1024 ![] bcast_S_S1024x1024 (constant (F := Ideal) S_ .f32 0x3E000000#32)))
          transposes_S1024x1024_S1024x1024_1_0) bitsLt_bf16_f32 := by
  after_results

/-- The key weight: transposed, narrowed. -/
theorem wkT_term (W : Valuation τ sig (Elt Ideal)) :
    (StableHlo.after (hostOps0 (F := Ideal)) W (Proc.devRef .tc main_v5) : S1024x1024.Idx → EReal)
      = truncf (F := Ideal) .bf16 (transpose S1024x1024 [1, 0] (W (Proc.devRef .tc main_arg3) : FVec Ideal S1024x1024 .f32)
          transposes_S1024x1024_S1024x1024_1_0) bitsLt_bf16_f32 := by
  after_results

/-- The value weight: transposed, narrowed. -/
theorem wvT_term (W : Valuation τ sig (Elt Ideal)) :
    (StableHlo.after (hostOps0 (F := Ideal)) W (Proc.devRef .tc main_v7) : S1024x1024.Idx → EReal)
      = truncf (F := Ideal) .bf16 (transpose S1024x1024 [1, 0] (W (Proc.devRef .tc main_arg5) : FVec Ideal S1024x1024 .f32)
          transposes_S1024x1024_S1024x1024_1_0) bitsLt_bf16_f32 := by
  after_results

/-- The query bias: scaled by the broadcast literal. -/
theorem bqs_term (W : Valuation τ sig (Elt Ideal)) :
    (StableHlo.after (hostOps0 (F := Ideal)) W (Proc.devRef .tc main_v9) : S1024.Idx → EReal)
      = mulf (W (Proc.devRef .tc main_arg2))
          (broadcastInDim S1024 ![] bcast_S_S1024 (constant (F := Ideal) S_ .f32 0x3E000000#32)) := by
  after_results

/-- The result with a unit axis appended. -/
theorem tail_term (W : Valuation τ sig (Elt Ideal)) :
    (StableHlo.after (hostOps2 (F := Ideal)) W (Proc.devRef .tc main_v12) : S8192x1024x1.Idx → EReal)
      = shapeCast S8192x1024x1 (W (Proc.devRef .tc main_v11) : S8192x1024.Idx → EReal) shapeCasts_S8192x1024_S8192x1024x1 := by
  after_results
  rfl

/-! ### Read at an index -/

/-- The transposed, scaled query weight at (k, j) is the query weight at (j, k) times the literal 0.125. -/
theorem wqT_idx (W : Valuation τ sig (Elt Ideal)) (k j : Fin 1024) :
    StableHlo.after (hostOps0 (F := Ideal)) W (Proc.devRef .tc main_v3) (ix2 k j)
      = HMul.hMul (α := EReal) (β := EReal) (γ := EReal) (W (Proc.devRef .tc main_arg1) (ix2 j k))
          (Ideal.ofBits .f32 0x3E000000#32) := by
  refine (congrFun (wqT_term W) (ix2 (n0 := 1024) (n1 := 1024) k j)).trans ?_
  refine (truncf_apply (φ := .f32) (ψ := .bf16) _ bitsLt_bf16_f32 _).trans ?_
  refine (transpose_ix2_apply (a := 1024) (b := 1024) _ transposes_S1024x1024_S1024x1024_1_0 k j).trans ?_
  rfl

/-- The transposed key weight at (k, j) is the key weight at (j, k). -/
theorem wkT_idx (W : Valuation τ sig (Elt Ideal)) (k j : Fin 1024) :
    StableHlo.after (hostOps0 (F := Ideal)) W (Proc.devRef .tc main_v5) (ix2 k j)
      = W (Proc.devRef .tc main_arg3) (ix2 j k) := by
  refine (congrFun (wkT_term W) (ix2 (n0 := 1024) (n1 := 1024) k j)).trans ?_
  exact transpose_ix2_apply (a := 1024) (b := 1024) _ transposes_S1024x1024_S1024x1024_1_0 k j

/-- The transposed value weight at (k, j) is the value weight at (j, k). -/
theorem wvT_idx (W : Valuation τ sig (Elt Ideal)) (k j : Fin 1024) :
    StableHlo.after (hostOps0 (F := Ideal)) W (Proc.devRef .tc main_v7) (ix2 k j)
      = W (Proc.devRef .tc main_arg5) (ix2 j k) := by
  refine (congrFun (wvT_term W) (ix2 (n0 := 1024) (n1 := 1024) k j)).trans ?_
  exact transpose_ix2_apply (a := 1024) (b := 1024) _ transposes_S1024x1024_S1024x1024_1_0 k j

/-- The scaled query bias at j is the query bias at j times the literal 0.125. -/
theorem bqs_idx (W : Valuation τ sig (Elt Ideal)) (j : Fin 1024) :
    StableHlo.after (hostOps0 (F := Ideal)) W (Proc.devRef .tc main_v9) (ix1 j)
      = HMul.hMul (α := EReal) (β := EReal) (γ := EReal) (W (Proc.devRef .tc main_arg2) (ix1 j))
          (Ideal.ofBits .f32 0x3E000000#32) := by
  refine (congrFun (bqs_term W) (ix1 (n := 1024) j)).trans ?_
  rfl

/-- The result with the unit axis appended, at (i, d, 0), is the result at (i, d). -/
theorem tail_idx (W : Valuation τ sig (Elt Ideal)) (i : Fin 8192) (d : Fin 1024) :
    StableHlo.after (hostOps2 (F := Ideal)) W (Proc.devRef .tc main_v12) (ix3 i d (0 : Fin 1))
      = W (Proc.devRef .tc main_v11) (ix2 i d) := by
  refine (congrFun (tail_term W) (ix3 (n0 := 8192) (n1 := 1024) (n2 := 1) i d (0 : Fin 1))).trans ?_
  refine shapeCast_apply _ shapeCasts_S8192x1024_S8192x1024x1 _ (ix2 (n0 := 8192) (n1 := 1024) i d) ?_
  rw [Shape.rowMajor_val_two, Shape.rowMajor_val_three]
  show i.val * 1024 + d.val = (i.val * 1024 + d.val) * 1 + 0
  omega

end Cert.KernelIdeal.Host

end
-- ==== Proof.Assemble.lean ====
import proofs.«167690_j59450937312052_2_alg».proof.Proof.Bridge

/-! The assembly of the tiled computation's entry with the reference's specification.

Given the three arrays the tiled recurrence reads — the scaled query projection Q, the TRANSPOSED key projection KT
and the value projection V, each known entry by entry — the recurrence over the 8 tiles of row i's scores
Σ_dd Q (i, dd) · KT (dd, position) against column d of V ends with acc / l equal to the reference's specification at
(i, d, 0). The scores and values are rewritten entry by entry into the form of the bridge between the tiled
recurrence and the one-pass softmax attention; the specification at (i, d, 0) is that attention entry. -/

noncomputable section

namespace Cert.Assemble

open Cert.ReferenceIdeal Cert.ReferenceIdeal.RefValue
open Idealize.ShloMosaic Idealize.ShloMosaic.ValueIdx
open scoped BigOperators

theorem assemble (x : FVec Ideal S8192x1024 .f32) (Wq : FVec Ideal S1024x1024 .f32) (bq : FVec Ideal S1024 .f32)
    (Wk : FVec Ideal S1024x1024 .f32) (bk : FVec Ideal S1024 .f32)
    (Wv : FVec Ideal S1024x1024 .f32) (bv : FVec Ideal S1024 .f32)
    (Q : (⟨2, ![8192, 1024]⟩ : Shape).Idx → EReal) (KT : (⟨2, ![1024, 8192]⟩ : Shape).Idx → EReal)
    (Vv : (⟨2, ![8192, 1024]⟩ : Shape).Idx → EReal)
    (hQ : ∀ (i : Fin 8192) (dd : Fin 1024), Q (ix2 i dd) = Bridge.kQ x Wq bq i dd)
    (hKT : ∀ (dd : Fin 1024) (j : Fin 8192), KT (ix2 dd j) = RefValue.proj x Wk bk j dd)
    (hV : ∀ (j : Fin 8192) (d : Fin 1024), Vv (ix2 j d) = RefValue.proj x Wv bv j d)
    (hx : ∀ i, ∃ r : ℝ, x i = (r : EReal)) (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal))
    (hWv : ∀ i, ∃ r : ℝ, Wv i = (r : EReal)) (hbv : ∀ i, ∃ r : ℝ, bv i = (r : EReal))
    (i : Fin 8192) (d : Fin 1024) :
    Ideal.div
        (OnlineSoftmax.onlineRun (n := 8) (t := 1024)
          (fun k cc => ∑ dd : Fin 1024, Q (ix2 i dd) * KT (ix2 dd (Bridge.tile k cc)))
          (fun k cc => Vv (ix2 (Bridge.tile k cc) d)) 8).acc
        (OnlineSoftmax.onlineRun (n := 8) (t := 1024)
          (fun k cc => ∑ dd : Fin 1024, Q (ix2 i dd) * KT (ix2 dd (Bridge.tile k cc)))
          (fun k cc => Vv (ix2 (Bridge.tile k cc) d)) 8).l
      = RefValue.spec x Wq bq Wk bk Wv bv (ix3 i d (0 : Fin 1)) := by
  have he : (fun (k : Fin 8) (cc : Fin 1024) => ∑ dd : Fin 1024, Q (ix2 i dd) * KT (ix2 dd (Bridge.tile k cc)))
      = fun k cc => ∑ dd : Fin 1024, Bridge.kQ x Wq bq i dd * RefValue.proj x Wk bk (Bridge.tile k cc) dd :=
    funext fun k => funext fun cc => Finset.sum_congr rfl fun dd _ => by rw [hQ, hKT]
  have hv : (fun (k : Fin 8) (cc : Fin 1024) => Vv (ix2 (Bridge.tile k cc) d))
      = fun k cc => RefValue.proj x Wv bv (Bridge.tile k cc) d :=
    funext fun k => funext fun cc => hV _ _
  rw [he, hv, RefValue.spec_ix3]
  exact Bridge.attention_bridge x Wq bq Wk bk Wv bv hx hWq hbq hWk hbk hWv hbv i d

end Cert.Assemble

end
-- ==== Proof.KIFinal.lean ====
import proofs.«167690_j59450937312052_2_alg».proof.Proof.KIRunMain
import proofs.«167690_j59450937312052_2_alg».proof.Proof.KIValue1b
import proofs.«167690_j59450937312052_2_alg».proof.Proof.KIValue0
import proofs.«167690_j59450937312052_2_alg».proof.Proof.KIHost
import proofs.«167690_j59450937312052_2_alg».proof.Proof.Assemble

/-! # The idealized kernel's result is the reference's function of the seven arguments

The host stretch scales the first weight matrix and bias by 1/8 and transposes the three weight matrices; the
projection region computes the three projections (the first one scaled); the attention region runs the tiled softmax
recurrence over them; the closing reshape adds a unit axis. Composed, and joined to the one-pass softmax by the
equality of the tiled and the one-pass weighted sums, this is the reference's result, index by index — given that
every argument entry is a real number. -/

set_option maxRecDepth 16384

noncomputable section

namespace Cert.KernelIdeal.Final

open Cert.KernelIdeal Cert.KernelIdeal.Gen Cert.KernelIdeal.Hand Cert.KernelIdeal.Value Cert.KernelIdeal.Value0 Cert.KernelIdeal.Host
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## What the projection region finds in its seven input arrays -/

theorem in0 (c : Dev nD) : V1 m ρ c (Pipeline.arrRef spec0 0) = m ((c : Thread nD τ).loc main_arg0) :=
  StableHlo.after_of_writes_sub hostOps0 _ hostOps0_writes (by decide : main_arg0 ∉ hostOps0_W)
theorem in4 (c : Dev nD) : V1 m ρ c (Pipeline.arrRef spec0 4) = m ((c : Thread nD τ).loc main_arg4) :=
  StableHlo.after_of_writes_sub hostOps0 _ hostOps0_writes (by decide : main_arg4 ∉ hostOps0_W)
theorem in6 (c : Dev nD) : V1 m ρ c (Pipeline.arrRef spec0 6) = m ((c : Thread nD τ).loc main_arg6) :=
  StableHlo.after_of_writes_sub hostOps0 _ hostOps0_writes (by decide : main_arg6 ∉ hostOps0_W)
theorem in1 (c : Dev nD) (k j : Fin 1024) :
    (V1 m ρ c (Pipeline.arrRef spec0 1) : S1024x1024.Idx → EReal) (ix2 k j) = HMul.hMul (α := EReal) (β := EReal) (γ := EReal) (m ((c : Thread nD τ).loc main_arg1) (ix2 j k)) Cert.Bridge.c8 :=
  wqT_idx (W0 m ρ c) k j
theorem in2 (c : Dev nD) (j : Fin 1024) :
    (V1 m ρ c (Pipeline.arrRef spec0 2) : S1024.Idx → EReal) (ix1 j) = HMul.hMul (α := EReal) (β := EReal) (γ := EReal) (m ((c : Thread nD τ).loc main_arg2) (ix1 j)) Cert.Bridge.c8 :=
  bqs_idx (W0 m ρ c) j
theorem in3 (c : Dev nD) (k j : Fin 1024) :
    (V1 m ρ c (Pipeline.arrRef spec0 3) : S1024x1024.Idx → EReal) (ix2 k j) = (m ((c : Thread nD τ).loc main_arg3) : S1024x1024.Idx → EReal) (ix2 j k) :=
  wkT_idx (W0 m ρ c) k j
theorem in5 (c : Dev nD) (k j : Fin 1024) :
    (V1 m ρ c (Pipeline.arrRef spec0 5) : S1024x1024.Idx → EReal) (ix2 k j) = (m ((c : Thread nD τ).loc main_arg5) : S1024x1024.Idx → EReal) (ix2 j k) :=
  wvT_idx (W0 m ρ c) k j

/-! ## What the attention region finds in its three input arrays: the three projections -/

theorem q_eq (c : Dev nD) (i : Fin 8192) (dd : Fin 1024) :
    (V2 m ρ c main_v10_0 : S8192x1024.Idx → EReal) (ix2 i dd) = Cert.Bridge.kQ (m ((c : Thread nD τ).loc main_arg0)) (m ((c : Thread nD τ).loc main_arg1)) (m ((c : Thread nD τ).loc main_arg2)) i dd := by
  have h : V2 m ρ c main_v10_0 = G7 (V1 m ρ) c := (W2_arr m ρ c 7).trans (final0_7 (V1 m ρ) c)
  rw [h, G7_ix2]
  unfold projArr Cert.Bridge.kQ
  rw [in0 m ρ c, in2 m ρ c dd]
  exact congrArg₂ (fun a b : EReal => a + b) (Finset.sum_congr rfl fun k _ => congrArg (fun b : EReal => _ * b) (in1 m ρ c k dd)) rfl

theorem kT_eq (c : Dev nD) (dd : Fin 1024) (j : Fin 8192) :
    (V2 m ρ c main_v10_1 : S1024x8192.Idx → EReal) (ix2 dd j) = Cert.ReferenceIdeal.RefValue.proj (m ((c : Thread nD τ).loc main_arg0)) (m ((c : Thread nD τ).loc main_arg3)) (m ((c : Thread nD τ).loc main_arg4)) j dd := by
  have h : V2 m ρ c main_v10_1 = G8 (V1 m ρ) c := (W2_arr m ρ c 8).trans (final0_8 (V1 m ρ) c)
  rw [h, G8_ix2]
  unfold projArr Cert.ReferenceIdeal.RefValue.proj
  rw [in0 m ρ c, in4 m ρ c]
  exact congrArg₂ (fun a b : EReal => a + b) (Finset.sum_congr rfl fun k _ => congrArg (fun b : EReal => _ * b) (in3 m ρ c k dd)) rfl

theorem v_eq (c : Dev nD) (j : Fin 8192) (d : Fin 1024) :
    (V2 m ρ c main_v10_2 : S8192x1024.Idx → EReal) (ix2 j d) = Cert.ReferenceIdeal.RefValue.proj (m ((c : Thread nD τ).loc main_arg0)) (m ((c : Thread nD τ).loc main_arg5)) (m ((c : Thread nD τ).loc main_arg6)) j d := by
  have h : V2 m ρ c main_v10_2 = G9 (V1 m ρ) c := (W2_arr m ρ c 9).trans (final0_9 (V1 m ρ) c)
  rw [h, G9_ix2]
  unfold projArr Cert.ReferenceIdeal.RefValue.proj
  rw [in0 m ρ c, in6 m ρ c]
  exact congrArg₂ (fun a b : EReal => a + b) (Finset.sum_congr rfl fun k _ => congrArg (fun b : EReal => _ * b) (in5 m ρ c k d)) rfl

/-! ## The result -/

/-- THE KERNEL'S RESULT ARRAY, when every argument entry is a real number, is the reference's function of the arguments. -/
theorem result_eq (c : Dev nD)
    (h0 : ∀ i, ∃ r : ℝ, (m ((c : Thread nD τ).loc main_arg0)) i = (r : EReal)) (h1 : ∀ i, ∃ r : ℝ, (m ((c : Thread nD τ).loc main_arg1)) i = (r : EReal))
    (h2 : ∀ i, ∃ r : ℝ, (m ((c : Thread nD τ).loc main_arg2)) i = (r : EReal)) (h3 : ∀ i, ∃ r : ℝ, (m ((c : Thread nD τ).loc main_arg3)) i = (r : EReal))
    (h4 : ∀ i, ∃ r : ℝ, (m ((c : Thread nD τ).loc main_arg4)) i = (r : EReal)) (h5 : ∀ i, ∃ r : ℝ, (m ((c : Thread nD τ).loc main_arg5)) i = (r : EReal))
    (h6 : ∀ i, ∃ r : ℝ, (m ((c : Thread nD τ).loc main_arg6)) i = (r : EReal)) :
    W4 m ρ c (Proc.devRef .tc main_v12)
      = Cert.ReferenceIdeal.RefValue.spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext (idx : S8192x1024x1.Idx)
  obtain ⟨i, d, z, rfl⟩ : ∃ (i : Fin 8192) (d : Fin 1024) (z : Fin 1), idx = ix3 i d z := ⟨idx 0, idx 1, idx 2, eq_ix3 idx⟩
  obtain rfl : z = 0 := Subsingleton.elim _ _
  refine (tail_idx (W3 m ρ c) i d).trans ?_
  have hr : W3 m ρ c (Proc.devRef .tc main_v11) = G1 (V2 m ρ) c := (W3_arr m ρ c 3).trans (final1_3 (V2 m ρ) c)
  rw [hr]
  exact Cert.Assemble.assemble _ _ _ _ _ _ _ (V2 m ρ c main_v10_0) (V2 m ρ c main_v10_1) (V2 m ρ c main_v10_2)
    (q_eq m ρ c) (kT_eq m ρ c) (v_eq m ρ c) h0 h1 h2 h3 h4 h5 h6 i d

end Cert.KernelIdeal.Final

end
-- ==== Proof.Finite.lean ====
import proofs.«167690_j59450937312052_2_alg».proof.Pre_finite_inputs
import proofs.«167690_j59450937312052_2_alg».proof.Proof.Gen.Pre_finite_inputs
import Idealize.ShloMosaic.Lib.ReduceAll
import Idealize.ShloMosaic.Lib.ValueIdx
import Idealize.ShloMosaic.PureOps.Ideal

/-! Under the precondition every entry of the seven argument arrays is a real number.

The precondition is the conjunction, over the seven arrays, of "every entry `x` has `|x| < +∞`", where `|x|` is
`max x (-x)` and each "every entry" is a reduction by `and` from `1` over all axes. A conjunction that is `1` has both
conjuncts `1`; a reduction by `and` into one index that is `1` met `1` at every entry; and an extended real with
`max x (-x) < +∞` is neither infinity, hence a real number. -/

noncomputable section

namespace Cert.Finite

open Cert.Pre_finite_inputs Cert.Pre_finite_inputs.Gen
open Idealize.ShloMosaic Idealize.ShloMosaic.ValueIdx

/-- The word `0x7F800000` is `+∞`. -/
theorem posInf : Ideal.ofBits .f32 0x7F800000#32 = (⊤ : EReal) := by simp [Ideal.ofBits, Ideal.ieee]

/-- An extended real whose absolute value `max x (-x)` is below `+∞` is a real number. -/
theorem real_of_abs_lt (x : EReal)
    (h : Ideal.cmp .olt (max x (-x)) (Ideal.ofBits .f32 0x7F800000#32) = 1#1) : ∃ r : ℝ, x = (r : EReal) := by
  rw [posInf] at h
  have hlt : max x (-x) < ⊤ := by
    unfold Ideal.cmp at h
    by_contra hn
    simp [hn] at h
  induction x using EReal.rec with
  | bot => simp at hlt
  | coe r => exact ⟨r, rfl⟩
  | top => simp at hlt

/-- The scalar shape has one index. -/
instance : Subsingleton S_.Idx := ⟨fun a b => funext fun d => d.elim0⟩

/-- If the precondition's value is `1` then every entry of each of the seven arrays is a real number. -/
theorem finite_of_pre (x0 : FVec Ideal S8192x1024 .f32) (x1 : FVec Ideal S1024x1024 .f32) (x2 : FVec Ideal S1024 .f32)
    (x3 : FVec Ideal S1024x1024 .f32) (x4 : FVec Ideal S1024 .f32) (x5 : FVec Ideal S1024x1024 .f32)
    (x6 : FVec Ideal S1024 .f32)
    (h : Cert.Pre_finite_inputs.fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) := by
  have e := congrFun h ix0
  dsimp only [Cert.Pre_finite_inputs.fn, Cert.Pre_finite_inputs.fn_part1] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => real_of_abs_lt _ (Host.reduce_andi_all _ _ _ _ ix0 e0 i),
    fun i => real_of_abs_lt _ (Host.reduce_andi_all _ _ _ _ ix0 e1 i),
    fun i => real_of_abs_lt _ (Host.reduce_andi_all _ _ _ _ ix0 e2 i),
    fun i => real_of_abs_lt _ (Host.reduce_andi_all _ _ _ _ ix0 e3 i),
    fun i => real_of_abs_lt _ (Host.reduce_andi_all _ _ _ _ ix0 e4 i),
    fun i => real_of_abs_lt _ (Host.reduce_andi_all _ _ _ _ ix0 e5 i),
    fun i => real_of_abs_lt _ (Host.reduce_andi_all _ _ _ _ ix0 e6 i)⟩

end Cert.Finite

end
-- ==== Proof.lean ====
/-
  A fused projection-and-flash-attention kernel against plain softmax attention, over the extended reals.

  The kernel scales the first weight matrix and bias by 1/8 on the host, computes the three projections of the input in
  one launch (the second stored transposed), and then, for each block of 1024 rows, walks the eight blocks of 1024 columns
  keeping a running row maximum, a running sum of weights and a running weighted sum of the third projection's rows,
  rescaling the two sums whenever the maximum grows, and divides at the end. The reference multiplies the first two
  projections, scales the scores by 1/sqrt 64, applies a row softmax and multiplies by the third projection.

  On the extended reals, with every argument entry a real number: 1/sqrt 64 is 1/8; scaling the weights and bias
  before the product is scaling the scores after it (distributivity on the reals); the running quantities after the last
  column block are the maximum, the sum of exp (score − maximum) and that sum weighted by the values, over the whole row
  (exp (m − m') · exp (x − m) = exp (x − m'), and on the first block the rescaling factor is exp (−∞) = 0 times 0);
  and a sum of quotients by one positive number is the quotient of the sum. So the two results agree entry by entry.

  The two kernel programs' frames are the composition of a host stretch, the two launches and the closing reshape; in the
  second launch the three scratch buffers are carried from point to point at contents given by recursion on the point.
  The reference's frame and run are its generated run.
-/
import proofs.«167690_j59450937312052_2_alg».proof.Defs
import proofs.«167690_j59450937312052_2_alg».proof.Proof.Gen.Kernel
import proofs.«167690_j59450937312052_2_alg».proof.Proof.Gen.KernelIdeal
import proofs.«167690_j59450937312052_2_alg».proof.Proof.Gen.ReferenceIdeal
import proofs.«167690_j59450937312052_2_alg».proof.Proof.Gen.Pre_finite_inputs
import proofs.«167690_j59450937312052_2_alg».proof.Proof.KRunMain
import proofs.«167690_j59450937312052_2_alg».proof.Proof.KIFinal
import proofs.«167690_j59450937312052_2_alg».proof.Proof.Reference
import proofs.«167690_j59450937312052_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Hand.frame (F := Bits) m ρ
/-- So does its reading on the extended reals. -/
theorem frame_ki : Cert.frame_KernelIdeal := fun m ρ _ => Cert.KernelIdeal.Hand.frame (F := Ideal) m ρ
/-- The reference is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the seven arguments, all of them finite, the kernel's result array and the reference's are
    one function of the arguments. -/
theorem algebraic : Cert.algebraic_KernelIdeal_ReferenceIdeal := by
  intro m ρ m' ρ' hpre hagree
  refine ⟨fun c => Cert.ReferenceIdeal.RefValue.spec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Hand.run_main (F := Ideal) m ρ)
    obtain ⟨f0, f1, f2, f3, f4, f5, f6⟩ := Cert.Finite.finite_of_pre _ _ _ _ _ _ _ (hpre c)
    exact ⟨(h c _ (Cert.KernelIdeal.Hand.mem_uc Cert.KernelIdeal.main_v12 (by decide))).trans (Cert.KernelIdeal.Final.result_eq m ρ c f0 f1 f2 f3 f4 f5 f6),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c),
      (h c _ (Cert.KernelIdeal.Hand.mem_uc Cert.KernelIdeal.main_arg6 (by decide))).trans (Cert.KernelIdeal.Hand.W4_main_arg6 m ρ c)⟩
  · refine (θ_run Cert.ReferenceIdeal.defs _ _).mono (fun _ h c => ⟨?_, (h c).2⟩) (Cert.ReferenceIdeal.Value.run (F := Ideal) m' ρ')
    refine ((h c).1.trans (Cert.ReferenceIdeal.RefValue.res_eq m' c)).trans ?_
    rw [(hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
